-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S3x128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x64 .f32 := Host.absf main_arg4
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S3x128x128 .f32) (main_arg3 : FVec F S128 .f32) (main_arg4 : FVec F S3x128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x128 : Shape := ⟨2, ![1, 128]⟩
abbrev S1x64 : Shape := ⟨2, ![1, 64]⟩
abbrev S400x10000 : Shape := ⟨2, ![400, 10000]⟩
abbrev S400x128 : Shape := ⟨2, ![400, 128]⟩
abbrev S1x128x128 : Shape := ⟨3, ![1, 128, 128]⟩
abbrev S128x128 : Shape := ⟨2, ![128, 128]⟩
abbrev S10000x64 : Shape := ⟨2, ![10000, 64]⟩
abbrev S400x64 : Shape := ⟨2, ![400, 64]⟩
abbrev S1x128x64 : Shape := ⟨3, ![1, 128, 64]⟩
abbrev S128x64 : Shape := ⟨2, ![128, 64]⟩
abbrev S400 : Shape := ⟨1, ![400]⟩
abbrev S400x1 : Shape := ⟨2, ![400, 1]⟩

abbrev nBuf : Space → Nat
  | .hbm => 17
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x64, .f32⟩
  | .hbm, ⟨5, _⟩ => ⟨S64, .f32⟩
  | .hbm, ⟨6, _⟩ => ⟨S10000x128, .bf16⟩
  | .hbm, ⟨7, _⟩ => ⟨S3x128x128, .bf16⟩
  | .hbm, ⟨8, _⟩ => ⟨S3x128x64, .bf16⟩
  | .hbm, ⟨9, _⟩ => ⟨S1x128, .f32⟩
  | .hbm, ⟨10, _⟩ => ⟨S1x64, .f32⟩
  | .hbm, ⟨11, _⟩ => ⟨S10000x10000, .bf16⟩
  | .hbm, ⟨12, _⟩ => ⟨S10000x128, .bf16⟩
  | .hbm, ⟨13, _⟩ => ⟨S10000x128, .f32⟩
  | .hbm, ⟨14, _⟩ => ⟨S10000x128, .bf16⟩
  | .hbm, ⟨15, _⟩ => ⟨S10000x128, .bf16⟩
  | .hbm, ⟨16, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x10000, .bf16⟩
  | .local _ .vmem, ⟨4, _⟩ => ⟨S400x10000, .bf16⟩
  | .local _ .vmem, ⟨5, _⟩ => ⟨S400x128, .bf16⟩
  | .local _ .vmem, ⟨6, _⟩ => ⟨S400x128, .bf16⟩
  | .local _ .vmem, ⟨7, _⟩ => ⟨S400x10000, .bf16⟩
  | .local _ .vmem, ⟨8, _⟩ => ⟨S400x10000, .bf16⟩
  | .local _ .vmem, ⟨9, _⟩ => ⟨S10000x128, .bf16⟩
  | .local _ .vmem, ⟨10, _⟩ => ⟨S400x128, .bf16⟩
  | .local _ .vmem, ⟨11, _⟩ => ⟨S400x128, .bf16⟩
  | .local _ .vmem, ⟨12, _⟩ => ⟨S400x128, .f32⟩
  | .local _ .vmem, ⟨13, _⟩ => ⟨S400x128, .f32⟩
  | .local _ .vmem, ⟨14, _⟩ => ⟨S400x128, .bf16⟩
  | .local _ .vmem, ⟨15, _⟩ => ⟨S400x128, .bf16⟩
  | .local _ .vmem, ⟨16, _⟩ => ⟨S3x128x128, .bf16⟩
  | .local _ .vmem, ⟨17, _⟩ => ⟨S1x128, .f32⟩
  | .local _ .vmem, ⟨18, _⟩ => ⟨S400x128, .f32⟩
  | .local _ .vmem, ⟨19, _⟩ => ⟨S400x128, .f32⟩
  | .local _ .vmem, ⟨20, _⟩ => ⟨S400x128, .bf16⟩
  | .local _ .vmem, ⟨21, _⟩ => ⟨S400x128, .bf16⟩
  | .local _ .vmem, ⟨22, _⟩ => ⟨S400x10000, .bf16⟩
  | .local _ .vmem, ⟨23, _⟩ => ⟨S400x10000, .bf16⟩
  | .local _ .vmem, ⟨24, _⟩ => ⟨S10000x128, .bf16⟩
  | .local _ .vmem, ⟨25, _⟩ => ⟨S400x128, .bf16⟩
  | .local _ .vmem, ⟨26, _⟩ => ⟨S400x128, .bf16⟩
  | .local _ .vmem, ⟨27, _⟩ => ⟨S400x10000, .bf16⟩
  | .local _ .vmem, ⟨28, _⟩ => ⟨S400x10000, .bf16⟩
  | .local _ .vmem, ⟨29, _⟩ => ⟨S10000x128, .bf16⟩
  | .local _ .vmem, ⟨30, _⟩ => ⟨S400x128, .bf16⟩
  | .local _ .vmem, ⟨31, _⟩ => ⟨S400x128, .bf16⟩
  | .local _ .vmem, ⟨32, _⟩ => ⟨S400x128, .f32⟩
  | .local _ .vmem, ⟨33, _⟩ => ⟨S400x128, .f32⟩
  | .local _ .vmem, ⟨34, _⟩ => ⟨S400x128, .bf16⟩
  | .local _ .vmem, ⟨35, _⟩ => ⟨S400x128, .bf16⟩
  | .local _ .vmem, ⟨36, _⟩ => ⟨S3x128x64, .bf16⟩
  | .local _ .vmem, ⟨37, _⟩ => ⟨S1x64, .f32⟩
  | .local _ .vmem, ⟨38, _⟩ => ⟨S400x64, .f32⟩
  | .local _ .vmem, ⟨39, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem6_0 : DmaSem sig := 37
abbrev cc3_sem7_0 : DmaSem sig := 38
abbrev cc3_sem7_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S3x128x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S400x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  shapeCasts_S400x128_S400x128 : S400x128.ShapeCasts S400x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  h_S400x64 : 0 < S400x64.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .bf16 = 32 ∨ (Rect.block (s := S10000x10000) S400x10000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .bf16 = 32 ∨ (Rect.block (s := S10000x128) S400x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x128.size a ≤ S3x128x128.size a
  hwx1_5 : ∀ i : grid1.Coords, EltTy.bits .bf16 = 32 ∨ (Rect.block (s := S3x128x128) S3x128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .bf16 = 32 ∨ (Rect.block (s := S10000x128) S400x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .bf16 = 32 ∨ (Rect.block (s := S10000x128) S400x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .bf16 = 32 ∨ (Rect.block (s := S10000x128) S400x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x128.size a ≤ S10000x128.size a
  hwx3_3 : ∀ i : grid3.Coords, EltTy.bits .f32 = 32 ∨ (Rect.block (s := S10000x128) S400x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .bf16 = 32 ∨ (Rect.block (s := S10000x128) S400x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x128x64.size a ≤ S3x128x64.size a
  hwx3_5 : ∀ i : grid3.Coords, EltTy.bits .bf16 = 32 ∨ (Rect.block (s := S3x128x64) S3x128x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S400x64.size a ≤ S10000x64.size a
  hwx3_7 : ∀ i : grid3.Coords, EltTy.bits .f32 = 32 ∨ (Rect.block (s := S10000x64) S400x64.size (cc3_transform_7 i) (hinb3_7 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S400x10000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5_0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S3x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6_0) S400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_1) S400x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v5_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v5_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S400x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v6_1) S400x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v2) S3x128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v4) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v8) S400x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x128x128 : Shape := ⟨3, ![1, 128, 128]⟩
abbrev S128x128 : Shape := ⟨2, ![128, 128]⟩
abbrev S_ : Shape := ⟨0, ![]⟩
abbrev S1x128 : Shape := ⟨2, ![1, 128]⟩
abbrev S1x128x64 : Shape := ⟨3, ![1, 128, 64]⟩
abbrev S128x64 : Shape := ⟨2, ![128, 64]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 64
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x64, .f32⟩
  | .hbm, ⟨5, _⟩ => ⟨S64, .f32⟩
  | .hbm, ⟨6, _⟩ => ⟨S1x128x128, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S1x128x128, .f32⟩
  | .hbm, ⟨11, _⟩ => ⟨S128x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128x128, .f32⟩
  | .hbm, ⟨20, _⟩ => ⟨S128x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S1x128x64, .f32⟩
  | .hbm, ⟨30, _⟩ => ⟨S128x64, .f32⟩
  | .hbm, ⟨31, _⟩ => ⟨S10000x64, .f32⟩
  | .hbm, ⟨32, _⟩ => ⟨S10000x128, .f32⟩
  | .hbm, ⟨33, _⟩ => ⟨S1x128x64, .f32⟩
  | .hbm, ⟨34, _⟩ => ⟨S128x64, .f32⟩
  | .hbm, ⟨35, _⟩ => ⟨S10000x64, .f32⟩
  | .hbm, ⟨36, _⟩ => ⟨S10000x64, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128x64, .f32⟩
  | .hbm, ⟨43, _⟩ => ⟨S128x64, .f32⟩
  | .hbm, ⟨44, _⟩ => ⟨S10000x64, .f32⟩
  | .hbm, ⟨45, _⟩ => ⟨S10000x64, .f32⟩
  | .hbm, ⟨46, _⟩ => ⟨S1x64, .f32⟩
  | .hbm, ⟨47, _⟩ => ⟨S10000x64, .f32⟩
  | .hbm, ⟨48, _⟩ => ⟨S10000x64, .f32⟩
  | .hbm, ⟨49, _⟩ => ⟨S_, .f32⟩
  | .hbm, ⟨50, _⟩ => ⟨S10000, .f32⟩
  | .hbm, ⟨51, _⟩ => ⟨S_, .f32⟩
  | .hbm, ⟨52, _⟩ => ⟨S10000, .f32⟩
  | .hbm, ⟨53, _⟩ => ⟨S10000, .f32⟩
  | .hbm, ⟨54, _⟩ => ⟨S10000x1, .f32⟩
  | .hbm, ⟨55, _⟩ => ⟨S10000x64, .f32⟩
  | .hbm, ⟨56, _⟩ => ⟨S10000x64, .f32⟩
  | .hbm, ⟨57, _⟩ => ⟨S10000x64, .f32⟩
  | .hbm, ⟨58, _⟩ => ⟨S_, .f32⟩
  | .hbm, ⟨59, _⟩ => ⟨S10000, .f32⟩
  | .hbm, ⟨60, _⟩ => ⟨S10000x1, .f32⟩
  | .hbm, ⟨61, _⟩ => ⟨S10000x1, .f32⟩
  | .hbm, ⟨62, _⟩ => ⟨S10000x64, .f32⟩
  | .hbm, ⟨63, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v39 : Ref sig .tc := ⟨.hbm, 63, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  bcast_S_S10000x128 : S_.BroadcastsInDim S10000x128 (![] : Fin 0 → Fin S10000x128.rank)
  slices_S3x128x128_S1x128x128_2_0_0 : S3x128x128.Slices ![2, 0, 0] S1x128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.FrK0.lean ====
/- Region 0 of the kernel (the first row-tiled call: abf = bf16(adj), t1 = abf · xb), at a parameter `V`, the
   TensorCore's buffer contents when the region is entered.  For each grid point the call reads a 400-row block of
   `adj` and the whole of `xb`, and stores the rounded 400x10000 block and the 400x128 product block; this module
   states what each window's staging buffer holds before and after the body, proves the body's triple, and discharges
   the pipeline's body obligation. -/
import proofs.«118616_g893353198325_cont_sun_c4_277_2_alg».proof.Proof.Gen.Kernel.Launch
import proofs.«118616_g893353198325_cont_sun_c4_277_2_alg».proof.Proof.Gen.Kernel.Skeleton
import proofs.«118616_g893353198325_cont_sun_c4_277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of extent 10000 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 400-row block of `adj`, fetched at every point): its current staging buffer holds its block,
    for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole of `xb`, fetched at the first point only; its block index never moves): its staging
    buffer holds the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is its whole buffer -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0

/-! ## What the body leaves in each output window's buffer -/

/-- Window 2's staging buffer after the body, from the input windows' blocks: its one store, of the `adj` block
    rounded to bf16 (the payload `k0_pay1`). -/
def out0_2 (x0 : Vec F S400x10000 .f32) : Vec F S400x10000 .bf16 :=
  View.canon [⟨r0_0, k0_pay1 (View.ld x0 r0_0)⟩]

/-- Window 3's staging buffer after the body: its one store, of the product of the rounded block with `xb`, rounded
    to bf16 (the payload `k0_pay2`). -/
def out0_3 (x0 : Vec F S400x10000 .f32) (x1 : Vec F S10000x128 .bf16) : Vec F S400x128 .bf16 :=
  View.canon [⟨r0_2, k0_pay2 (View.ld x0 r0_0) (View.ld x1 r0_1)⟩]

/-- Each store is the whole buffer, so it covers it. -/
theorem cover0_2 (p0 : Vec F S400x10000 .bf16) (y : S400x10000.Idx) :
    ∃ pc ∈ ([⟨r0_0, p0⟩] : List (View.Piece (Elt F) S400x10000 .bf16)), y ∈ pc.1.set :=
  View.cover_of_tiled [⟨r0_0, p0⟩] S400x10000.size (by rfl) y

theorem cover0_3 (p0 : Vec F S400x128 .bf16) (y : S400x128.Idx) :
    ∃ pc ∈ ([⟨r0_2, p0⟩] : List (View.Piece (Elt F) S400x128 .bf16)), y ∈ pc.1.set :=
  View.cover_of_tiled [⟨r0_2, p0⟩] S400x128.size (by rfl) y

/-! ## The body's triple -/

set_option maxHeartbeats 1000000 in
/-- The kernel body on whole staging memrefs, the inputs' at contents `x0`, `x1` and the outputs' at anything, runs
    to the continuation holding the inputs' as they were and the outputs' at `out0_2 x0` and `out0_3 x0 x1`. -/
theorem sound_kernel0 (c : Dev nD) (E : Set ℕ) (i : grid0.Coords) (arg1 : Memref sig .tc .vmem S400x10000 .f32) (harg1 : arg1.IsWhole) (arg2 : Memref sig .tc .vmem S10000x128 .bf16) (harg2 : arg2.IsWhole) (arg3 : Memref sig .tc .vmem S400x10000 .bf16) (harg3 : arg3.IsWhole) (arg4 : Memref sig .tc .vmem S400x128 .bf16) (harg4 : arg4.IsWhole)
    (x0 : Vec F S400x10000 .f32) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__p1_kernel i arg1 harg1 arg2 harg2 arg3 harg3 arg4 harg4) K := by
  simp only [cc0__p1_kernel_eq_skeleton]; unfold cc0__p1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of this pipeline on core `c`: the arrays as the region finds them (`V`); after the body at point
    `t` each input's buffer at its block and each output's at `out0_W` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr
-- ==== Proof.FrK1.lean ====
import proofs.«118616_g893353198325_cont_sun_c4_277_2_alg».proof.Proof.Gen.Kernel.Launch
import proofs.«118616_g893353198325_cont_sun_c4_277_2_alg».proof.Proof.Gen.Kernel.Skeleton
import proofs.«118616_g893353198325_cont_sun_c4_277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the kernel body's half of the frame argument

At a parameter `V` (the TensorCore's buffer contents when the region is entered): each window's block at a
point, what the body leaves in each output window's staging buffer as a function of the input windows' blocks,
the body's separation-logic triple, the pipeline's proof data and its body obligation. -/

-- membership in a rectangle of large extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S3x128x128 := Rect.unit (s := S3x128x128) ![0, 0, 0] S1x128x128.size inb_S3x128x128_S1x128x128_0_0_0
abbrev r1_4 : Rect S3x128x128 := Rect.unit (s := S3x128x128) ![1, 0, 0] S1x128x128.size inb_S3x128x128_S1x128x128_1_0_0
abbrev r1_5 : Rect S3x128x128 := Rect.unit (s := S3x128x128) ![2, 0, 0] S1x128x128.size inb_S3x128x128_S1x128x128_2_0_0
abbrev r1_6 : Rect S1x128 := Rect.unit (s := S1x128) ![0, 0] S1x128.size inb_S1x128_S1x128_0_0

/-! ## What the body leaves in each output window's buffer -/

/-- The layer's pre-rounding activations from the input windows' blocks: the payload over the body's loads (the weight
    window is read through its three slabs). -/
def pre1 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : FVec F S400x128 .f32 :=
  k1_pay2 (View.ld x0 r1_0) (View.ld x1 r1_1) (View.ld x3 r1_2) (View.ld x4 r1_2) (View.ld x5 r1_3) (View.ld x2 r1_2) (View.ld x5 r1_4) (View.ld x5 r1_5) (View.ld x6 r1_6)

/-- Window 7's staging buffer after the body, from the input windows' blocks: its one store as a piece. -/
def out1_7 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : Vec F S400x128 .f32 :=
  View.canon [⟨r1_2, pre1 x0 x1 x2 x3 x4 x5 x6⟩]

/-- Window 8's staging buffer after the body: the same activations rounded, its one store as a piece. -/
def out1_8 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : Vec F S400x128 .bf16 :=
  View.canon [⟨r1_2, k1_pay1 (pre1 x0 x1 x2 x3 x4 x5 x6)⟩]

/-- The one store is the whole buffer, so it covers it. -/
theorem cover1_7 (p0 : Vec F S400x128 .f32) (y : S400x128.Idx) :
    ∃ pc ∈ ([⟨r1_2, p0⟩] : List (View.Piece (Elt F) S400x128 .f32)), y ∈ pc.1.set :=
  View.cover_of_tiled [⟨r1_2, p0⟩] S400x128.size (by rfl) y
theorem cover1_8 (p0 : Vec F S400x128 .bf16) (y : S400x128.Idx) :
    ∃ pc ∈ ([⟨r1_2, p0⟩] : List (View.Piece (Elt F) S400x128 .bf16)), y ∈ pc.1.set :=
  View.cover_of_tiled [⟨r1_2, p0⟩] S400x128.size (by rfl) y

/-! ## The body's triple -/

set_option maxHeartbeats 1000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S400x10000 .bf16) (harg0 : arg0.IsWhole) (arg1 : Memref sig .tc .vmem S10000x128 .bf16) (harg1 : arg1.IsWhole) (arg2 : Memref sig .tc .vmem S400x128 .bf16) (harg2 : arg2.IsWhole) (arg3 : Memref sig .tc .vmem S400x128 .f32) (harg3 : arg3.IsWhole) (arg4 : Memref sig .tc .vmem S400x128 .bf16) (harg4 : arg4.IsWhole) (arg5 : Memref sig .tc .vmem S3x128x128 .bf16) (harg5 : arg5.IsWhole) (arg6 : Memref sig .tc .vmem S1x128 .f32) (harg6 : arg6.IsWhole) (arg7 : Memref sig .tc .vmem S400x128 .f32) (harg7 : arg7.IsWhole) (arg8 : Memref sig .tc .vmem S400x128 .bf16) (harg8 : arg8.IsWhole)
    (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6) ∗ owns (c : Thread nD τ) arg8 fullShare (out1_8 x0 x1 x2 x3 x4 x5 x6)) -∗ K ⟨⟩))
      ⊢ wp frame (wpE (defs₀ (F := F)) Variants.none c none) E (cc1__p2_kernel i arg0 harg0 arg1 harg1 arg2 harg2 arg3 harg3 arg4 harg4 arg5 harg5 arg6 harg6 arg7 harg7 arg8 harg8) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of the pipeline on core `c`: the arrays as the region finds them (`V`); after the body at point `t`
    each input's buffer at its block and each output's at `out1_W` of the input blocks; the invariant the scoped rest
    and the generator register, untouched; nothing owed. Windows 1 and 2 read one array, whole and by row blocks: each
    holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q := fun w => match w with
    | ⟨1, _⟩ => (fullShare : PosShare TreeShare).left
    | ⟨2, _⟩ => (fullShare : PosShare TreeShare).right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrK2.lean ====
/- Region 2 of the kernel (the third row-tiled call: th1 = abf · hb), at a parameter `V`, the TensorCore's buffer
   contents when the region is entered.  For each grid point the call reads a 400-row block of `abf` and the whole
   of `hb`, and stores the 400x128 product block; this module states what each window's staging buffer holds
   before and after the body, proves the body's triple, and discharges the pipeline's body obligation. -/
import proofs.«118616_g893353198325_cont_sun_c4_277_2_alg».proof.Proof.Gen.Kernel.Launch
import proofs.«118616_g893353198325_cont_sun_c4_277_2_alg».proof.Proof.Gen.Kernel.Skeleton
import proofs.«118616_g893353198325_cont_sun_c4_277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of extent 10000 recurses once per coordinate of that axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the 400-row block of `abf`, fetched at every point): its current staging buffer holds its block,
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole of `hb`, fetched at the first point only; its block index never moves): its staging
    buffer holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store is its whole buffer -/

abbrev r2_0 : Rect S400x10000 := Rect.unit (s := S400x10000) ![0, 0] S400x10000.size inb_S400x10000_S400x10000_0_0
abbrev r2_1 : Rect S10000x128 := Rect.unit (s := S10000x128) ![0, 0] S10000x128.size inb_S10000x128_S10000x128_0_0
abbrev r2_2 : Rect S400x128 := Rect.unit (s := S400x128) ![0, 0] S400x128.size inb_S400x128_S400x128_0_0

/-! ## What the body leaves in the output window's buffer -/

/-- Window 2's staging buffer after the body, from the input windows' blocks: its one store, of the product of the
    `abf` block with `hb` rounded to bf16 (the payload `k2_pay1`). -/
def out2_2 (x0 : Vec F S400x10000 .bf16) (x1 : Vec F S10000x128 .bf16) : Vec F S400x128 .bf16 :=
  View.canon [⟨r2_2, k2_pay1 (View.ld x0 r2_0) (View.ld x1 r2_1)⟩]

/-- The store is the whole buffer, so it covers it. -/
theorem cover2_2 (p0 : Vec F S400x128 .bf16) (y : S400x128.Idx) :
    ∃ pc ∈ ([⟨r2_2, p0⟩] : List (View.Piece (Elt F) S400x128 .bf16)), y ∈ pc.1.set :=
  View.cover_of_tiled [⟨r2_2, p0⟩] S400x128.size (by rfl) y

/-! ## The body's triple -/

set_option maxHeartbeats 1000000 in
/-- The kernel body on whole staging memrefs, the inputs' at contents `x0`, `x1` and the output's at anything, runs
    to the continuation holding the inputs' as they were and the output's at `out2_2 x0 x1`. -/
theorem sound_kernel2 (c : Dev nD) (E : Set ℕ) (i : grid2.Coords) (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole)
    (x0 : Vec F S400x10000 .bf16) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__ax_kernel i arg1 harg1 arg2 harg2 arg3 harg3) K := by
  simp only [cc2__ax_kernel_eq_skeleton]; unfold cc2__ax_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at point
    `t` each input's buffer at its block and the output's at `out2_2` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr
-- ==== Proof.FrK3.lean ====
import proofs.«118616_g893353198325_cont_sun_c4_277_2_alg».proof.Proof.Gen.Kernel.Launch
import proofs.«118616_g893353198325_cont_sun_c4_277_2_alg».proof.Proof.Gen.Kernel.Skeleton
import proofs.«118616_g893353198325_cont_sun_c4_277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the kernel body's half of the frame argument

At a parameter `V` (the TensorCore's buffer contents when the region is entered): each window's block at a
point, what the body leaves in each output window's staging buffer as a function of the input windows' blocks,
the body's separation-logic triple, the pipeline's proof data and its body obligation. -/

-- membership in a rectangle of large extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (unfetched, the
    block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_3 : Rect S3x128x64 := Rect.unit (s := S3x128x64) ![0, 0, 0] S1x128x64.size inb_S3x128x64_S1x128x64_0_0_0
abbrev r3_4 : Rect S3x128x64 := Rect.unit (s := S3x128x64) ![1, 0, 0] S1x128x64.size inb_S3x128x64_S1x128x64_1_0_0
abbrev r3_5 : Rect S3x128x64 := Rect.unit (s := S3x128x64) ![2, 0, 0] S1x128x64.size inb_S3x128x64_S1x128x64_2_0_0
abbrev r3_6 : Rect S1x64 := Rect.unit (s := S1x64) ![0, 0] S1x64.size inb_S1x64_S1x64_0_0
abbrev r3_7 : Rect S400x64 := Rect.unit (s := S400x64) ![0, 0] S400x64.size inb_S400x64_S400x64_0_0

/-! ## What the body leaves in each output window's buffer -/

/-- Window 7's staging buffer after the body, from the input windows' blocks: its one store as a piece — the rows'
    logits and their row maxima (both over the body's loads, the weight window read through its three slabs) into the
    log-softmax payload. -/
def out3_7 (x0 : Vec F S400x10000 .bf16) (x1 : Vec F S10000x128 .bf16) (x2 : Vec F S400x128 .bf16) (x3 : Vec F S400x128 .f32) (x4 : Vec F S400x128 .bf16) (x5 : Vec F S3x128x64 .bf16) (x6 : Vec F S1x64 .f32) : Vec F S400x64 .f32 :=
  View.canon [⟨r3_7, k3_pay1
    (k3_pay2 (View.ld x0 r3_0) (View.ld x1 r3_1) (View.ld x3 r3_2) (View.ld x4 r3_2) (View.ld x5 r3_3) (View.ld x2 r3_2) (View.ld x5 r3_4) (View.ld x5 r3_5) (View.ld x6 r3_6))
    (k3_pay3 (View.ld x0 r3_0) (View.ld x1 r3_1) (View.ld x3 r3_2) (View.ld x4 r3_2) (View.ld x5 r3_3) (View.ld x2 r3_2) (View.ld x5 r3_4) (View.ld x5 r3_5) (View.ld x6 r3_6))⟩]

/-- The one store is the whole buffer, so it covers it. -/
theorem cover3_7 (p0 : Vec F S400x64 .f32) (y : S400x64.Idx) :
    ∃ pc ∈ ([⟨r3_7, p0⟩] : List (View.Piece (Elt F) S400x64 .f32)), y ∈ pc.1.set :=
  View.cover_of_tiled [⟨r3_7, p0⟩] S400x64.size (by rfl) y

/-! ## The body's triple -/

set_option maxHeartbeats 1000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg0 : Memref sig .tc .vmem S400x10000 .bf16) (harg0 : arg0.IsWhole) (arg1 : Memref sig .tc .vmem S10000x128 .bf16) (harg1 : arg1.IsWhole) (arg2 : Memref sig .tc .vmem S400x128 .bf16) (harg2 : arg2.IsWhole) (arg3 : Memref sig .tc .vmem S400x128 .f32) (harg3 : arg3.IsWhole) (arg4 : Memref sig .tc .vmem S400x128 .bf16) (harg4 : arg4.IsWhole) (arg5 : Memref sig .tc .vmem S3x128x64 .bf16) (harg5 : arg5.IsWhole) (arg6 : Memref sig .tc .vmem S1x64 .f32) (harg6 : arg6.IsWhole) (arg7 : Memref sig .tc .vmem S400x64 .f32) (harg7 : arg7.IsWhole)
    (x0 : Vec F S400x10000 .bf16) (x1 : Vec F S10000x128 .bf16) (x2 : Vec F S400x128 .bf16) (x3 : Vec F S400x128 .f32) (x4 : Vec F S400x128 .bf16) (x5 : Vec F S3x128x64 .bf16) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__p4_kernel i arg0 harg0 arg1 harg1 arg2 harg2 arg3 harg3 arg4 harg4 arg5 harg5 arg6 harg6 arg7 harg7) K := by
  simp only [cc3__p4_kernel_eq_skeleton]; unfold cc3__p4_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of the pipeline on core `c`: the arrays as the region finds them (`V`); after the body at point `t`
    each input's buffer at its block and each output's at `out3_W` of the input blocks; the invariant the scoped rest
    and the generator register, untouched; nothing owed. Windows 1 and 2 read one array, whole and by row blocks: each
    holds half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q := fun w => match w with
    | ⟨1, _⟩ => (fullShare : PosShare TreeShare).left
    | ⟨2, _⟩ => (fullShare : PosShare TreeShare).right
    | _ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.SplitK.lean ====
/-
  Two of the kernel's four row-tiled calls hand ONE array to two input windows: the product A·X computed by the previous
  call is read whole (the right operand of the next product) and by 400-row blocks (a left operand of the feature
  projections). The pipeline holds each window's array at a share of its own, so the buffer behind the shared array,
  held whole at the full share when the call is entered, is dealt to the two windows as the two halves of the full
  share, and the halves are put together again when the call is left. Every other array has one window and keeps the
  full share. Stated for any proof data with those shares; both directions, alone and beside the unscoped rest.
-/
import proofs.«118616_g893353198325_cont_sun_c4_277_2_alg».proof.Proof.Gen.Kernel.Launch
import Idealize.ShloMosaic.Lib.Pipeline.Frame
import Idealize.ShloMosaic.Lib.Pipeline.Kit
import Idealize.ShloMosaic.Lib.Pipeline.FrameBody
import Idealize.ShloMosaic.Lib.Pipeline.Regions
import Idealize.ShloMosaic.Lib.Pipeline.RegionsLoop
import Idealize.ShloMosaic.Lib.Tactic

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000

/-! ## Region 1: windows 1 and 2 read one array -/

/-- The distinct buffers behind region 1's arrays, one by one. -/
theorem arrBufs1_eq {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5_0) ↦{fullShare} V main_v5_0) ∗ (((c : Thread nD τ).loc main_v5_1) ↦{fullShare} V main_v5_1) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v3) ↦{fullShare} V main_v3) ∗ (((c : Thread nD τ).loc main_v6_0) ↦{fullShare} V main_v6_0) ∗ (((c : Thread nD τ).loc main_v6_1) ↦{fullShare} V main_v6_1)) := by
  unfold Pipeline.arrBufs
  exact bigSep_eq_bigSepL_of_eq [main_v5_0, main_v5_1, main_arg0, main_v0, main_v1, main_v3, main_v6_0, main_v6_1] (by decide) (by decide) _

/-- The proof data's arrays, window by window, at the shares it holds them: the shared array's buffer appears twice,
    once at each half of the full share. -/
theorem arrays1_eq {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b)) :
    (D.arrays (fun w => V (Pipeline.arrRef spec1 w)) : sProp 𝕄)
      = iprop((((c : Thread nD τ).loc main_v5_0) ↦{fullShare} V main_v5_0) ∗ (((c : Thread nD τ).loc main_v5_1) ↦{(fullShare : PosShare TreeShare).left} V main_v5_1) ∗ (((c : Thread nD τ).loc main_v5_1) ↦{(fullShare : PosShare TreeShare).right} V main_v5_1) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v3) ↦{fullShare} V main_v3) ∗ (((c : Thread nD τ).loc main_v6_0) ↦{fullShare} V main_v6_0) ∗ (((c : Thread nD τ).loc main_v6_1) ↦{fullShare} V main_v6_1)) := by
  unfold Dat.arrays
  rw [bigSep_W1, hs1, hs2, hs 0 (by decide) (by decide), hs 3 (by decide) (by decide), hs 4 (by decide) (by decide), hs 5 (by decide) (by decide), hs 6 (by decide) (by decide), hs 7 (by decide) (by decide), hs 8 (by decide) (by decide),
    (arr_whole1 0).set_eq_univ, (arr_whole1 1).set_eq_univ, (arr_whole1 3).set_eq_univ, (arr_whole1 4).set_eq_univ, (arr_whole1 5).set_eq_univ, (arr_whole1 6).set_eq_univ, (arr_whole1 7).set_eq_univ, (arr_whole1 8).set_eq_univ]

/-- ENTRY: the buffers behind the arrays, each whole at the full share, are the proof data's arrays, the shared
    buffer's share halved between its two windows. -/
theorem arrays1_of_bufs {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs (Ix := Unit) (Name := ℕ) (U := UR sig nD τ) (Lvl := ℕ) spec1 c V : sProp 𝕄) ⊢ D.arrays Fa := by
  obtain rfl : Fa = fun w => V (Pipeline.arrRef spec1 w) := funext hF
  rw [arrBufs1_eq, arrays1_eq D hs1 hs2 hs V]
  iintro ⟨H0, H1, H2, H3, H4, H5, H6, H7⟩
  ihave Hs := (pointsTo_share (PosShare.mem_left_op_right fullShare)).1 $$ H1
  icases Hs with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  iexact H7

/-- EXIT: the two halves of the shared buffer's share are put together again. -/
theorem bufs1_of_arrays {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    D.arrays Fa ⊢ (Pipeline.arrBufs (Ix := Unit) (Name := ℕ) (U := UR sig nD τ) (Lvl := ℕ) spec1 c V : sProp 𝕄) := by
  obtain rfl : Fa = fun w => V (Pipeline.arrRef spec1 w) := funext hF
  rw [arrBufs1_eq, arrays1_eq D hs1 hs2 hs V]
  iintro ⟨H0, H1a, H1b, H2, H3, H4, H5, H6, H7⟩
  isplitl [H0]; · iexact H0
  isplitl [H1a H1b]
  · iapply (pointsTo_share (PosShare.mem_left_op_right fullShare)).2
    isplitl [H1a]; · iexact H1a
    iexact H1b
  isplitl [H2]; · iexact H2
  isplitl [H3]; · iexact H3
  isplitl [H4]; · iexact H4
  isplitl [H5]; · iexact H5
  isplitl [H6]; · iexact H6
  iexact H7

/-- ENTRY, with the rest: a core's unscoped buffers at `V` are the region's arrays at `V` and the unscoped rest. -/
theorem arrays1_of_unscopedBufs {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (unscopedBufs c V : sProp 𝕄) ⊢ iprop(D.arrays Fa ∗ Pipeline.unscopedRest (Ix := Unit) (Name := ℕ) (U := UR sig nD τ) (Lvl := ℕ) spec1 c V) := by
  rw [Pipeline.unscopedBufs_split₀ (Ix := Unit) (Name := ℕ) (U := UR sig nD τ) (Lvl := ℕ) cfgs 1 winFacts₀1.arr_unscoped c V]
  exact sep_mono (arrays1_of_bufs D hs1 hs2 hs V Fa hF) .rfl

/-- EXIT, with the rest: the region's arrays at `Fa` and the unscoped rest at `V` are the core's unscoped buffers at any
    `V'` that has the arrays at `Fa` and agrees with `V` off them. -/
theorem unscopedBufs1_of_arrays {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(D.arrays Fa ∗ Pipeline.unscopedRest (Ix := Unit) (Name := ℕ) (U := UR sig nD τ) (Lvl := ℕ) spec1 c V) ⊢ (unscopedBufs c V' : sProp 𝕄) := by
  rw [Pipeline.unscopedBufs_split₀ (Ix := Unit) (Name := ℕ) (U := UR sig nD τ) (Lvl := ℕ) cfgs 1 winFacts₀1.arr_unscoped c V']
  refine sep_mono (bufs1_of_arrays D hs1 hs2 hs V' Fa hF) (Entails.of_eq ?_)
  unfold Pipeline.unscopedRest
  exact bigSep_congr fun b hb => by rw [hrest b (Finset.mem_sdiff.mp hb).2]

/-! ## Region 3: windows 1 and 2 read one array -/

/-- The distinct buffers behind region 3's arrays, one by one. -/
theorem arrBufs3_eq {c : Dev nD} (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v5_0) ↦{fullShare} V main_v5_0) ∗ (((c : Thread nD τ).loc main_v7) ↦{fullShare} V main_v7) ∗ (((c : Thread nD τ).loc main_v6_0) ↦{fullShare} V main_v6_0) ∗ (((c : Thread nD τ).loc main_v6_1) ↦{fullShare} V main_v6_1) ∗ (((c : Thread nD τ).loc main_v2) ↦{fullShare} V main_v2) ∗ (((c : Thread nD τ).loc main_v4) ↦{fullShare} V main_v4) ∗ (((c : Thread nD τ).loc main_v8) ↦{fullShare} V main_v8)) := by
  unfold Pipeline.arrBufs
  exact bigSep_eq_bigSepL_of_eq [main_v5_0, main_v7, main_v6_0, main_v6_1, main_v2, main_v4, main_v8] (by decide) (by decide) _

/-- The proof data's arrays, window by window, at the shares it holds them: the shared array's buffer appears twice,
    once at each half of the full share. -/
theorem arrays3_eq {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b)) :
    (D.arrays (fun w => V (Pipeline.arrRef spec3 w)) : sProp 𝕄)
      = iprop((((c : Thread nD τ).loc main_v5_0) ↦{fullShare} V main_v5_0) ∗ (((c : Thread nD τ).loc main_v7) ↦{(fullShare : PosShare TreeShare).left} V main_v7) ∗ (((c : Thread nD τ).loc main_v7) ↦{(fullShare : PosShare TreeShare).right} V main_v7) ∗ (((c : Thread nD τ).loc main_v6_0) ↦{fullShare} V main_v6_0) ∗ (((c : Thread nD τ).loc main_v6_1) ↦{fullShare} V main_v6_1) ∗ (((c : Thread nD τ).loc main_v2) ↦{fullShare} V main_v2) ∗ (((c : Thread nD τ).loc main_v4) ↦{fullShare} V main_v4) ∗ (((c : Thread nD τ).loc main_v8) ↦{fullShare} V main_v8)) := by
  unfold Dat.arrays
  rw [bigSep_W3, hs1, hs2, hs 0 (by decide) (by decide), hs 3 (by decide) (by decide), hs 4 (by decide) (by decide), hs 5 (by decide) (by decide), hs 6 (by decide) (by decide), hs 7 (by decide) (by decide),
    (arr_whole3 0).set_eq_univ, (arr_whole3 1).set_eq_univ, (arr_whole3 3).set_eq_univ, (arr_whole3 4).set_eq_univ, (arr_whole3 5).set_eq_univ, (arr_whole3 6).set_eq_univ, (arr_whole3 7).set_eq_univ]

/-- ENTRY: the buffers behind the arrays, each whole at the full share, are the proof data's arrays, the shared
    buffer's share halved between its two windows. -/
theorem arrays3_of_bufs {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    (Pipeline.arrBufs (Ix := Unit) (Name := ℕ) (U := UR sig nD τ) (Lvl := ℕ) spec3 c V : sProp 𝕄) ⊢ D.arrays Fa := by
  obtain rfl : Fa = fun w => V (Pipeline.arrRef spec3 w) := funext hF
  rw [arrBufs3_eq, arrays3_eq D hs1 hs2 hs V]
  iintro ⟨H0, H1, H2, H3, H4, H5, H6⟩
  ihave Hs := (pointsTo_share (PosShare.mem_left_op_right fullShare)).1 $$ H1
  icases Hs with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  iexact H6

/-- EXIT: the two halves of the shared buffer's share are put together again. -/
theorem bufs3_of_arrays {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    D.arrays Fa ⊢ (Pipeline.arrBufs (Ix := Unit) (Name := ℕ) (U := UR sig nD τ) (Lvl := ℕ) spec3 c V : sProp 𝕄) := by
  obtain rfl : Fa = fun w => V (Pipeline.arrRef spec3 w) := funext hF
  rw [arrBufs3_eq, arrays3_eq D hs1 hs2 hs V]
  iintro ⟨H0, H1a, H1b, H2, H3, H4, H5, H6⟩
  isplitl [H0]; · iexact H0
  isplitl [H1a H1b]
  · iapply (pointsTo_share (PosShare.mem_left_op_right fullShare)).2
    isplitl [H1a]; · iexact H1a
    iexact H1b
  isplitl [H2]; · iexact H2
  isplitl [H3]; · iexact H3
  isplitl [H4]; · iexact H4
  isplitl [H5]; · iexact H5
  iexact H6

/-- ENTRY, with the rest: a core's unscoped buffers at `V` are the region's arrays at `V` and the unscoped rest. -/
theorem arrays3_of_unscopedBufs {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    (unscopedBufs c V : sProp 𝕄) ⊢ iprop(D.arrays Fa ∗ Pipeline.unscopedRest (Ix := Unit) (Name := ℕ) (U := UR sig nD τ) (Lvl := ℕ) spec3 c V) := by
  rw [Pipeline.unscopedBufs_split₀ (Ix := Unit) (Name := ℕ) (U := UR sig nD τ) (Lvl := ℕ) cfgs 3 winFacts₀3.arr_unscoped c V]
  exact sep_mono (arrays3_of_bufs D hs1 hs2 hs V Fa hF) .rfl

/-- EXIT, with the rest: the region's arrays at `Fa` and the unscoped rest at `V` are the core's unscoped buffers at any
    `V'` that has the arrays at `Fa` and agrees with `V` off them. -/
theorem unscopedBufs3_of_arrays {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V V' : (b : Ref sig .tc) → Buf (Elt F) ((c : Thread nD τ).loc b))
    (Fa : (w : Fin cfg3.W) → Buf (Elt F) ((cfg3.win w).arr.view.loc (c : Thread nD τ)))
    (hF : ∀ w, Fa w = V' (Pipeline.arrRef spec3 w))
    (hrest : ∀ b, b ∉ Finset.univ.image (Pipeline.arrRef spec3) → V' b = V b) :
    iprop(D.arrays Fa ∗ Pipeline.unscopedRest (Ix := Unit) (Name := ℕ) (U := UR sig nD τ) (Lvl := ℕ) spec3 c V) ⊢ (unscopedBufs c V' : sProp 𝕄) := by
  rw [Pipeline.unscopedBufs_split₀ (Ix := Unit) (Name := ℕ) (U := UR sig nD τ) (Lvl := ℕ) cfgs 3 winFacts₀3.arr_unscoped c V']
  refine sep_mono (bufs3_of_arrays D hs1 hs2 hs V' Fa hF) (Entails.of_eq ?_)
  unfold Pipeline.unscopedRest
  exact bigSep_congr fun b hb => by rw [hrest b (Finset.mem_sdiff.mp hb).2]

end Cert.Kernel.Fr

end
-- ==== Proof.RunK.lean ====
/-
  The program as a whole: four row-tiled calls after one stretch of host operations (three casts to bf16 and two
  reshapes of the bias vectors). Between two calls every unscoped buffer of the core is held whole at known contents:
  the contents before the call, updated at the call's output arrays with what the pipeline's write-backs leave there
  (each output block written once, by the point that owns its rows). Each call is one segment over that thread state;
  the run chains the five segments and reads every unscoped buffer off the last thread state. No call writes an
  argument of the program, so the arguments end as launched; the result array ends at what the last call's
  write-backs leave.
-/
import proofs.«118616_g893353198325_cont_sun_c4_277_2_alg».proof.Proof.Gen.Kernel.Regions
import proofs.«118616_g893353198325_cont_sun_c4_277_2_alg».proof.Proof.FrK0
import proofs.«118616_g893353198325_cont_sun_c4_277_2_alg».proof.Proof.FrK1
import proofs.«118616_g893353198325_cont_sun_c4_277_2_alg».proof.Proof.FrK2
import proofs.«118616_g893353198325_cont_sun_c4_277_2_alg».proof.Proof.FrK3
import proofs.«118616_g893353198325_cont_sun_c4_277_2_alg».proof.Proof.SplitK

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## The buffers' contents between the calls -/

/-- Before call 0: the launch contents after the host stretch, read at the TensorCore's references. -/
abbrev U1 : (c : Dev nD) → (b : Ref sig .tc) → Buf (Elt F) ((c : Thread nD τ).loc b) := fun c b => V1 m c b
/-- After call 0: its two output arrays at what its write-backs leave. -/
def W2 (c : Dev nD) : Valuation τ sig (Elt F) :=
  Function.update (Function.update (V1 m c) main_v5_0 ((dat0 (U1 m) c).arrAt 2 cfg0.N)) main_v5_1 ((dat0 (U1 m) c).arrAt 3 cfg0.N)
abbrev U2 : (c : Dev nD) → (b : Ref sig .tc) → Buf (Elt F) ((c : Thread nD τ).loc b) := fun c b => W2 m c b
/-- After call 1. -/
def W3 (c : Dev nD) : Valuation τ sig (Elt F) :=
  Function.update (Function.update (W2 m c) main_v6_0 ((dat1 (U2 m) c).arrAt 7 cfg1.N)) main_v6_1 ((dat1 (U2 m) c).arrAt 8 cfg1.N)
abbrev U3 : (c : Dev nD) → (b : Ref sig .tc) → Buf (Elt F) ((c : Thread nD τ).loc b) := fun c b => W3 m c b
/-- After call 2. -/
def W4 (c : Dev nD) : Valuation τ sig (Elt F) :=
  Function.update (W3 m c) main_v7 ((dat2 (U3 m) c).arrAt 2 cfg2.N)
abbrev U4 : (c : Dev nD) → (b : Ref sig .tc) → Buf (Elt F) ((c : Thread nD τ).loc b) := fun c b => W4 m c b
/-- After call 3: the end. -/
def W5 (c : Dev nD) : Valuation τ sig (Elt F) :=
  Function.update (W4 m c) main_v8 ((dat3 (U4 m) c).arrAt 7 cfg3.N)
abbrev U5 : (c : Dev nD) → (b : Ref sig .tc) → Buf (Elt F) ((c : Thread nD τ).loc b) := fun c b => W5 m c b

/-! ### A call changes its output arrays only -/

theorem W2_of (c : Dev nD) (r : Ref sig .tc) (h : r ∉ ([main_v5_0, main_v5_1] : List (Ref sig .tc))) : W2 m c r = V1 m c r := by
  simp only [W2, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W3_of (c : Dev nD) (r : Ref sig .tc) (h : r ∉ ([main_v6_0, main_v6_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem W4_of (c : Dev nD) (r : Ref sig .tc) (h : r ∉ ([main_v7] : List (Ref sig .tc))) : W4 m c r = W3 m c r := by
  simp only [W4, Function.update_of_ne (StableHlo.devRef_ne_of_ne (List.ne_of_not_mem_cons h) : (Proc.devRef .tc r : DevRef τ sig) ≠ Proc.devRef .tc main_v7)]
theorem W5_of (c : Dev nD) (r : Ref sig .tc) (h : r ∉ ([main_v8] : List (Ref sig .tc))) : W5 m c r = W4 m c r := by
  simp only [W5, Function.update_of_ne (StableHlo.devRef_ne_of_ne (List.ne_of_not_mem_cons h) : (Proc.devRef .tc r : DevRef τ sig) ≠ Proc.devRef .tc main_v8)]

theorem W2_v5_0 (c : Dev nD) : W2 m c main_v5_0 = (dat0 (U1 m) c).arrAt 2 cfg0.N := by
  simp only [W2, Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (U1 m) c).arrAt 3 cfg0.N := by
  simp only [W2, Function.update_self]
theorem W3_v6_0 (c : Dev nD) : W3 m c main_v6_0 = (dat1 (U2 m) c).arrAt 7 cfg1.N := by
  simp only [W3, Function.update_of_ne (StableHlo.devRef_ne_of_ne (by decide) : (Proc.devRef .tc main_v6_0 : DevRef τ sig) ≠ Proc.devRef .tc main_v6_1), Function.update_self]
theorem W3_v6_1 (c : Dev nD) : W3 m c main_v6_1 = (dat1 (U2 m) c).arrAt 8 cfg1.N := by
  simp only [W3, Function.update_self]
theorem W4_v7 (c : Dev nD) : W4 m c main_v7 = (dat2 (U3 m) c).arrAt 2 cfg2.N := by
  simp only [W4, Function.update_self]
theorem W5_v8 (c : Dev nD) : W5 m c main_v8 = (dat3 (U4 m) c).arrAt 7 cfg3.N := by
  simp only [W5, Function.update_self]

/-- An argument of the program reaches the end as launched. -/
theorem W5_arg (c : Dev nD) (r : Ref sig .tc)
    (h5 : r ∉ ([main_v8] : List (Ref sig .tc))) (h4 : r ∉ ([main_v7] : List (Ref sig .tc)))
    (h3 : r ∉ ([main_v6_0, main_v6_1] : List (Ref sig .tc))) (h2 : r ∉ ([main_v5_0, main_v5_1] : List (Ref sig .tc)))
    (h1 : r ∉ hostOps0_W) : W5 m c r = m ((c : Thread nD τ).loc r) :=
  (W5_of m c r h5).trans <| (W4_of m c r h4).trans <| (W3_of m c r h3).trans <| (W2_of m c r h2).trans <| (V1_of m c r h1).trans rfl

/-! ## The proof data family and the thread state -/

/-- Every call's proof data, each at the contents its call is entered with. -/
def pdats : (p : Fin 4) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c
  | ⟨3, _⟩ => fun c => dat3 (U4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev Rst (c : Dev nD) : sProp 𝕄 := iprop((∃ r, prngReg c r) ∗ ∃ W, owes (c : Thread nD τ) (0 : CellTallies nD τ sig Unit) W)
abbrev Es : Fin 5 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Each call's arrays at its exit, and the buffers it leaves alone -/

theorem hF0 (c : Dev nD) (w : Fin cfg0.W) : (pdats m 0 c).arrAt w cfg0.N = U2 m c (Pipeline.arrRef spec0 w) :=
  match w with
  | ⟨0, _⟩ => (((dat0 (U1 m) c).arrAt_in 0 rfl _).trans (A_eq0 (U1 m) c 0)).trans (W2_of m c main_arg1 (by decide)).symm
  | ⟨1, _⟩ => (((dat0 (U1 m) c).arrAt_in 1 rfl _).trans (A_eq0 (U1 m) c 1)).trans (W2_of m c main_v0 (by decide)).symm
  | ⟨2, _⟩ => (W2_v5_0 m c).symm
  | ⟨3, _⟩ => (W2_v5_1 m c).symm
theorem hrest0 (c : Dev nD) : ∀ b, b ∉ Finset.univ.image (Pipeline.arrRef spec0) → U2 m c b = U1 m c b :=
  fun b hb => W2_of m c b fun h => hb (by
    rcases List.mem_cons.mp h with rfl | h
    · exact Finset.mem_image.mpr ⟨2, Finset.mem_univ _, rfl⟩
    · rcases List.mem_singleton.mp h with rfl
      exact Finset.mem_image.mpr ⟨3, Finset.mem_univ _, rfl⟩)

theorem hF1 (c : Dev nD) (w : Fin cfg1.W) : (pdats m 1 c).arrAt w cfg1.N = U3 m c (Pipeline.arrRef spec1 w) :=
  match w with
  | ⟨0, _⟩ => (((dat1 (U2 m) c).arrAt_in 0 rfl _).trans (A_eq1 (U2 m) c 0)).trans (W3_of m c main_v5_0 (by decide)).symm
  | ⟨1, _⟩ => (((dat1 (U2 m) c).arrAt_in 1 rfl _).trans (A_eq1 (U2 m) c 1)).trans (W3_of m c main_v5_1 (by decide)).symm
  | ⟨2, _⟩ => (((dat1 (U2 m) c).arrAt_in 2 rfl _).trans (A_eq1 (U2 m) c 2)).trans (W3_of m c main_v5_1 (by decide)).symm
  | ⟨3, _⟩ => (((dat1 (U2 m) c).arrAt_in 3 rfl _).trans (A_eq1 (U2 m) c 3)).trans (W3_of m c main_arg0 (by decide)).symm
  | ⟨4, _⟩ => (((dat1 (U2 m) c).arrAt_in 4 rfl _).trans (A_eq1 (U2 m) c 4)).trans (W3_of m c main_v0 (by decide)).symm
  | ⟨5, _⟩ => (((dat1 (U2 m) c).arrAt_in 5 rfl _).trans (A_eq1 (U2 m) c 5)).trans (W3_of m c main_v1 (by decide)).symm
  | ⟨6, _⟩ => (((dat1 (U2 m) c).arrAt_in 6 rfl _).trans (A_eq1 (U2 m) c 6)).trans (W3_of m c main_v3 (by decide)).symm
  | ⟨7, _⟩ => (W3_v6_0 m c).symm
  | ⟨8, _⟩ => (W3_v6_1 m c).symm
theorem hrest1 (c : Dev nD) : ∀ b, b ∉ Finset.univ.image (Pipeline.arrRef spec1) → U3 m c b = U2 m c b :=
  fun b hb => W3_of m c b fun h => hb (by
    rcases List.mem_cons.mp h with rfl | h
    · exact Finset.mem_image.mpr ⟨7, Finset.mem_univ _, rfl⟩
    · rcases List.mem_singleton.mp h with rfl
      exact Finset.mem_image.mpr ⟨8, Finset.mem_univ _, rfl⟩)

theorem hF2 (c : Dev nD) (w : Fin cfg2.W) : (pdats m 2 c).arrAt w cfg2.N = U4 m c (Pipeline.arrRef spec2 w) :=
  match w with
  | ⟨0, _⟩ => (((dat2 (U3 m) c).arrAt_in 0 rfl _).trans (A_eq2 (U3 m) c 0)).trans (W4_of m c main_v5_0 (by decide)).symm
  | ⟨1, _⟩ => (((dat2 (U3 m) c).arrAt_in 1 rfl _).trans (A_eq2 (U3 m) c 1)).trans (W4_of m c main_v6_1 (by decide)).symm
  | ⟨2, _⟩ => (W4_v7 m c).symm
theorem hrest2 (c : Dev nD) : ∀ b, b ∉ Finset.univ.image (Pipeline.arrRef spec2) → U4 m c b = U3 m c b :=
  fun b hb => W4_of m c b fun h => hb (by
    rcases List.mem_singleton.mp h with rfl
    exact Finset.mem_image.mpr ⟨2, Finset.mem_univ _, rfl⟩)

theorem hF3 (c : Dev nD) (w : Fin cfg3.W) : (pdats m 3 c).arrAt w cfg3.N = U5 m c (Pipeline.arrRef spec3 w) :=
  match w with
  | ⟨0, _⟩ => (((dat3 (U4 m) c).arrAt_in 0 rfl _).trans (A_eq3 (U4 m) c 0)).trans (W5_of m c main_v5_0 (by decide)).symm
  | ⟨1, _⟩ => (((dat3 (U4 m) c).arrAt_in 1 rfl _).trans (A_eq3 (U4 m) c 1)).trans (W5_of m c main_v7 (by decide)).symm
  | ⟨2, _⟩ => (((dat3 (U4 m) c).arrAt_in 2 rfl _).trans (A_eq3 (U4 m) c 2)).trans (W5_of m c main_v7 (by decide)).symm
  | ⟨3, _⟩ => (((dat3 (U4 m) c).arrAt_in 3 rfl _).trans (A_eq3 (U4 m) c 3)).trans (W5_of m c main_v6_0 (by decide)).symm
  | ⟨4, _⟩ => (((dat3 (U4 m) c).arrAt_in 4 rfl _).trans (A_eq3 (U4 m) c 4)).trans (W5_of m c main_v6_1 (by decide)).symm
  | ⟨5, _⟩ => (((dat3 (U4 m) c).arrAt_in 5 rfl _).trans (A_eq3 (U4 m) c 5)).trans (W5_of m c main_v2 (by decide)).symm
  | ⟨6, _⟩ => (((dat3 (U4 m) c).arrAt_in 6 rfl _).trans (A_eq3 (U4 m) c 6)).trans (W5_of m c main_v4 (by decide)).symm
  | ⟨7, _⟩ => (W5_v8 m c).symm
theorem hrest3 (c : Dev nD) : ∀ b, b ∉ Finset.univ.image (Pipeline.arrRef spec3) → U5 m c b = U4 m c b :=
  fun b hb => W5_of m c b fun h => hb (by
    rcases List.mem_singleton.mp h with rfl
    exact Finset.mem_image.mpr ⟨7, Finset.mem_univ _, rfl⟩)

/-! ### The shares of calls 1 and 3 -/

theorem share1_1 (c : Dev nD) : (pdats m 1 c).share 1 = (fullShare : PosShare TreeShare).left := rfl
theorem share1_2 (c : Dev nD) : (pdats m 1 c).share 2 = (fullShare : PosShare TreeShare).right := rfl
theorem share1_rest (c : Dev nD) : ∀ w : Fin cfg1.W, w ≠ 1 → w ≠ 2 → (pdats m 1 c).share w = fullShare :=
  fun w h1 h2 => match w with
  | ⟨0, _⟩ => rfl | ⟨1, _⟩ => absurd rfl h1 | ⟨2, _⟩ => absurd rfl h2 | ⟨3, _⟩ => rfl | ⟨4, _⟩ => rfl | ⟨5, _⟩ => rfl
  | ⟨6, _⟩ => rfl | ⟨7, _⟩ => rfl | ⟨8, _⟩ => rfl
theorem share3_1 (c : Dev nD) : (pdats m 3 c).share 1 = (fullShare : PosShare TreeShare).left := rfl
theorem share3_2 (c : Dev nD) : (pdats m 3 c).share 2 = (fullShare : PosShare TreeShare).right := rfl
theorem share3_rest (c : Dev nD) : ∀ w : Fin cfg3.W, w ≠ 1 → w ≠ 2 → (pdats m 3 c).share w = fullShare :=
  fun w h1 h2 => match w with
  | ⟨0, _⟩ => rfl | ⟨1, _⟩ => absurd rfl h1 | ⟨2, _⟩ => absurd rfl h2 | ⟨3, _⟩ => rfl | ⟨4, _⟩ => rfl | ⟨5, _⟩ => rfl
  | ⟨6, _⟩ => rfl | ⟨7, _⟩ => rfl

/-! ## The calls as segments -/

set_option backward.isDefEq.respectTransparency.types false in
/-- Call 0 as a segment of the program: entered with every unscoped buffer at the contents before it, left with them at
    the contents after it; its arrays are split out of the unscoped buffers and put back; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program. Two of its input windows read one array, so its arrays are split out of the
    unscoped buffers with that array's share halved between the two windows, and the halves are joined when they are
    put back; the rest is as for the other calls. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays1_of_unscopedBufs (pdats m 1 c) (share1_1 m c) (share1_2 m c) (share1_rest m c) (U2 m c)
      ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs1_of_arrays (pdats m 1 c) (share1_1 m c) (share1_2 m c) (share1_rest m c)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with them at
    the contents after it; its arrays are split out of the unscoped buffers and put back; the generator register goes
    into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the program. Two of its input windows read one array, so its arrays are split out of the
    unscoped buffers with that array's share halved between the two windows, and the halves are joined when they are
    put back; the rest is as for the other calls. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U4 m) c).loose
  hwaits := Pipeline.hwaits_of_owed_zero _ _ _ _ L lv 3 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit := arrays3_of_unscopedBufs (pdats m 3 c) (share3_1 m c) (share3_2 m c) (share3_rest m c) (U4 m c)
      ((pdats m 3 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs3_of_arrays (pdats m 3 c) (share3_1 m c) (share3_2 m c) (share3_rest m c)
      (U4 m c) (U5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters, every weakly fair execution of the program on the TensorCores terminates,
    nothing faulting, and in every final state each unscoped buffer of each core holds the last contents `W5`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) := by
  refine Pipeline.θ_run_regions_kit_dev (pcfgs (F := F)) adm (pdats m) () cellOf_inj emb₁ defs₀ 𝒱₀ L lv m ρ main
    (segs m 𝒱₀ L lv Es () (pdats m) (reg0 m) (reg1 m) (reg2 m) (reg3 m))
    (fun c Q => by
      rewrite [main_chain c, Seg.run_eq_chain,
        show (segs m 𝒱₀ L lv Es () (pdats m) (reg0 m) (reg1 m) (reg2 m) (reg3 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (W5 m c) ∗ ∃ r, prngReg c r))
    (hch := fun c => ⟨.rfl, .rfl, .rfl, .rfl, .rfl, by
      show iprop(StableHlo.held (c : Thread nD τ) (Pipeline.ucRefs τ sig) (W5 m c) ∗ Rst c)
        ⊢ (iprop((StableHlo.held (c : Thread nD τ) (Pipeline.ucRefs τ sig) (W5 m c) ∗ ∃ r, prngReg c r)
            ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the program runs to the end, nothing faulting, and its six argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide))⟩)
    (run_all m ρ)

/-- The run with the result named: the result array ends at what the last call's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v8) = (dat3 (U4 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v8 (by decide))).trans (W5_v8 m c),
     (h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide))⟩)
    (run_all m ρ)

end Cert.Kernel.Fr

end
-- ==== Proof.FrKI0.lean ====
/- Region 0 of the kernel (the first row-tiled call: abf = bf16(adj), t1 = abf · xb), at a parameter `V`, the
   TensorCore's buffer contents when the region is entered.  For each grid point the call reads a 400-row block of
   `adj` and the whole of `xb`, and stores the rounded 400x10000 block and the 400x128 product block; this module
   states what each window's staging buffer holds before and after the body, proves the body's triple, and discharges
   the pipeline's body obligation. -/
import proofs.«118616_g893353198325_cont_sun_c4_277_2_alg».proof.Proof.Gen.KernelIdeal.Launch
import proofs.«118616_g893353198325_cont_sun_c4_277_2_alg».proof.Proof.Gen.KernelIdeal.Skeleton
import proofs.«118616_g893353198325_cont_sun_c4_277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of extent 10000 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the 400-row block of `adj`, fetched at every point): its current staging buffer holds its block,
    for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole of `xb`, fetched at the first point only; its block index never moves): its staging
    buffer holds the whole array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is its whole buffer -/

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0

/-! ## What the body leaves in each output window's buffer -/

/-- Window 2's staging buffer after the body, from the input windows' blocks: its one store, of the `adj` block
    rounded to bf16 (the payload `k0_pay1`). -/
def out0_2 (x0 : Vec F S400x10000 .f32) : Vec F S400x10000 .bf16 :=
  View.canon [⟨r0_0, k0_pay1 (View.ld x0 r0_0)⟩]

/-- Window 3's staging buffer after the body: its one store, of the product of the rounded block with `xb`, rounded
    to bf16 (the payload `k0_pay2`). -/
def out0_3 (x0 : Vec F S400x10000 .f32) (x1 : Vec F S10000x128 .bf16) : Vec F S400x128 .bf16 :=
  View.canon [⟨r0_2, k0_pay2 (View.ld x0 r0_0) (View.ld x1 r0_1)⟩]

/-- Each store is the whole buffer, so it covers it. -/
theorem cover0_2 (p0 : Vec F S400x10000 .bf16) (y : S400x10000.Idx) :
    ∃ pc ∈ ([⟨r0_0, p0⟩] : List (View.Piece (Elt F) S400x10000 .bf16)), y ∈ pc.1.set :=
  View.cover_of_tiled [⟨r0_0, p0⟩] S400x10000.size (by rfl) y

theorem cover0_3 (p0 : Vec F S400x128 .bf16) (y : S400x128.Idx) :
    ∃ pc ∈ ([⟨r0_2, p0⟩] : List (View.Piece (Elt F) S400x128 .bf16)), y ∈ pc.1.set :=
  View.cover_of_tiled [⟨r0_2, p0⟩] S400x128.size (by rfl) y

/-! ## The body's triple -/

set_option maxHeartbeats 1000000 in
/-- The kernel body on whole staging memrefs, the inputs' at contents `x0`, `x1` and the outputs' at anything, runs
    to the continuation holding the inputs' as they were and the outputs' at `out0_2 x0` and `out0_3 x0 x1`. -/
theorem sound_kernel0 (c : Dev nD) (E : Set ℕ) (i : grid0.Coords) (arg1 : Memref sig .tc .vmem S400x10000 .f32) (harg1 : arg1.IsWhole) (arg2 : Memref sig .tc .vmem S10000x128 .bf16) (harg2 : arg2.IsWhole) (arg3 : Memref sig .tc .vmem S400x10000 .bf16) (harg3 : arg3.IsWhole) (arg4 : Memref sig .tc .vmem S400x128 .bf16) (harg4 : arg4.IsWhole)
    (x0 : Vec F S400x10000 .f32) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x0 x1)) -∗ K ⟨⟩))
      ⊢ wp frame (wpE (defs₀ (F := F)) Variants.none c none) E (cc0__p1_kernel i arg1 harg1 arg2 harg2 arg3 harg3 arg4 harg4) K := by
  simp only [cc0__p1_kernel_eq_skeleton]; unfold cc0__p1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of this pipeline on core `c`: the arrays as the region finds them (`V`); after the body at point
    `t` each input's buffer at its block and each output's at `out0_W` of the input blocks; the invariant leaves the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr
-- ==== Proof.FrKI1.lean ====
import proofs.«118616_g893353198325_cont_sun_c4_277_2_alg».proof.Proof.Gen.KernelIdeal.Launch
import proofs.«118616_g893353198325_cont_sun_c4_277_2_alg».proof.Proof.Gen.KernelIdeal.Skeleton
import proofs.«118616_g893353198325_cont_sun_c4_277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the kernel body's half of the frame argument

At a parameter `V` (the TensorCore's buffer contents when the region is entered): each window's block at a
point, what the body leaves in each output window's staging buffer as a function of the input windows' blocks,
the body's separation-logic triple, the pipeline's proof data and its body obligation. -/

-- membership in a rectangle of large extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S3x128x128 := Rect.unit (s := S3x128x128) ![0, 0, 0] S1x128x128.size inb_S3x128x128_S1x128x128_0_0_0
abbrev r1_4 : Rect S3x128x128 := Rect.unit (s := S3x128x128) ![1, 0, 0] S1x128x128.size inb_S3x128x128_S1x128x128_1_0_0
abbrev r1_5 : Rect S3x128x128 := Rect.unit (s := S3x128x128) ![2, 0, 0] S1x128x128.size inb_S3x128x128_S1x128x128_2_0_0
abbrev r1_6 : Rect S1x128 := Rect.unit (s := S1x128) ![0, 0] S1x128.size inb_S1x128_S1x128_0_0

/-! ## What the body leaves in each output window's buffer -/

/-- The layer's pre-rounding activations from the input windows' blocks: the payload over the body's loads (the weight
    window is read through its three slabs). -/
def pre1 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : FVec F S400x128 .f32 :=
  k1_pay2 (View.ld x0 r1_0) (View.ld x1 r1_1) (View.ld x3 r1_2) (View.ld x4 r1_2) (View.ld x5 r1_3) (View.ld x2 r1_2) (View.ld x5 r1_4) (View.ld x5 r1_5) (View.ld x6 r1_6)

/-- Window 7's staging buffer after the body, from the input windows' blocks: its one store as a piece. -/
def out1_7 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : Vec F S400x128 .f32 :=
  View.canon [⟨r1_2, pre1 x0 x1 x2 x3 x4 x5 x6⟩]

/-- Window 8's staging buffer after the body: the same activations rounded, its one store as a piece. -/
def out1_8 (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) : Vec F S400x128 .bf16 :=
  View.canon [⟨r1_2, k1_pay1 (pre1 x0 x1 x2 x3 x4 x5 x6)⟩]

/-- The one store is the whole buffer, so it covers it. -/
theorem cover1_7 (p0 : Vec F S400x128 .f32) (y : S400x128.Idx) :
    ∃ pc ∈ ([⟨r1_2, p0⟩] : List (View.Piece (Elt F) S400x128 .f32)), y ∈ pc.1.set :=
  View.cover_of_tiled [⟨r1_2, p0⟩] S400x128.size (by rfl) y
theorem cover1_8 (p0 : Vec F S400x128 .bf16) (y : S400x128.Idx) :
    ∃ pc ∈ ([⟨r1_2, p0⟩] : List (View.Piece (Elt F) S400x128 .bf16)), y ∈ pc.1.set :=
  View.cover_of_tiled [⟨r1_2, p0⟩] S400x128.size (by rfl) y

/-! ## The body's triple -/

set_option maxHeartbeats 1000000 in
/-- The kernel body on whole staging memrefs, the inputs' at read contents `xW` and the outputs' at anything, runs
    to the continuation holding the inputs' as they were and each output's at `out1_W` of the inputs'. -/
theorem sound_kernel1 (c : Dev nD) (E : Set ℕ) (i : grid1.Coords) (arg0 : Memref sig .tc .vmem S400x10000 .bf16) (harg0 : arg0.IsWhole) (arg1 : Memref sig .tc .vmem S10000x128 .bf16) (harg1 : arg1.IsWhole) (arg2 : Memref sig .tc .vmem S400x128 .bf16) (harg2 : arg2.IsWhole) (arg3 : Memref sig .tc .vmem S400x128 .f32) (harg3 : arg3.IsWhole) (arg4 : Memref sig .tc .vmem S400x128 .bf16) (harg4 : arg4.IsWhole) (arg5 : Memref sig .tc .vmem S3x128x128 .bf16) (harg5 : arg5.IsWhole) (arg6 : Memref sig .tc .vmem S1x128 .f32) (harg6 : arg6.IsWhole) (arg7 : Memref sig .tc .vmem S400x128 .f32) (harg7 : arg7.IsWhole) (arg8 : Memref sig .tc .vmem S400x128 .bf16) (harg8 : arg8.IsWhole)
    (x0 : Vec F S400x10000 .bf16) (x1 : Vec F S10000x128 .bf16) (x2 : Vec F S400x128 .bf16) (x3 : Vec F S400x128 .f32) (x4 : Vec F S400x128 .bf16) (x5 : Vec F S3x128x128 .bf16) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6) ∗ owns (c : Thread nD τ) arg8 fullShare (out1_8 x0 x1 x2 x3 x4 x5 x6)) -∗ K ⟨⟩))
      ⊢ wp frame (wpE (defs₀ (F := F)) Variants.none c none) E (cc1__p2_kernel i arg0 harg0 arg1 harg1 arg2 harg2 arg3 harg3 arg4 harg4 arg5 harg5 arg6 harg6 arg7 harg7 arg8 harg8) K := by
  simp only [cc1__p2_kernel_eq_skeleton]; unfold cc1__p2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  iexists _; isplitr
  swap; · iexact H8
  ipureintro
  try dsimp only
  exact View.read_writes_eq_canon _ _ _ (cover1_8 _)

/-! ## The pipeline's proof data -/

/-- The proof data of the pipeline on core `c`: the arrays as the region finds them (`V`); after the body at point `t`
    each input's buffer at its block and each output's at `out1_W` of the input blocks; the invariant the scoped rest
    and the generator register, untouched; nothing owed. Windows 1 and 2 read one array, whole and by row blocks: each
    holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
  Φ _ := Pipeline.ΦA spec1 c
  q := fun w => match w with
    | ⟨1, _⟩ => (fullShare : PosShare TreeShare).left
    | ⟨2, _⟩ => (fullShare : PosShare TreeShare).right
    | _ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrKI2.lean ====
/- Region 2 of the kernel (the third row-tiled call: th1 = abf · hb), at a parameter `V`, the TensorCore's buffer
   contents when the region is entered.  For each grid point the call reads a 400-row block of `abf` and the whole
   of `hb`, and stores the 400x128 product block; this module states what each window's staging buffer holds
   before and after the body, proves the body's triple, and discharges the pipeline's body obligation. -/
import proofs.«118616_g893353198325_cont_sun_c4_277_2_alg».proof.Proof.Gen.KernelIdeal.Launch
import proofs.«118616_g893353198325_cont_sun_c4_277_2_alg».proof.Proof.Gen.KernelIdeal.Skeleton
import proofs.«118616_g893353198325_cont_sun_c4_277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of extent 10000 recurses once per coordinate of that axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the 400-row block of `abf`, fetched at every point): its current staging buffer holds its block,
    for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the whole of `hb`, fetched at the first point only; its block index never moves): its staging
    buffer holds the whole array at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store is its whole buffer -/

abbrev r2_0 : Rect S400x10000 := Rect.unit (s := S400x10000) ![0, 0] S400x10000.size inb_S400x10000_S400x10000_0_0
abbrev r2_1 : Rect S10000x128 := Rect.unit (s := S10000x128) ![0, 0] S10000x128.size inb_S10000x128_S10000x128_0_0
abbrev r2_2 : Rect S400x128 := Rect.unit (s := S400x128) ![0, 0] S400x128.size inb_S400x128_S400x128_0_0

/-! ## What the body leaves in the output window's buffer -/

/-- Window 2's staging buffer after the body, from the input windows' blocks: its one store, of the product of the
    `abf` block with `hb` rounded to bf16 (the payload `k2_pay1`). -/
def out2_2 (x0 : Vec F S400x10000 .bf16) (x1 : Vec F S10000x128 .bf16) : Vec F S400x128 .bf16 :=
  View.canon [⟨r2_2, k2_pay1 (View.ld x0 r2_0) (View.ld x1 r2_1)⟩]

/-- The store is the whole buffer, so it covers it. -/
theorem cover2_2 (p0 : Vec F S400x128 .bf16) (y : S400x128.Idx) :
    ∃ pc ∈ ([⟨r2_2, p0⟩] : List (View.Piece (Elt F) S400x128 .bf16)), y ∈ pc.1.set :=
  View.cover_of_tiled [⟨r2_2, p0⟩] S400x128.size (by rfl) y

/-! ## The body's triple -/

set_option maxHeartbeats 1000000 in
/-- The kernel body on whole staging memrefs, the inputs' at contents `x0`, `x1` and the output's at anything, runs
    to the continuation holding the inputs' as they were and the output's at `out2_2 x0 x1`. -/
theorem sound_kernel2 (c : Dev nD) (E : Set ℕ) (i : grid2.Coords) (arg1 : Memref sig .tc .vmem S400x10000 .bf16) (harg1 : arg1.IsWhole) (arg2 : Memref sig .tc .vmem S10000x128 .bf16) (harg2 : arg2.IsWhole) (arg3 : Memref sig .tc .vmem S400x128 .bf16) (harg3 : arg3.IsWhole)
    (x0 : Vec F S400x10000 .bf16) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__ax_kernel i arg1 harg1 arg2 harg2 arg3 harg3) K := by
  simp only [cc2__ax_kernel_eq_skeleton]; unfold cc2__ax_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them (`V`); after the body at point
    `t` each input's buffer at its block and the output's at `out2_2` of the input blocks; the invariant leaves the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr
-- ==== Proof.FrKI3.lean ====
import proofs.«118616_g893353198325_cont_sun_c4_277_2_alg».proof.Proof.Gen.KernelIdeal.Launch
import proofs.«118616_g893353198325_cont_sun_c4_277_2_alg».proof.Proof.Gen.KernelIdeal.Skeleton
import proofs.«118616_g893353198325_cont_sun_c4_277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the kernel body's half of the frame argument

At a parameter `V` (the TensorCore's buffer contents when the region is entered): each window's block at a
point, what the body leaves in each output window's staging buffer as a function of the input windows' blocks,
the body's separation-logic triple, the pipeline's proof data and its body obligation. -/

-- membership in a rectangle of large extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (unfetched, the
    block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (unfetched, the
    block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (unfetched, the
    block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (unfetched, the
    block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_3 : Rect S3x128x64 := Rect.unit (s := S3x128x64) ![0, 0, 0] S1x128x64.size inb_S3x128x64_S1x128x64_0_0_0
abbrev r3_4 : Rect S3x128x64 := Rect.unit (s := S3x128x64) ![1, 0, 0] S1x128x64.size inb_S3x128x64_S1x128x64_1_0_0
abbrev r3_5 : Rect S3x128x64 := Rect.unit (s := S3x128x64) ![2, 0, 0] S1x128x64.size inb_S3x128x64_S1x128x64_2_0_0
abbrev r3_6 : Rect S1x64 := Rect.unit (s := S1x64) ![0, 0] S1x64.size inb_S1x64_S1x64_0_0
abbrev r3_7 : Rect S400x64 := Rect.unit (s := S400x64) ![0, 0] S400x64.size inb_S400x64_S400x64_0_0

/-! ## What the body leaves in each output window's buffer -/

/-- Window 7's staging buffer after the body, from the input windows' blocks: its one store as a piece — the rows'
    logits and their row maxima (both over the body's loads, the weight window read through its three slabs) into the
    log-softmax payload. -/
def out3_7 (x0 : Vec F S400x10000 .bf16) (x1 : Vec F S10000x128 .bf16) (x2 : Vec F S400x128 .bf16) (x3 : Vec F S400x128 .f32) (x4 : Vec F S400x128 .bf16) (x5 : Vec F S3x128x64 .bf16) (x6 : Vec F S1x64 .f32) : Vec F S400x64 .f32 :=
  View.canon [⟨r3_7, k3_pay1
    (k3_pay2 (View.ld x0 r3_0) (View.ld x1 r3_1) (View.ld x3 r3_2) (View.ld x4 r3_2) (View.ld x5 r3_3) (View.ld x2 r3_2) (View.ld x5 r3_4) (View.ld x5 r3_5) (View.ld x6 r3_6))
    (k3_pay3 (View.ld x0 r3_0) (View.ld x1 r3_1) (View.ld x3 r3_2) (View.ld x4 r3_2) (View.ld x5 r3_3) (View.ld x2 r3_2) (View.ld x5 r3_4) (View.ld x5 r3_5) (View.ld x6 r3_6))⟩]

/-- The one store is the whole buffer, so it covers it. -/
theorem cover3_7 (p0 : Vec F S400x64 .f32) (y : S400x64.Idx) :
    ∃ pc ∈ ([⟨r3_7, p0⟩] : List (View.Piece (Elt F) S400x64 .f32)), y ∈ pc.1.set :=
  View.cover_of_tiled [⟨r3_7, p0⟩] S400x64.size (by rfl) y

/-! ## The body's triple -/

set_option maxHeartbeats 1000000 in
/-- The kernel body on whole staging memrefs, the inputs' at read contents `xW` and the outputs' at anything, runs
    to the continuation holding the inputs' as they were and each output's at `out3_W` of the inputs'. -/
theorem sound_kernel3 (c : Dev nD) (E : Set ℕ) (i : grid3.Coords) (arg0 : Memref sig .tc .vmem S400x10000 .bf16) (harg0 : arg0.IsWhole) (arg1 : Memref sig .tc .vmem S10000x128 .bf16) (harg1 : arg1.IsWhole) (arg2 : Memref sig .tc .vmem S400x128 .bf16) (harg2 : arg2.IsWhole) (arg3 : Memref sig .tc .vmem S400x128 .f32) (harg3 : arg3.IsWhole) (arg4 : Memref sig .tc .vmem S400x128 .bf16) (harg4 : arg4.IsWhole) (arg5 : Memref sig .tc .vmem S3x128x64 .bf16) (harg5 : arg5.IsWhole) (arg6 : Memref sig .tc .vmem S1x64 .f32) (harg6 : arg6.IsWhole) (arg7 : Memref sig .tc .vmem S400x64 .f32) (harg7 : arg7.IsWhole)
    (x0 : Vec F S400x10000 .bf16) (x1 : Vec F S10000x128 .bf16) (x2 : Vec F S400x128 .bf16) (x3 : Vec F S400x128 .f32) (x4 : Vec F S400x128 .bf16) (x5 : Vec F S3x128x64 .bf16) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__p4_kernel i arg0 harg0 arg1 harg1 arg2 harg2 arg3 harg3 arg4 harg4 arg5 harg5 arg6 harg6 arg7 harg7) K := by
  simp only [cc3__p4_kernel_eq_skeleton]; unfold cc3__p4_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover3_7 _)

/-! ## The pipeline's proof data -/

/-- The proof data of the pipeline on core `c`: the arrays as the region finds them (`V`); after the body at point `t`
    each input's buffer at its block and each output's at `out3_W` of the input blocks; the invariant the scoped rest
    and the generator register, untouched; nothing owed. Windows 1 and 2 read one array, whole and by row blocks: each
    holds half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q := fun w => match w with
    | ⟨1, _⟩ => (fullShare : PosShare TreeShare).left
    | ⟨2, _⟩ => (fullShare : PosShare TreeShare).right
    | _ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.SplitKI.lean ====
/-
  Two of the kernel's four row-tiled calls hand ONE array to two input windows: the product A·X computed by the previous
  call is read whole (the right operand of the next product) and by 400-row blocks (a left operand of the feature
  projections). The pipeline holds each window's array at a share of its own, so the buffer behind the shared array,
  held whole at the full share when the call is entered, is dealt to the two windows as the two halves of the full
  share, and the halves are put together again when the call is left. Every other array has one window and keeps the
  full share. Stated for any proof data with those shares; both directions, alone and beside the unscoped rest.
-/
import proofs.«118616_g893353198325_cont_sun_c4_277_2_alg».proof.Proof.Gen.KernelIdeal.Launch
import Idealize.ShloMosaic.Lib.Pipeline.Frame
import Idealize.ShloMosaic.Lib.Pipeline.Kit
import Idealize.ShloMosaic.Lib.Pipeline.FrameBody
import Idealize.ShloMosaic.Lib.Pipeline.Regions
import Idealize.ShloMosaic.Lib.Pipeline.RegionsLoop
import Idealize.ShloMosaic.Lib.Tactic

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000

/-! ## Region 1: windows 1 and 2 read one array -/

/-- The distinct buffers behind region 1's arrays, one by one. -/
theorem arrBufs1_eq {c : Dev nD} (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v5_0) ↦{fullShare} V main_v5_0) ∗ (((c : Thread nD τ).loc main_v5_1) ↦{fullShare} V main_v5_1) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v3) ↦{fullShare} V main_v3) ∗ (((c : Thread nD τ).loc main_v6_0) ↦{fullShare} V main_v6_0) ∗ (((c : Thread nD τ).loc main_v6_1) ↦{fullShare} V main_v6_1)) := by
  unfold Pipeline.arrBufs
  exact bigSep_eq_bigSepL_of_eq [main_v5_0, main_v5_1, main_arg0, main_v0, main_v1, main_v3, main_v6_0, main_v6_1] (by decide) (by decide) _

/-- The proof data's arrays, window by window, at the shares it holds them: the shared array's buffer appears twice,
    once at each half of the full share. -/
theorem arrays1_eq {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b)) :
    (D.arrays (fun w => V (Pipeline.arrRef spec1 w)) : sProp 𝕄)
      = iprop((((c : Thread nD τ).loc main_v5_0) ↦{fullShare} V main_v5_0) ∗ (((c : Thread nD τ).loc main_v5_1) ↦{(fullShare : PosShare TreeShare).left} V main_v5_1) ∗ (((c : Thread nD τ).loc main_v5_1) ↦{(fullShare : PosShare TreeShare).right} V main_v5_1) ∗ (((c : Thread nD τ).loc main_arg0) ↦{fullShare} V main_arg0) ∗ (((c : Thread nD τ).loc main_v0) ↦{fullShare} V main_v0) ∗ (((c : Thread nD τ).loc main_v1) ↦{fullShare} V main_v1) ∗ (((c : Thread nD τ).loc main_v3) ↦{fullShare} V main_v3) ∗ (((c : Thread nD τ).loc main_v6_0) ↦{fullShare} V main_v6_0) ∗ (((c : Thread nD τ).loc main_v6_1) ↦{fullShare} V main_v6_1)) := by
  unfold Dat.arrays
  rw [bigSep_W1, hs1, hs2, hs 0 (by decide) (by decide), hs 3 (by decide) (by decide), hs 4 (by decide) (by decide), hs 5 (by decide) (by decide), hs 6 (by decide) (by decide), hs 7 (by decide) (by decide), hs 8 (by decide) (by decide),
    (arr_whole1 0).set_eq_univ, (arr_whole1 1).set_eq_univ, (arr_whole1 3).set_eq_univ, (arr_whole1 4).set_eq_univ, (arr_whole1 5).set_eq_univ, (arr_whole1 6).set_eq_univ, (arr_whole1 7).set_eq_univ, (arr_whole1 8).set_eq_univ]

/-- ENTRY: the buffers behind the arrays, each whole at the full share, are the proof data's arrays, the shared
    buffer's share halved between its two windows. -/
theorem arrays1_of_bufs {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (Pipeline.arrBufs (Ix := Unit) (Name := ℕ) (U := UR sig nD τ) (Lvl := ℕ) spec1 c V : sProp 𝕄) ⊢ D.arrays Fa := by
  obtain rfl : Fa = fun w => V (Pipeline.arrRef spec1 w) := funext hF
  rw [arrBufs1_eq, arrays1_eq D hs1 hs2 hs V]
  iintro ⟨H0, H1, H2, H3, H4, H5, H6, H7⟩
  ihave Hs := (pointsTo_share (PosShare.mem_left_op_right fullShare)).1 $$ H1
  icases Hs with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  isplitl [H6]; · iexact H6
  iexact H7

/-- EXIT: the two halves of the shared buffer's share are put together again. -/
theorem bufs1_of_arrays {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    D.arrays Fa ⊢ (Pipeline.arrBufs (Ix := Unit) (Name := ℕ) (U := UR sig nD τ) (Lvl := ℕ) spec1 c V : sProp 𝕄) := by
  obtain rfl : Fa = fun w => V (Pipeline.arrRef spec1 w) := funext hF
  rw [arrBufs1_eq, arrays1_eq D hs1 hs2 hs V]
  iintro ⟨H0, H1a, H1b, H2, H3, H4, H5, H6, H7⟩
  isplitl [H0]; · iexact H0
  isplitl [H1a H1b]
  · iapply (pointsTo_share (PosShare.mem_left_op_right fullShare)).2
    isplitl [H1a]; · iexact H1a
    iexact H1b
  isplitl [H2]; · iexact H2
  isplitl [H3]; · iexact H3
  isplitl [H4]; · iexact H4
  isplitl [H5]; · iexact H5
  isplitl [H6]; · iexact H6
  iexact H7

/-- ENTRY, with the rest: a core's unscoped buffers at `V` are the region's arrays at `V` and the unscoped rest. -/
theorem arrays1_of_unscopedBufs {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (unscopedBufs c V : sProp 𝕄) ⊢ iprop(D.arrays Fa ∗ Pipeline.unscopedRest (Ix := Unit) (Name := ℕ) (U := UR sig nD τ) (Lvl := ℕ) spec1 c V) := by
  rw [Pipeline.unscopedBufs_split₀ (Ix := Unit) (Name := ℕ) (U := UR sig nD τ) (Lvl := ℕ) cfgs 1 winFacts₀1.arr_unscoped c V]
  exact sep_mono (arrays1_of_bufs D hs1 hs2 hs V Fa hF) .rfl

/-- EXIT, with the rest: the region's arrays at `Fa` and the unscoped rest at `V` are the core's unscoped buffers at any
    `V'` that has the arrays at `Fa` and agrees with `V` off them. -/
theorem unscopedBufs1_of_arrays {c : Dev nD} (D : Dat τ (Elt F) Unit ℕ (UR sig nD τ) ℕ cfg1 c)
    (hs1 : D.share 1 = (fullShare : PosShare TreeShare).left) (hs2 : D.share 2 = (fullShare : PosShare TreeShare).right)
    (hs : ∀ w : Fin cfg1.W, w ≠ 1 → w ≠ 2 → D.share w = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(D.arrays Fa ∗ Pipeline.unscopedRest (Ix := Unit) (Name := ℕ) (U := UR sig nD τ) (Lvl := ℕ) spec1 c V) ⊢ (unscopedBufs c V' : sProp 𝕄) := by
  rw [Pipeline.unscopedBufs_split₀ (Ix := Unit) (Name := ℕ) (U := UR sig nD τ) (Lvl := ℕ) cfgs 1 winFacts₀1.arr_unscoped c V']
  refine sep_mono (bufs1_of_arrays D hs1 hs2 hs V' Fa hF) (Entails.of_eq ?_)
  unfold Pipeline.unscopedRest
  exact bigSep_congr fun b hb => by rw [hrest b (Finset.mem_sdiff.mp hb).2]

/-! ## Region 3: windows 1 and 2 read one array -/

/-- The distinct buffers behind region 3's arrays, one by one. -/
theorem arrBufs3_eq {c : Dev nD} (V : (b : Ref sig .tc) → Buf (Elt F) ((c : Thread nD τ).loc b)) :
    (Pipeline.arrBufs (Ix := Unit) (Name := ℕ) (U := UR sig nD τ) (Lvl := ℕ) spec3 c V : sProp 𝕄)
      = iprop((((c : Thread nD τ).loc main_v5_0) ↦{fullShare} V main_v5_0) ∗ (((c : Thread nD τ).loc main_v7) ↦{fullShare} V main_v7) ∗ (((c : Thread nD τ).loc main_v6_0) ↦{fullShare} V main_v6_0) ∗ (((c : Thread nD τ).loc main_v6_1) ↦{fullShare} V main_v6_1) ∗ (((c : Thread nD τ).loc main_v2) ↦{fullShare} V main_v2) ∗ (((c : Thread nD τ).loc main_v4) ↦{fullShare} V main_v4) ∗ (((c : Thread nD τ).loc main_v8) ↦{fullShare} V main_v8)) := by
  unfold Pipeline.arrBufs
  exact bigSep_eq_bigSepL_of_eq [main_v5_0, main_v7, main_v6_0, main_v6_1, main_v2, main_v4, main_v8] (by decide) (by decide) _

/-- The proof data's arrays, window by window, at the shares it holds them: the shared array's buffer appears twice,
    once at each half of the full share. -/
theorem arrays3_eq {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b)) :
    (D.arrays (fun w => V (Pipeline.arrRef spec3 w)) : sProp 𝕄)
      = iprop((((c : Thread nD τ).loc main_v5_0) ↦{fullShare} V main_v5_0) ∗ (((c : Thread nD τ).loc main_v7) ↦{(fullShare : PosShare TreeShare).left} V main_v7) ∗ (((c : Thread nD τ).loc main_v7) ↦{(fullShare : PosShare TreeShare).right} V main_v7) ∗ (((c : Thread nD τ).loc main_v6_0) ↦{fullShare} V main_v6_0) ∗ (((c : Thread nD τ).loc main_v6_1) ↦{fullShare} V main_v6_1) ∗ (((c : Thread nD τ).loc main_v2) ↦{fullShare} V main_v2) ∗ (((c : Thread nD τ).loc main_v4) ↦{fullShare} V main_v4) ∗ (((c : Thread nD τ).loc main_v8) ↦{fullShare} V main_v8)) := by
  unfold Dat.arrays
  rw [bigSep_W3, hs1, hs2, hs 0 (by decide) (by decide), hs 3 (by decide) (by decide), hs 4 (by decide) (by decide), hs 5 (by decide) (by decide), hs 6 (by decide) (by decide), hs 7 (by decide) (by decide),
    (arr_whole3 0).set_eq_univ, (arr_whole3 1).set_eq_univ, (arr_whole3 3).set_eq_univ, (arr_whole3 4).set_eq_univ, (arr_whole3 5).set_eq_univ, (arr_whole3 6).set_eq_univ, (arr_whole3 7).set_eq_univ]

/-- ENTRY: the buffers behind the arrays, each whole at the full share, are the proof data's arrays, the shared
    buffer's share halved between its two windows. -/
theorem arrays3_of_bufs {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    (Pipeline.arrBufs (Ix := Unit) (Name := ℕ) (U := UR sig nD τ) (Lvl := ℕ) spec3 c V : sProp 𝕄) ⊢ D.arrays Fa := by
  obtain rfl : Fa = fun w => V (Pipeline.arrRef spec3 w) := funext hF
  rw [arrBufs3_eq, arrays3_eq D hs1 hs2 hs V]
  iintro ⟨H0, H1, H2, H3, H4, H5, H6⟩
  ihave Hs := (pointsTo_share (PosShare.mem_left_op_right fullShare)).1 $$ H1
  icases Hs with ⟨H1a, H1b⟩
  isplitl [H0]; · iexact H0
  isplitl [H1a]; · iexact H1a
  isplitl [H1b]; · iexact H1b
  isplitl [H2]; · iexact H2
  isplitl [H3]; · iexact H3
  isplitl [H4]; · iexact H4
  isplitl [H5]; · iexact H5
  iexact H6

/-- EXIT: the two halves of the shared buffer's share are put together again. -/
theorem bufs3_of_arrays {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    D.arrays Fa ⊢ (Pipeline.arrBufs (Ix := Unit) (Name := ℕ) (U := UR sig nD τ) (Lvl := ℕ) spec3 c V : sProp 𝕄) := by
  obtain rfl : Fa = fun w => V (Pipeline.arrRef spec3 w) := funext hF
  rw [arrBufs3_eq, arrays3_eq D hs1 hs2 hs V]
  iintro ⟨H0, H1a, H1b, H2, H3, H4, H5, H6⟩
  isplitl [H0]; · iexact H0
  isplitl [H1a H1b]
  · iapply (pointsTo_share (PosShare.mem_left_op_right fullShare)).2
    isplitl [H1a]; · iexact H1a
    iexact H1b
  isplitl [H2]; · iexact H2
  isplitl [H3]; · iexact H3
  isplitl [H4]; · iexact H4
  isplitl [H5]; · iexact H5
  iexact H6

/-- ENTRY, with the rest: a core's unscoped buffers at `V` are the region's arrays at `V` and the unscoped rest. -/
theorem arrays3_of_unscopedBufs {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V : (b : Ref sig .tc) → Buf (Elt F) ((c : Thread nD τ).loc b))
    (Fa : (w : Fin cfg3.W) → Buf (Elt F) ((cfg3.win w).arr.view.loc (c : Thread nD τ)))
    (hF : ∀ w, Fa w = V (Pipeline.arrRef spec3 w)) :
    (unscopedBufs c V : sProp 𝕄) ⊢ iprop(D.arrays Fa ∗ Pipeline.unscopedRest (Ix := Unit) (Name := ℕ) (U := UR sig nD τ) (Lvl := ℕ) spec3 c V) := by
  rw [Pipeline.unscopedBufs_split₀ (Ix := Unit) (Name := ℕ) (U := UR sig nD τ) (Lvl := ℕ) cfgs 3 winFacts₀3.arr_unscoped c V]
  exact sep_mono (arrays3_of_bufs D hs1 hs2 hs V Fa hF) .rfl

/-- EXIT, with the rest: the region's arrays at `Fa` and the unscoped rest at `V` are the core's unscoped buffers at any
    `V'` that has the arrays at `Fa` and agrees with `V` off them. -/
theorem unscopedBufs3_of_arrays {c : Dev nD} (D : Dat τ (Elt F) Unit ℕ (UR sig nD τ) ℕ cfg3 c)
    (hs1 : D.share 1 = (fullShare : PosShare TreeShare).left) (hs2 : D.share 2 = (fullShare : PosShare TreeShare).right)
    (hs : ∀ w : Fin cfg3.W, w ≠ 1 → w ≠ 2 → D.share w = fullShare)
    (V V' : (b : Ref sig .tc) → Buf (Elt F) ((c : Thread nD τ).loc b))
    (Fa : (w : Fin cfg3.W) → Buf (Elt F) ((cfg3.win w).arr.view.loc (c : Thread nD τ)))
    (hF : ∀ w, Fa w = V' (Pipeline.arrRef spec3 w))
    (hrest : ∀ b, b ∉ Finset.univ.image (Pipeline.arrRef spec3) → V' b = V b) :
    iprop(D.arrays Fa ∗ Pipeline.unscopedRest (Ix := Unit) (Name := ℕ) (U := UR sig nD τ) (Lvl := ℕ) spec3 c V) ⊢ (unscopedBufs c V' : sProp 𝕄) := by
  rw [Pipeline.unscopedBufs_split₀ (Ix := Unit) (Name := ℕ) (U := UR sig nD τ) (Lvl := ℕ) cfgs 3 winFacts₀3.arr_unscoped c V']
  refine sep_mono (bufs3_of_arrays D hs1 hs2 hs V' Fa hF) (Entails.of_eq ?_)
  unfold Pipeline.unscopedRest
  exact bigSep_congr fun b hb => by rw [hrest b (Finset.mem_sdiff.mp hb).2]

end Cert.KernelIdeal.Fr

end
-- ==== Proof.RunKI.lean ====
/-
  The program as a whole: four row-tiled calls after one stretch of host operations (three casts to bf16 and two
  reshapes of the bias vectors). Between two calls every unscoped buffer of the core is held whole at known contents:
  the contents before the call, updated at the call's output arrays with what the pipeline's write-backs leave there
  (each output block written once, by the point that owns its rows). Each call is one segment over that thread state;
  the run chains the five segments and reads every unscoped buffer off the last thread state. No call writes an
  argument of the program, so the arguments end as launched; the result array ends at what the last call's
  write-backs leave.
-/
import proofs.«118616_g893353198325_cont_sun_c4_277_2_alg».proof.Proof.Gen.KernelIdeal.Regions
import proofs.«118616_g893353198325_cont_sun_c4_277_2_alg».proof.Proof.FrKI0
import proofs.«118616_g893353198325_cont_sun_c4_277_2_alg».proof.Proof.FrKI1
import proofs.«118616_g893353198325_cont_sun_c4_277_2_alg».proof.Proof.FrKI2
import proofs.«118616_g893353198325_cont_sun_c4_277_2_alg».proof.Proof.FrKI3
import proofs.«118616_g893353198325_cont_sun_c4_277_2_alg».proof.Proof.SplitKI

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-! ## The buffers' contents between the calls -/

/-- Before call 0: the launch contents after the host stretch, read at the TensorCore's references. -/
abbrev U1 : (c : Dev nD) → (b : Ref sig .tc) → Buf (Elt F) ((c : Thread nD τ).loc b) := fun c b => V1 m c b
/-- After call 0: its two output arrays at what its write-backs leave. -/
def W2 (c : Dev nD) : Valuation τ sig (Elt F) :=
  Function.update (Function.update (V1 m c) main_v5_0 ((dat0 (U1 m) c).arrAt 2 cfg0.N)) main_v5_1 ((dat0 (U1 m) c).arrAt 3 cfg0.N)
abbrev U2 : (c : Dev nD) → (b : Ref sig .tc) → Buf (Elt F) ((c : Thread nD τ).loc b) := fun c b => W2 m c b
/-- After call 1. -/
def W3 (c : Dev nD) : Valuation τ sig (Elt F) :=
  Function.update (Function.update (W2 m c) main_v6_0 ((dat1 (U2 m) c).arrAt 7 cfg1.N)) main_v6_1 ((dat1 (U2 m) c).arrAt 8 cfg1.N)
abbrev U3 : (c : Dev nD) → (b : Ref sig .tc) → Buf (Elt F) ((c : Thread nD τ).loc b) := fun c b => W3 m c b
/-- After call 2. -/
def W4 (c : Dev nD) : Valuation τ sig (Elt F) :=
  Function.update (W3 m c) main_v7 ((dat2 (U3 m) c).arrAt 2 cfg2.N)
abbrev U4 : (c : Dev nD) → (b : Ref sig .tc) → Buf (Elt F) ((c : Thread nD τ).loc b) := fun c b => W4 m c b
/-- After call 3: the end. -/
def W5 (c : Dev nD) : Valuation τ sig (Elt F) :=
  Function.update (W4 m c) main_v8 ((dat3 (U4 m) c).arrAt 7 cfg3.N)
abbrev U5 : (c : Dev nD) → (b : Ref sig .tc) → Buf (Elt F) ((c : Thread nD τ).loc b) := fun c b => W5 m c b

/-! ### A call changes its output arrays only -/

theorem W2_of (c : Dev nD) (r : Ref sig .tc) (h : r ∉ ([main_v5_0, main_v5_1] : List (Ref sig .tc))) : W2 m c r = V1 m c r := by
  simp only [W2, Function.update_of_ne (StableHlo.devRef_ne_of_ne (List.ne_of_not_mem_cons h) : (Proc.devRef .tc r : DevRef τ sig) ≠ Proc.devRef .tc main_v5_0), Function.update_of_ne (StableHlo.devRef_ne_of_ne (List.ne_of_not_mem_cons (List.not_mem_of_not_mem_cons h)) : (Proc.devRef .tc r : DevRef τ sig) ≠ Proc.devRef .tc main_v5_1)]
theorem W3_of (c : Dev nD) (r : Ref sig .tc) (h : r ∉ ([main_v6_0, main_v6_1] : List (Ref sig .tc))) : W3 m c r = W2 m c r := by
  simp only [W3, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem W4_of (c : Dev nD) (r : Ref sig .tc) (h : r ∉ ([main_v7] : List (Ref sig .tc))) : W4 m c r = W3 m c r := by
  simp only [W4, Function.update_of_ne (StableHlo.devRef_ne_of_ne (List.ne_of_not_mem_cons h) : (Proc.devRef .tc r : DevRef τ sig) ≠ Proc.devRef .tc main_v7)]
theorem W5_of (c : Dev nD) (r : Ref sig .tc) (h : r ∉ ([main_v8] : List (Ref sig .tc))) : W5 m c r = W4 m c r := by
  simp only [W5, Function.update_of_ne (StableHlo.devRef_ne_of_ne (List.ne_of_not_mem_cons h) : (Proc.devRef .tc r : DevRef τ sig) ≠ Proc.devRef .tc main_v8)]

theorem W2_v5_0 (c : Dev nD) : W2 m c main_v5_0 = (dat0 (U1 m) c).arrAt 2 cfg0.N := by
  simp only [W2, Function.update_of_ne (StableHlo.devRef_ne_of_ne (by decide) : (Proc.devRef .tc main_v5_0 : DevRef τ sig) ≠ Proc.devRef .tc main_v5_1), Function.update_self]
theorem W2_v5_1 (c : Dev nD) : W2 m c main_v5_1 = (dat0 (U1 m) c).arrAt 3 cfg0.N := by
  simp only [W2, Function.update_self]
theorem W3_v6_0 (c : Dev nD) : W3 m c main_v6_0 = (dat1 (U2 m) c).arrAt 7 cfg1.N := by
  simp only [W3, Function.update_of_ne (StableHlo.devRef_ne_of_ne (by decide) : (Proc.devRef .tc main_v6_0 : DevRef τ sig) ≠ Proc.devRef .tc main_v6_1), Function.update_self]
theorem W3_v6_1 (c : Dev nD) : W3 m c main_v6_1 = (dat1 (U2 m) c).arrAt 8 cfg1.N := by
  simp only [W3, Function.update_self]
theorem W4_v7 (c : Dev nD) : W4 m c main_v7 = (dat2 (U3 m) c).arrAt 2 cfg2.N := by
  simp only [W4, Function.update_self]
theorem W5_v8 (c : Dev nD) : W5 m c main_v8 = (dat3 (U4 m) c).arrAt 7 cfg3.N := by
  simp only [W5, Function.update_self]

/-- An argument of the program reaches the end as launched. -/
theorem W5_arg (c : Dev nD) (r : Ref sig .tc)
    (h5 : r ∉ ([main_v8] : List (Ref sig .tc))) (h4 : r ∉ ([main_v7] : List (Ref sig .tc)))
    (h3 : r ∉ ([main_v6_0, main_v6_1] : List (Ref sig .tc))) (h2 : r ∉ ([main_v5_0, main_v5_1] : List (Ref sig .tc)))
    (h1 : r ∉ hostOps0_W) : W5 m c r = m ((c : Thread nD τ).loc r) :=
  (W5_of m c r h5).trans <| (W4_of m c r h4).trans <| (W3_of m c r h3).trans <| (W2_of m c r h2).trans <| (V1_of m c r h1).trans rfl

/-! ## The proof data family and the thread state -/

/-- Every call's proof data, each at the contents its call is entered with. -/
def pdats : (p : Fin 4) → (c : Dev nD) → Dat τ (Elt F) Unit ℕ (UR sig nD τ) ℕ (cfgs p) c
  | ⟨0, _⟩ => fun c => dat0 (U1 m) c
  | ⟨1, _⟩ => fun c => dat1 (U2 m) c
  | ⟨2, _⟩ => fun c => dat2 (U3 m) c
  | ⟨3, _⟩ => fun c => dat3 (U4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev Rst (c : Dev nD) : sProp 𝕄 := iprop((∃ r, prngReg c r) ∗ ∃ W, owes (c : Thread nD τ) (0 : CellTallies nD τ sig Unit) W)
abbrev Es : Fin 5 → Dev nD → sProp 𝕄 := fun _ c => Rst c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ### Each call's arrays at its exit, and the buffers it leaves alone -/

theorem hF0 (c : Dev nD) (w : Fin cfg0.W) : (pdats m 0 c).arrAt w cfg0.N = U2 m c (Pipeline.arrRef spec0 w) :=
  match w with
  | ⟨0, _⟩ => (((dat0 (U1 m) c).arrAt_in 0 rfl _).trans (A_eq0 (U1 m) c 0)).trans (W2_of m c main_arg1 (by decide)).symm
  | ⟨1, _⟩ => (((dat0 (U1 m) c).arrAt_in 1 rfl _).trans (A_eq0 (U1 m) c 1)).trans (W2_of m c main_v0 (by decide)).symm
  | ⟨2, _⟩ => (W2_v5_0 m c).symm
  | ⟨3, _⟩ => (W2_v5_1 m c).symm
theorem hrest0 (c : Dev nD) : ∀ b, b ∉ Finset.univ.image (Pipeline.arrRef spec0) → U2 m c b = U1 m c b :=
  fun b hb => W2_of m c b fun h => hb (by
    rcases List.mem_cons.mp h with rfl | h
    · exact Finset.mem_image.mpr ⟨2, Finset.mem_univ _, rfl⟩
    · rcases List.mem_singleton.mp h with rfl
      exact Finset.mem_image.mpr ⟨3, Finset.mem_univ _, rfl⟩)

theorem hF1 (c : Dev nD) (w : Fin cfg1.W) : (pdats m 1 c).arrAt w cfg1.N = U3 m c (Pipeline.arrRef spec1 w) :=
  match w with
  | ⟨0, _⟩ => (((dat1 (U2 m) c).arrAt_in 0 rfl _).trans (A_eq1 (U2 m) c 0)).trans (W3_of m c main_v5_0 (by decide)).symm
  | ⟨1, _⟩ => (((dat1 (U2 m) c).arrAt_in 1 rfl _).trans (A_eq1 (U2 m) c 1)).trans (W3_of m c main_v5_1 (by decide)).symm
  | ⟨2, _⟩ => (((dat1 (U2 m) c).arrAt_in 2 rfl _).trans (A_eq1 (U2 m) c 2)).trans (W3_of m c main_v5_1 (by decide)).symm
  | ⟨3, _⟩ => (((dat1 (U2 m) c).arrAt_in 3 rfl _).trans (A_eq1 (U2 m) c 3)).trans (W3_of m c main_arg0 (by decide)).symm
  | ⟨4, _⟩ => (((dat1 (U2 m) c).arrAt_in 4 rfl _).trans (A_eq1 (U2 m) c 4)).trans (W3_of m c main_v0 (by decide)).symm
  | ⟨5, _⟩ => (((dat1 (U2 m) c).arrAt_in 5 rfl _).trans (A_eq1 (U2 m) c 5)).trans (W3_of m c main_v1 (by decide)).symm
  | ⟨6, _⟩ => (((dat1 (U2 m) c).arrAt_in 6 rfl _).trans (A_eq1 (U2 m) c 6)).trans (W3_of m c main_v3 (by decide)).symm
  | ⟨7, _⟩ => (W3_v6_0 m c).symm
  | ⟨8, _⟩ => (W3_v6_1 m c).symm
theorem hrest1 (c : Dev nD) : ∀ b, b ∉ Finset.univ.image (Pipeline.arrRef spec1) → U3 m c b = U2 m c b :=
  fun b hb => W3_of m c b fun h => hb (by
    rcases List.mem_cons.mp h with rfl | h
    · exact Finset.mem_image.mpr ⟨7, Finset.mem_univ _, rfl⟩
    · rcases List.mem_singleton.mp h with rfl
      exact Finset.mem_image.mpr ⟨8, Finset.mem_univ _, rfl⟩)

theorem hF2 (c : Dev nD) (w : Fin cfg2.W) : (pdats m 2 c).arrAt w cfg2.N = U4 m c (Pipeline.arrRef spec2 w) :=
  match w with
  | ⟨0, _⟩ => (((dat2 (U3 m) c).arrAt_in 0 rfl _).trans (A_eq2 (U3 m) c 0)).trans (W4_of m c main_v5_0 (by decide)).symm
  | ⟨1, _⟩ => (((dat2 (U3 m) c).arrAt_in 1 rfl _).trans (A_eq2 (U3 m) c 1)).trans (W4_of m c main_v6_1 (by decide)).symm
  | ⟨2, _⟩ => (W4_v7 m c).symm
theorem hrest2 (c : Dev nD) : ∀ b, b ∉ Finset.univ.image (Pipeline.arrRef spec2) → U4 m c b = U3 m c b :=
  fun b hb => W4_of m c b fun h => hb (by
    rcases List.mem_singleton.mp h with rfl
    exact Finset.mem_image.mpr ⟨2, Finset.mem_univ _, rfl⟩)

theorem hF3 (c : Dev nD) (w : Fin cfg3.W) : (pdats m 3 c).arrAt w cfg3.N = U5 m c (Pipeline.arrRef spec3 w) :=
  match w with
  | ⟨0, _⟩ => (((dat3 (U4 m) c).arrAt_in 0 rfl _).trans (A_eq3 (U4 m) c 0)).trans (W5_of m c main_v5_0 (by decide)).symm
  | ⟨1, _⟩ => (((dat3 (U4 m) c).arrAt_in 1 rfl _).trans (A_eq3 (U4 m) c 1)).trans (W5_of m c main_v7 (by decide)).symm
  | ⟨2, _⟩ => (((dat3 (U4 m) c).arrAt_in 2 rfl _).trans (A_eq3 (U4 m) c 2)).trans (W5_of m c main_v7 (by decide)).symm
  | ⟨3, _⟩ => (((dat3 (U4 m) c).arrAt_in 3 rfl _).trans (A_eq3 (U4 m) c 3)).trans (W5_of m c main_v6_0 (by decide)).symm
  | ⟨4, _⟩ => (((dat3 (U4 m) c).arrAt_in 4 rfl _).trans (A_eq3 (U4 m) c 4)).trans (W5_of m c main_v6_1 (by decide)).symm
  | ⟨5, _⟩ => (((dat3 (U4 m) c).arrAt_in 5 rfl _).trans (A_eq3 (U4 m) c 5)).trans (W5_of m c main_v2 (by decide)).symm
  | ⟨6, _⟩ => (((dat3 (U4 m) c).arrAt_in 6 rfl _).trans (A_eq3 (U4 m) c 6)).trans (W5_of m c main_v4 (by decide)).symm
  | ⟨7, _⟩ => (W5_v8 m c).symm
theorem hrest3 (c : Dev nD) : ∀ b, b ∉ Finset.univ.image (Pipeline.arrRef spec3) → U5 m c b = U4 m c b :=
  fun b hb => W5_of m c b fun h => hb (by
    rcases List.mem_singleton.mp h with rfl
    exact Finset.mem_image.mpr ⟨7, Finset.mem_univ _, rfl⟩)

/-! ### The shares of calls 1 and 3 -/

theorem share1_1 (c : Dev nD) : (pdats m 1 c).share 1 = (fullShare : PosShare TreeShare).left := rfl
theorem share1_2 (c : Dev nD) : (pdats m 1 c).share 2 = (fullShare : PosShare TreeShare).right := rfl
theorem share1_rest (c : Dev nD) : ∀ w : Fin cfg1.W, w ≠ 1 → w ≠ 2 → (pdats m 1 c).share w = fullShare :=
  fun w h1 h2 => match w with
  | ⟨0, _⟩ => rfl | ⟨1, _⟩ => absurd rfl h1 | ⟨2, _⟩ => absurd rfl h2 | ⟨3, _⟩ => rfl | ⟨4, _⟩ => rfl | ⟨5, _⟩ => rfl
  | ⟨6, _⟩ => rfl | ⟨7, _⟩ => rfl | ⟨8, _⟩ => rfl
theorem share3_1 (c : Dev nD) : (pdats m 3 c).share 1 = (fullShare : PosShare TreeShare).left := rfl
theorem share3_2 (c : Dev nD) : (pdats m 3 c).share 2 = (fullShare : PosShare TreeShare).right := rfl
theorem share3_rest (c : Dev nD) : ∀ w : Fin cfg3.W, w ≠ 1 → w ≠ 2 → (pdats m 3 c).share w = fullShare :=
  fun w h1 h2 => match w with
  | ⟨0, _⟩ => rfl | ⟨1, _⟩ => absurd rfl h1 | ⟨2, _⟩ => absurd rfl h2 | ⟨3, _⟩ => rfl | ⟨4, _⟩ => rfl | ⟨5, _⟩ => rfl
  | ⟨6, _⟩ => rfl | ⟨7, _⟩ => rfl

/-! ## The calls as segments -/

set_option backward.isDefEq.respectTransparency.types false in
/-- Call 0 as a segment of the program: entered with every unscoped buffer at the contents before it, left with them at
    the contents after it; its arrays are split out of the unscoped buffers and put back; the generator register goes
    into the pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (V1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of the program. Two of its input windows read one array, so its arrays are split out of the
    unscoped buffers with that array's share halved between the two windows, and the halves are joined when they are
    put back; the rest is as for the other calls. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays1_of_unscopedBufs (pdats m 1 c) (share1_1 m c) (share1_2 m c) (share1_rest m c) (U2 m c)
      ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs1_of_arrays (pdats m 1 c) (share1_1 m c) (share1_2 m c) (share1_rest m c)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment of the program: entered with every unscoped buffer at the contents before it, left with them at
    the contents after it; its arrays are split out of the unscoped buffers and put back; the generator register goes
    into the pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a segment of the program. Two of its input windows read one array, so its arrays are split out of the
    unscoped buffers with that array's share halved between the two windows, and the halves are joined when they are
    put back; the rest is as for the other calls. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U4 m) c).loose
  hwaits := Pipeline.hwaits_of_owed_zero _ _ _ _ L lv 3 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit := arrays3_of_unscopedBufs (pdats m 3 c) (share3_1 m c) (share3_2 m c) (share3_rest m c) (U4 m c)
      ((pdats m 3 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs3_of_arrays (pdats m 3 c) (share3_1 m c) (share3_2 m c) (share3_rest m c)
      (U4 m c) (U5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- From any memory with zero counters, every weakly fair execution of the program on the TensorCores terminates,
    nothing faulting, and in every final state each unscoped buffer of each core holds the last contents `W5`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W5 m c b) := by
  refine Pipeline.θ_run_regions_kit_dev (pcfgs (F := F)) adm (pdats m) () cellOf_inj emb₁ defs₀ 𝒱₀ L lv m ρ main
    (segs m 𝒱₀ L lv Es () (pdats m) (reg0 m) (reg1 m) (reg2 m) (reg3 m))
    (fun c Q => by
      rewrite [main_chain c, Seg.run_eq_chain,
        show (segs m 𝒱₀ L lv Es () (pdats m) (reg0 m) (reg1 m) (reg2 m) (reg3 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (W5 m c) ∗ ∃ r, prngReg c r))
    (hch := fun c => ⟨.rfl, .rfl, .rfl, .rfl, .rfl, by
      show iprop(StableHlo.held (c : Thread nD τ) (Pipeline.ucRefs τ sig) (W5 m c) ∗ Rst c)
        ⊢ (iprop((StableHlo.held (c : Thread nD τ) (Pipeline.ucRefs τ sig) (W5 m c) ∗ ∃ r, prngReg c r)
            ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: the program runs to the end, nothing faulting, and its six argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide))⟩)
    (run_all m ρ)

/-- The run with the result named: the result array ends at what the last call's write-backs leave, the arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v8) = (dat3 (U4 m) c).arrAt 7 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v8 (by decide))).trans (W5_v8 m c),
     (h c _ (mem_uc main_arg0 (by decide))).trans (W5_arg m c main_arg0 (by decide) (by decide) (by decide) (by decide) (by decide)),
     (h c _ (mem_uc main_arg1 (by decide))).trans (W5_arg m c main_arg1 (by decide) (by decide) (by decide) (by decide) (by decide)),
     (h c _ (mem_uc main_arg2 (by decide))).trans (W5_arg m c main_arg2 (by decide) (by decide) (by decide) (by decide) (by decide)),
     (h c _ (mem_uc main_arg3 (by decide))).trans (W5_arg m c main_arg3 (by decide) (by decide) (by decide) (by decide) (by decide)),
     (h c _ (mem_uc main_arg4 (by decide))).trans (W5_arg m c main_arg4 (by decide) (by decide) (by decide) (by decide) (by decide)),
     (h c _ (mem_uc main_arg5 (by decide))).trans (W5_arg m c main_arg5 (by decide) (by decide) (by decide) (by decide) (by decide))⟩)
    (run_all m ρ)

end Cert.KernelIdeal.Fr

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.ValKI0.lean ====
/- The value of region 0 over the extended reals: after its 25 grid points the array abf holds the array adj the region
   finds (rounding to bf16 is the identity over the extended reals) and the array t1 holds the plain matrix product of
   adj and xb.  Each point stores the 400-row block of adj and its product with the whole of xb; row r of either result
   is written by point r / 400, and these blocks cover the arrays. -/
import proofs.«118616_g893353198325_cont_sun_c4_277_2_alg».proof.Proof.FrKI0
import proofs.«118616_g893353198325_cont_sun_c4_277_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx Cert.MatProd

-- the TensorCore's buffer contents when the region is entered, over the extended reals
variable (V : (c : Dev nD) → (b : Ref sig .tc) → Buf (Elt Ideal) ((c : Thread nD τ).loc b))

theorem zeros0 : (![0, 0] : Fin 2 → Nat) = fun _ => 0 := funext fun a => by fin_cases a <;> rfl

/-! ## The payloads -/

/-- The first stored value is the loaded block itself. -/
theorem pay0_1_eq (x0 : Vec Ideal S400x10000 .f32) : k0_pay1 (F := Ideal) x0 = x0 := rfl

/-- The second stored value is the plain product of the two loaded blocks. -/
theorem pay0_2_eq (x0 : Vec Ideal S400x10000 .f32) (x1 : Vec Ideal S10000x128 .bf16) :
    k0_pay2 (F := Ideal) x0 x1 = prod x0 x1 := by
  unfold k0_pay2
  simp only [shapeCast_self, pay0_1_eq]
  exact matmul_plain_zero_eq (φ₁ := .f32) (φ₂ := .bf16) none x0 x1

/-- What the body leaves in output window 2's buffer is input window 0's block. -/
theorem out0_2_eq (x0 : Vec Ideal S400x10000 .f32) : out0_2 (F := Ideal) x0 = x0 := by
  unfold out0_2
  rw [View.canon_unit_zero zeros0]
  simp only [View.ld_unit_zero (S := S400x10000) zeros0]
  exact pay0_1_eq x0

/-- What the body leaves in output window 3's buffer is the plain product of the input windows' blocks. -/
theorem out0_3_eq (x0 : Vec Ideal S400x10000 .f32) (x1 : Vec Ideal S10000x128 .bf16) :
    out0_3 (F := Ideal) x0 x1 = prod x0 x1 := by
  unfold out0_3
  rw [View.canon_unit_zero zeros0]
  simp only [View.ld_unit_zero (S := S400x10000) zeros0, View.ld_unit_zero (S := S10000x128) zeros0]
  exact pay0_2_eq x0 x1

/-- An entry of a product of a block of rows is the entry of the product of the whole arrays in the same row. -/
theorem prod_rows_eq0 (A : S10000x10000.Idx → EReal) (B : S10000x128.Idx → EReal)
    (A' : S400x10000.Idx → EReal) (B' : S10000x128.Idx → EReal) (j : S400x128.Idx) (i : S10000x128.Idx)
    (h0 : ∀ k : Fin 10000, A' (ix2 (j 0) k) = A (ix2 (i 0) k)) (h1 : ∀ k : Fin 10000, B' (ix2 k (j 1)) = B (ix2 k (i 1))) :
    prod A' B' j = prod A B i := by
  show ∑ k : Fin 10000, A' (ix2 (j 0) k) * B' (ix2 k (j 1)) = ∑ k : Fin 10000, A (ix2 (i 0) k) * B (ix2 k (i 1))
  exact Finset.sum_congr rfl fun k _ => by rw [h0 k, h1 k]

/-! ## The index maps, decided over the grid -/

/-- The row-block windows sit at block row `t`, column 0; the whole-array window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The input blocks as entries of the arrays -/

/-- Window 0's block at point `t` is rows `400 t … 400 t + 399` of adj. -/
theorem iblk0_0_apply (c : Dev nD) (t : Fin cfg0.N) (x : S400x10000.Idx) (k : S10000x10000.Idx)
    (hk0 : (k 0).val = 400 * t.val + (x 0).val) (hk1 : (k 1).val = (x 1).val) :
    (iblk0 V c 0 t : Vec Ideal S400x10000 .f32) x = (V c main_arg1 : S10000x10000.Idx → EReal) k := by
  obtain ⟨e0, e1, -⟩ := idx_facts0 t
  unfold iblk0
  rw [View.read_apply]
  show V c main_arg1 _ = V c main_arg1 _
  refine congrArg (V c main_arg1) ?_
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- Window 1's block at every point is the whole of xb. -/
theorem iblk0_1_apply (c : Dev nD) (t : Fin cfg0.N) (x : S10000x128.Idx) (k : S10000x128.Idx)
    (hk0 : (k 0).val = (x 0).val) (hk1 : (k 1).val = (x 1).val) :
    (iblk0 V c 1 t : Vec Ideal S10000x128 .bf16) x = (V c main_v0 : S10000x128.Idx → EReal) k := by
  obtain ⟨-, -, e2, e3, -⟩ := idx_facts0 t
  unfold iblk0
  rw [View.read_apply]
  show V c main_v0 _ = V c main_v0 _
  refine congrArg (V c main_v0) ?_
  funext a
  apply Fin.ext
  match a with
  | ⟨0, _⟩ => show win0_1.index t 0 * 10000 + 1 * (x 0).val = (k 0).val; rw [e2, hk0]; omega
  | ⟨1, _⟩ => show win0_1.index t 1 * 128 + 1 * (x 1).val = (k 1).val; rw [e3, hk1]; omega

/-! ## From blocks to the array: abf -/

/-- What point `t` writes back to abf is block `t` of adj. -/
theorem flushed0_2_eq (c : Dev nD) (t : Fin cfg0.N) :
    (dat0 (F := Ideal) V c).flushed 2 t
      = ((cfg0.win 2).blk t).view.read (Elt Ideal) (V c main_arg1 : S10000x10000.Idx → EReal) := by
  show (cfg0.win 2).cut (grid0.coords t) ((dat0 V c).after 2 t) = _
  rw [after0_2, out0_2_eq]
  obtain ⟨-, -, -, -, e4, e5, -⟩ := idx_facts0 t
  funext j
  rw [View.read_apply]
  refine iblk0_0_apply V c t _ (((cfg0.win 2).blk t).view.emb j) ?_ ?_
  · show win0_2.index t 0 * 400 + 1 * (j 0).val = 400 * t.val + (j 0).val
    rw [e4]; omega
  · show win0_2.index t 1 * 10000 + 1 * (j 1).val = (j 1).val
    rw [e5]; omega

/-- An index of abf is in point `t`'s block iff each coordinate is in the block's range on its axis. -/
theorem mem_blk0_2 (t : Fin cfg0.N) (i : S10000x10000.Idx) :
    i ∈ ((cfg0.win 2).blk t).view.set ↔ ∀ a : Fin 2, win0_2.index t a * S400x10000.size a ≤ (i a).val ∧ (i a).val < win0_2.index t a * S400x10000.size a + S400x10000.size a := by
  show i ∈ ((View.whole main_v5_0).slice (win0_2.rect t)).set ↔ _
  rw [View.set_slice_whole, Rect.mem_set_unit]
  exact Iff.rfl

/-- Row `r` of abf is in the block of point `r / 400`: the blocks cover the array. -/
theorem cover0_2_arr (i : S10000x10000.Idx) :
    ∃ t : Fin cfg0.N, (cfg0.win 2).flush t = true ∧ i ∈ ((cfg0.win 2).blk t).view.set := by
  have hi0 : (i 0).val < 10000 := (i 0).isLt
  have hi1 : (i 1).val < 10000 := (i 1).isLt
  obtain ⟨t, ht⟩ : ∃ t : Fin cfg0.N, t.val = (i 0).val / 400 :=
    ⟨⟨(i 0).val / 400, by show _ < grid0.N; rw [N_0]; omega⟩, rfl⟩
  obtain ⟨-, -, -, -, e4, e5, -⟩ := idx_facts0 t
  refine ⟨t, flush0_2 t, ?_⟩
  rw [mem_blk0_2]
  intro a
  match a with
  | ⟨0, _⟩ => show win0_2.index t 0 * 400 ≤ (i 0).val ∧ (i 0).val < win0_2.index t 0 * 400 + 400; rw [e4, ht]; omega
  | ⟨1, _⟩ => show win0_2.index t 1 * 10000 ≤ (i 1).val ∧ (i 1).val < win0_2.index t 1 * 10000 + 10000; rw [e5]; omega

/-- The array abf after the region, as a function: adj as the region finds it. -/
theorem final0_2_fun (c : Dev nD) :
    (dat0 (F := Ideal) V c).arrAt 2 cfg0.N = (V c main_arg1 : S10000x10000.Idx → EReal) :=
  (dat0 (F := Ideal) V c).arrAt_eq_of_cover 2 (V c main_arg1 : S10000x10000.Idx → EReal)
    (fun t _ => flushed0_2_eq V c t) (fun i => cover0_2_arr i)

/-- The array abf after the region, entry by entry. -/
theorem final0_2 (c : Dev nD) : ∀ i, (dat0 (F := Ideal) V c).arrAt 2 cfg0.N i = V c main_arg1 i :=
  fun i => congrFun (final0_2_fun V c) i

/-! ## From blocks to the array: t1 -/

/-- What point `t` writes back to t1 is block `t` of the product of adj and xb. -/
theorem flushed0_3_eq (c : Dev nD) (t : Fin cfg0.N) :
    (dat0 (F := Ideal) V c).flushed 3 t
      = ((cfg0.win 3).blk t).view.read (Elt Ideal) (prod (V c main_arg1 : S10000x10000.Idx → EReal) (V c main_v0 : S10000x128.Idx → EReal)) := by
  show (cfg0.win 3).cut (grid0.coords t) ((dat0 V c).after 3 t) = _
  rw [after0_3, out0_3_eq]
  obtain ⟨-, -, -, -, -, -, e6, e7⟩ := idx_facts0 t
  funext j
  rw [View.read_apply]
  refine prod_rows_eq0 (V c main_arg1) (V c main_v0) (iblk0 V c 0 t) (iblk0 V c 1 t) _ (((cfg0.win 3).blk t).view.emb j) (fun k => ?_) (fun k => ?_)
  · refine iblk0_0_apply V c t _ _ ?_ rfl
    show win0_3.index t 0 * 400 + 1 * (j 0).val = 400 * t.val + (j 0).val
    rw [e6]; omega
  · refine iblk0_1_apply V c t _ _ rfl ?_
    show win0_3.index t 1 * 128 + 1 * (j 1).val = (j 1).val
    rw [e7]; omega

/-- An index of t1 is in point `t`'s block iff each coordinate is in the block's range on its axis. -/
theorem mem_blk0_3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v5_1).slice (win0_3.rect t)).set ↔ _
  rw [View.set_slice_whole, Rect.mem_set_unit]
  exact Iff.rfl

/-- Row `r` of t1 is in the block of point `r / 400`: the blocks cover the array. -/
theorem cover0_3_arr (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, by show _ < grid0.N; rw [N_0]; omega⟩, rfl⟩
  obtain ⟨-, -, -, -, -, -, e6, e7⟩ := idx_facts0 t
  refine ⟨t, flush0_3 t, ?_⟩
  rw [mem_blk0_3]
  intro a
  match a with
  | ⟨0, _⟩ => show win0_3.index t 0 * 400 ≤ (i 0).val ∧ (i 0).val < win0_3.index t 0 * 400 + 400; rw [e6, ht]; omega
  | ⟨1, _⟩ => show win0_3.index t 1 * 128 ≤ (i 1).val ∧ (i 1).val < win0_3.index t 1 * 128 + 128; rw [e7]; omega

/-- The array t1 after the region: the plain product of adj and xb as the region finds them. -/
theorem final0_3 (c : Dev nD) :
    (dat0 (F := Ideal) V c).arrAt 3 cfg0.N = prod (V c main_arg1) (V c main_v0) :=
  (dat0 (F := Ideal) V c).arrAt_eq_of_cover 3 (prod (V c main_arg1 : S10000x10000.Idx → EReal) (V c main_v0 : S10000x128.Idx → EReal))
    (fun t _ => flushed0_3_eq V c t) (fun i => cover0_3_arr i)

end Cert.KernelIdeal.Val
-- ==== Proof.Spec.lean ====
/-
  The network both programs compute, as whole-array functions on the extended reals.

  A graph layer with three Chebyshev terms of a dense operator A applied to features X:
      conv A X W b = X·W₀ + (A·X)·W₁ + (2·A·(A·X) − X)·W₂ + b        (b added to every row),
  the first layer followed by a clamp below at zero, the second by a row-wise log-softmax
      L ↦ (L − m) − log Σⱼ exp (Lⱼ − m),        m the row's maximum, folded from −∞.
  Matrix products are the plain sums of Cert.MatProd.prod. The literals 2, 0 and −∞ are kept as the words the
  programs print, read as extended reals, so that no proof evaluates them.
-/
import Idealize.ShloMosaic.PureOps.Ideal
import Idealize.ShloMosaic.Lib.ValueIdx
import proofs.«118616_g893353198325_cont_sun_c4_277_2_alg».proof.Proof.LibMatProd

noncomputable section

open scoped BigOperators

namespace Cert.Spec

open Idealize.ShloMosaic Idealize.ShloMosaic.ValueIdx Cert.MatProd

/-- A matrix, a stack of three matrices and a vector of extended reals. -/
abbrev Mat (a b : Nat) : Type := (⟨2, ![a, b]⟩ : Shape).Idx → EReal
abbrev Stack (a b : Nat) : Type := (⟨3, ![3, a, b]⟩ : Shape).Idx → EReal
abbrev Row (b : Nat) : Type := (⟨1, ![b]⟩ : Shape).Idx → EReal

/-- The words of 2.0, 0.0 and −∞ read as extended reals. -/
def two : EReal := Ideal.ofBits .f32 0x40000000#32
def zero : EReal := Ideal.ofBits .f32 0x00000000#32
def negInf : EReal := Ideal.ofBits .f32 0xFF800000#32

/-- Matrix `k` of a stack. -/
def plane {a b : Nat} (W : Stack a b) (k : Fin 3) : Mat a b := fun i => W (ix3 k (i 0) (i 1))

/-- Three products against the matrices of a stack, added left to right, plus a bias row laid out [1, g]: the form a
    layer takes once its three left operands are given (`Z` standing for the product A·T₁ inside the third). -/
def mix {n f g : Nat} (X0 T1 Z X : Mat n f) (W : Stack f g) (b : Mat 1 g) : Mat n g := fun i =>
  prod X0 (plane W 0) i + prod T1 (plane W 1) i + prod (fun j => two * Z j - X j) (plane W 2) i + b (ix2 0 (i 1))

/-- The second Chebyshev term 2·A·(A·X) − X. -/
def cheb2 {n f : Nat} (A : Mat n n) (X : Mat n f) : Mat n f := fun i => two * prod A (prod A X) i - X i

/-- One layer before its nonlinearity. -/
def conv {n f g : Nat} (A : Mat n n) (X : Mat n f) (W : Stack f g) (b : Row g) : Mat n g := fun i =>
  prod X (plane W 0) i + prod (prod A X) (plane W 1) i + prod (cheb2 A X) (plane W 2) i + b (ix1 (i 1))

/-- The hidden features: the first layer clamped below at zero. -/
def hidden {n f g : Nat} (A : Mat n n) (X : Mat n f) (W : Stack f g) (b : Row g) : Mat n g := fun i =>
  max (conv A X W b i) zero

/-- The maximum of row `r`, folded from −∞. -/
def rowMax {n g : Nat} (L : Mat n g) (r : Fin n) : EReal :=
  (Finset.univ : Finset (Fin g)).fold max negInf (fun j => L (ix2 r j))

/-- Row-wise log-softmax in the shifted form both programs use. -/
def logSoftmax {n g : Nat} (L : Mat n g) : Mat n g := fun i =>
  (L i - rowMax L (i 0)) - Ideal.log (∑ j : Fin g, Ideal.exp (L (ix2 (i 0) j) - rowMax L (i 0)))

/-- A layer is the mix of X, A·X and A·(A·X), with the bias vector read as a row. -/
theorem conv_eq_mix {n f g : Nat} (A : Mat n n) (X : Mat n f) (W : Stack f g) (b : Row g) (b' : Mat 1 g)
    (hb : ∀ j : Fin g, b' (ix2 0 j) = b (ix1 j)) :
    conv A X W b = mix X (prod A X) (prod A (prod A X)) X W b' := by
  funext i
  exact congrArg (fun z => prod X (plane W 0) i + prod (prod A X) (plane W 1) i + prod (cheb2 A X) (plane W 2) i + z)
    (hb (i 1)).symm

/-- The whole network. -/
def net {n f h g : Nat} (X : Mat n f) (A : Mat n n) (W1 : Stack f h) (b1 : Row h) (W2 : Stack h g) (b2 : Row g) : Mat n g :=
  logSoftmax (conv A (hidden A X W1 b1) W2 b2)

end Cert.Spec

end
-- ==== Proof.ValKI1.lean ====
/-
  Region 1 at the extended reals: what its two output arrays hold after the region, as one function of the arrays the
  region finds. The body's payload at an entry is the three products against the planes of the weight stack, added left
  to right, plus the bias row, clamped below at zero; a block of rows of that is the rows of the whole-array layer; the
  25 row blocks tile the arrays.
-/
import proofs.«118616_g893353198325_cont_sun_c4_277_2_alg».proof.Proof.FrKI1
import proofs.«118616_g893353198325_cont_sun_c4_277_2_alg».proof.Proof.Spec
import proofs.«118616_g893353198325_cont_sun_c4_277_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open Cert.Spec Cert.MatProd

/-! ## The body's payload at an index -/

theorem hz2 : (![0, 0] : Fin 2 → Nat) = fun _ => 0 := funext fun a => by fin_cases a <;> rfl

/-- The printed contraction records are the plain product's. -/
theorem dotA_eq : dot_S400x10000_S10000x128_S400x128_1_0_0_1_n_n = DotDims.plain 400 10000 128 := rfl
theorem dotW_eq : dot_S400x128_S128x128_S400x128_1_0_0_1_n_n = DotDims.plain 400 128 128 := rfl

/-- Slab `k` of the weight block, read through its rectangle and cast to a matrix, is plane `k` of the stack. -/
theorem slab0_apply (x5 : Vec Ideal S3x128x128 .bf16) (h : S1x128x128.ShapeCasts S128x128) (k : Fin 128) (q : Fin 128) :
    shapeCast S128x128 (View.ld x5 r1_3) h (ix2 k q) = plane x5 0 (ix2 k q) := by
  refine (shapeCast_1ab_ab_apply (View.ld x5 r1_3) h k q).trans ?_
  show x5 (r1_3.emb (ix3 (0 : Fin 1) k q)) = x5 (ix3 0 k q)
  congr 1
  funext a; apply Fin.ext
  match a with
  | ⟨0, _⟩ => rfl
  | ⟨1, _⟩ => show 0 + 1 * k.val = k.val; omega
  | ⟨2, _⟩ => show 0 + 1 * q.val = q.val; omega

theorem slab1_apply (x5 : Vec Ideal S3x128x128 .bf16) (h : S1x128x128.ShapeCasts S128x128) (k : Fin 128) (q : Fin 128) :
    shapeCast S128x128 (View.ld x5 r1_4) h (ix2 k q) = plane x5 1 (ix2 k q) := by
  refine (shapeCast_1ab_ab_apply (View.ld x5 r1_4) h k q).trans ?_
  show x5 (r1_4.emb (ix3 (0 : Fin 1) k q)) = x5 (ix3 1 k q)
  congr 1
  funext a; apply Fin.ext
  match a with
  | ⟨0, _⟩ => rfl
  | ⟨1, _⟩ => show 0 + 1 * k.val = k.val; omega
  | ⟨2, _⟩ => show 0 + 1 * q.val = q.val; omega

theorem slab2_apply (x5 : Vec Ideal S3x128x128 .bf16) (h : S1x128x128.ShapeCasts S128x128) (k : Fin 128) (q : Fin 128) :
    shapeCast S128x128 (View.ld x5 r1_5) h (ix2 k q) = plane x5 2 (ix2 k q) := by
  refine (shapeCast_1ab_ab_apply (View.ld x5 r1_5) h k q).trans ?_
  show x5 (r1_5.emb (ix3 (0 : Fin 1) k q)) = x5 (ix3 2 k q)
  congr 1
  funext a; apply Fin.ext
  match a with
  | ⟨0, _⟩ => rfl
  | ⟨1, _⟩ => show 0 + 1 * k.val = k.val; omega
  | ⟨2, _⟩ => show 0 + 1 * q.val = q.val; omega

/-- A product of a row block with a cast slab, into a zero accumulator, at an entry: the plain sum against the plane. -/
theorem blockTimesSlab (l : FVec Ideal S400x128 .bf16) (w : FVec Ideal S128x128 .bf16) (L : Mat 400 128) (P : Mat 128 128)
    (p : Fin 400) (q : Fin 128)
    (hl : ∀ k : Fin 128, l (ix2 p k) = L (ix2 p k)) (hw : ∀ k : Fin 128, w (ix2 k q) = P (ix2 k q)) :
    matmul dot_S400x128_S128x128_S400x128_1_0_0_1_n_n none l w (constant S400x128 .f32 0x00000000#32) (ix2 p q)
      = prod L P (ix2 p q) :=
  (matmul_plain_zero_apply (M := 400) (K := 128) (N := 128) none l w p q).trans
    (Finset.sum_congr rfl fun k _ => by rw [hl k, hw k])

/-- The operator block times the whole first-order term, into a zero accumulator: the plain product. -/
theorem abfTimesT1 (x0 : Vec Ideal S400x10000 .bf16) (x1 : Vec Ideal S10000x128 .bf16)
    (h0 : S400x10000.ShapeCasts S400x10000) (h1 : S10000x128.ShapeCasts S10000x128) (p : Fin 400) (k : Fin 128) :
    matmul (F := Ideal) dot_S400x10000_S10000x128_S400x128_1_0_0_1_n_n none (shapeCast S400x10000 x0 h0 : FVec Ideal S400x10000 .bf16)
        (shapeCast S10000x128 x1 h1 : FVec Ideal S10000x128 .bf16) (constant S400x128 .f32 0x00000000#32) (ix2 p k)
      = prod x0 x1 (ix2 p k) := by
  rw [shapeCast_self, shapeCast_self]
  exact matmul_plain_zero_apply (M := 400) (K := 10000) (N := 128) none x0 x1 p k

/-- THE PAYLOAD AT AN ENTRY: the three products against the planes of the weight block, added left to right, plus the
    bias row, clamped below at zero. -/
theorem pre1_apply (x0 : Vec Ideal S400x10000 .bf16) (x1 : Vec Ideal S10000x128 .bf16) (x2 : Vec Ideal S400x128 .bf16)
    (x3 : Vec Ideal S400x128 .f32) (x4 : Vec Ideal S400x128 .bf16) (x5 : Vec Ideal S3x128x128 .bf16) (x6 : Vec Ideal S1x128 .f32)
    (p : Fin 400) (q : Fin 128) :
    pre1 x0 x1 x2 x3 x4 x5 x6 (ix2 p q) = max (mix x4 x2 (prod x0 x1) x3 x5 x6 (ix2 p q)) zero := by
  unfold pre1
  simp only [View.ld_unit_zero (S := S400x10000) hz2, View.ld_unit_zero (S := S10000x128) hz2,
    View.ld_unit_zero (S := S400x128) hz2, View.ld_unit_zero (S := S1x128) hz2]
  unfold k1_pay2
  show max (_ + _ + _ + _) _ = max (_ + _ + _ + _) _
  refine congrArg₂ max (congrArg₂ (· + ·) (congrArg₂ (· + ·) (congrArg₂ (· + ·) ?_ ?_) ?_) ?_) ?_
  · exact blockTimesSlab _ _ x4 (plane x5 0) p q (fun k => congrFun (shapeCast_self x4 _) _) (fun k => slab0_apply x5 _ k q)
  · exact blockTimesSlab _ _ x2 (plane x5 1) p q (fun k => congrFun (shapeCast_self x2 _) _) (fun k => slab1_apply x5 _ k q)
  · refine blockTimesSlab _ _ (fun j => two * prod x0 x1 j - x3 j) (plane x5 2) p q (fun k => ?_) (fun k => slab2_apply x5 _ k q)
    exact congrArg (fun z => two * z - x3 (ix2 p k)) (abfTimesT1 x0 x1 _ _ p k)
  · exact (broadcastTo_1b_ab_apply _ _ p q).trans (congrFun (shapeCast_self x6 _) _)
  · rfl

/-! ## A block of rows of the layer is the rows of the whole-array layer -/

/-- Entry `(p, q)` of the mix of row BLOCKS is entry `(r, q)` of the mix of the whole arrays, when row `p` of each row
    block is row `r` of its array and the whole operands are read as they are. -/
theorem mix_rows1 {n n' m f g : Nat} (A : Mat n m) (T : Mat m f) (X0 T1 X : Mat n f) (W : Stack f g) (b : Mat 1 g)
    (A' : Mat n' m) (T' : Mat m f) (X0' T1' X' : Mat n' f) (W' : Stack f g) (b' : Mat 1 g)
    (p : Fin n') (r : Fin n) (q : Fin g)
    (hA : ∀ k, A' (ix2 p k) = A (ix2 r k)) (hT : ∀ l k, T' (ix2 l k) = T (ix2 l k))
    (h0 : ∀ k, X0' (ix2 p k) = X0 (ix2 r k)) (h1 : ∀ k, T1' (ix2 p k) = T1 (ix2 r k)) (hX : ∀ k, X' (ix2 p k) = X (ix2 r k))
    (hW : ∀ (s : Fin 3) k j, W' (ix3 s k j) = W (ix3 s k j)) (hb : ∀ j, b' (ix2 0 j) = b (ix2 0 j)) :
    mix X0' T1' (prod A' T') X' W' b' (ix2 p q) = mix X0 T1 (prod A T) X W b (ix2 r q) := by
  show prod X0' (plane W' 0) (ix2 p q) + prod T1' (plane W' 1) (ix2 p q)
        + prod (fun j => two * prod A' T' j - X' j) (plane W' 2) (ix2 p q) + b' (ix2 0 q)
      = prod X0 (plane W 0) (ix2 r q) + prod T1 (plane W 1) (ix2 r q)
        + prod (fun j => two * prod A T j - X j) (plane W 2) (ix2 r q) + b (ix2 0 q)
  rw [prod_block_eq X0 (plane W 0) X0' (plane W' 0) p q (ix2 r q) h0 (fun k => hW 0 k q),
    prod_block_eq T1 (plane W 1) T1' (plane W' 1) p q (ix2 r q) h1 (fun k => hW 1 k q),
    prod_block_eq (fun j => two * prod A T j - X j) (plane W 2) (fun j => two * prod A' T' j - X' j) (plane W' 2) p q (ix2 r q)
      (fun k => by
        show two * prod A' T' (ix2 p k) - X' (ix2 p k) = two * prod A T (ix2 r k) - X (ix2 r k)
        rw [prod_block_eq A T A' T' p k (ix2 r k) hA (fun l => hT l k), hX k])
      (fun k => hW 2 k q),
    hb q]

/-! ## The windows' blocks, read off the arrays the region finds -/

variable (V : (c : Dev nD) → (b : Ref sig .tc) → Buf (Elt Ideal) ((c : Thread nD τ).loc b))

/-- The printed index maps, decided over the grid: a row-block window's block index is the point on the row axis and
    zero on the other; a whole-array window's is zero. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The operator window's block at point `t` is rows `400 t … 400 t + 399` of the operator. -/
theorem iblk1_0_apply (c : Dev nD) (t : Fin cfg1.N) (p : Fin 400) (k : Fin 10000) (r : Fin 10000) (hr : r.val = 400 * t.val + p.val) :
    (iblk1 V c 0 t : Vec Ideal S400x10000 .bf16) (ix2 p k) = (V c main_v5_0 : Mat 10000 10000) (ix2 r k) := by
  obtain ⟨e0, e1, -⟩ := idx_facts1 t
  unfold iblk1
  rw [View.read_apply]
  show V c main_v5_0 _ = V c main_v5_0 _
  congr 1
  funext a; apply Fin.ext
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The first-order term's row-block window at point `t` is rows `400 t … 400 t + 399` of it. -/
theorem iblk1_2_apply (c : Dev nD) (t : Fin cfg1.N) (p : Fin 400) (k : Fin 128) (r : Fin 10000) (hr : r.val = 400 * t.val + p.val) :
    (iblk1 V c 2 t : Vec Ideal S400x128 .bf16) (ix2 p k) = (V c main_v5_1 : Mat 10000 128) (ix2 r k) := by
  have e := idx_facts1 t
  unfold iblk1
  rw [View.read_apply]
  show V c main_v5_1 _ = V c main_v5_1 _
  congr 1
  funext a; apply Fin.ext
  match a with
  | ⟨0, _⟩ => show win1_2.index t (0 : Fin 2) * 400 + 1 * p.val = r.val; rw [hr]; omega
  | ⟨1, _⟩ => show win1_2.index t (1 : Fin 2) * 128 + 1 * k.val = k.val; omega

/-- The features' row-block window. -/
theorem iblk1_3_apply (c : Dev nD) (t : Fin cfg1.N) (p : Fin 400) (k : Fin 128) (r : Fin 10000) (hr : r.val = 400 * t.val + p.val) :
    (iblk1 V c 3 t : Vec Ideal S400x128 .f32) (ix2 p k) = (V c main_arg0 : Mat 10000 128) (ix2 r k) := by
  have e := idx_facts1 t
  unfold iblk1
  rw [View.read_apply]
  show V c main_arg0 _ = V c main_arg0 _
  congr 1
  funext a; apply Fin.ext
  match a with
  | ⟨0, _⟩ => show win1_3.index t (0 : Fin 2) * 400 + 1 * p.val = r.val; rw [hr]; omega
  | ⟨1, _⟩ => show win1_3.index t (1 : Fin 2) * 128 + 1 * k.val = k.val; omega

/-- The rounded features' row-block window. -/
theorem iblk1_4_apply (c : Dev nD) (t : Fin cfg1.N) (p : Fin 400) (k : Fin 128) (r : Fin 10000) (hr : r.val = 400 * t.val + p.val) :
    (iblk1 V c 4 t : Vec Ideal S400x128 .bf16) (ix2 p k) = (V c main_v0 : Mat 10000 128) (ix2 r k) := by
  have e := idx_facts1 t
  unfold iblk1
  rw [View.read_apply]
  show V c main_v0 _ = V c main_v0 _
  congr 1
  funext a; apply Fin.ext
  match a with
  | ⟨0, _⟩ => show win1_4.index t (0 : Fin 2) * 400 + 1 * p.val = r.val; rw [hr]; omega
  | ⟨1, _⟩ => show win1_4.index t (1 : Fin 2) * 128 + 1 * k.val = k.val; omega

/-- The whole-array windows hold their arrays at every point. -/
theorem iblk1_1_apply (c : Dev nD) (t : Fin cfg1.N) (l : Fin 10000) (k : Fin 128) :
    (iblk1 V c 1 t : Vec Ideal S10000x128 .bf16) (ix2 l k) = (V c main_v5_1 : Mat 10000 128) (ix2 l k) := by
  have e := idx_facts1 t
  unfold iblk1
  rw [View.read_apply]
  show V c main_v5_1 _ = V c main_v5_1 _
  congr 1
  funext a; apply Fin.ext
  match a with
  | ⟨0, _⟩ => show win1_1.index t (0 : Fin 2) * 10000 + 1 * l.val = l.val; omega
  | ⟨1, _⟩ => show win1_1.index t (1 : Fin 2) * 128 + 1 * k.val = k.val; omega

theorem iblk1_5_apply (c : Dev nD) (t : Fin cfg1.N) (s : Fin 3) (k : Fin 128) (j : Fin 128) :
    (iblk1 V c 5 t : Vec Ideal S3x128x128 .bf16) (ix3 s k j) = (V c main_v1 : Stack 128 128) (ix3 s k j) := by
  have e := idx_facts1 t
  unfold iblk1
  rw [View.read_apply]
  show V c main_v1 _ = V c main_v1 _
  congr 1
  funext a; apply Fin.ext
  match a with
  | ⟨0, _⟩ => show win1_5.index t (0 : Fin 3) * 3 + 1 * s.val = s.val; omega
  | ⟨1, _⟩ => show win1_5.index t (1 : Fin 3) * 128 + 1 * k.val = k.val; omega
  | ⟨2, _⟩ => show win1_5.index t (2 : Fin 3) * 128 + 1 * j.val = j.val; omega

theorem iblk1_6_apply (c : Dev nD) (t : Fin cfg1.N) (j : Fin 128) :
    (iblk1 V c 6 t : Vec Ideal S1x128 .f32) (ix2 0 j) = (V c main_v3 : Mat 1 128) (ix2 0 j) := by
  have e := idx_facts1 t
  unfold iblk1
  rw [View.read_apply]
  show V c main_v3 _ = V c main_v3 _
  congr 1
  funext a; apply Fin.ext
  match a with
  | ⟨0, _⟩ => show win1_6.index t (0 : Fin 2) * 1 + 1 * 0 = 0; omega
  | ⟨1, _⟩ => show win1_6.index t (1 : Fin 2) * 128 + 1 * j.val = j.val; omega

/-! ## The hidden features, as one function of the arrays the region finds -/

/-- The first layer clamped below at zero: the mix of the rounded features, the first-order term and the operator
    applied to it, against the weight stack and the bias row. -/
def H1 (c : Dev nD) : Mat 10000 128 := fun i =>
  max (mix (V c main_v0) (V c main_v5_1) (prod (V c main_v5_0) (V c main_v5_1)) (V c main_arg0) (V c main_v1) (V c main_v3) i) zero

/-- The payload of point `t` at `(p, q)` is the hidden features at row `400 t + p`, column `q`. -/
theorem pre1_rows (c : Dev nD) (t : Fin cfg1.N) (p : Fin 400) (q : Fin 128) (r : Fin 10000) (hr : r.val = 400 * t.val + p.val) :
    pre1 (iblk1 V c 0 t) (iblk1 V c 1 t) (iblk1 V c 2 t) (iblk1 V c 3 t) (iblk1 V c 4 t) (iblk1 V c 5 t) (iblk1 V c 6 t) (ix2 p q)
      = H1 V c (ix2 r q) := by
  refine (pre1_apply _ _ _ _ _ _ _ p q).trans ?_
  refine congrArg (fun z => max z zero) ?_
  exact mix_rows1 (V c main_v5_0) (V c main_v5_1) (V c main_v0) (V c main_v5_1) (V c main_arg0) (V c main_v1) (V c main_v3)
    _ _ _ _ _ _ _ p r q
    (fun k => iblk1_0_apply V c t p k r hr) (fun l k => iblk1_1_apply V c t l k)
    (fun k => iblk1_4_apply V c t p k r hr) (fun k => iblk1_2_apply V c t p k r hr) (fun k => iblk1_3_apply V c t p k r hr)
    (fun s k j => iblk1_5_apply V c t s k j) (fun j => iblk1_6_apply V c t j)

/-! ## From blocks to the array -/

/-- What point `t` writes back through window 7 is block `t` of the hidden features. -/
theorem flushed1_7_eq (c : Dev nD) (t : Fin cfg1.N) :
    (dat1 (F := Ideal) V c).flushed 7 t = ((cfg1.win 7).blk t).view.read (Elt Ideal) (H1 V c) := by
  obtain ⟨-, -, -, -, -, -, -, -, -, -, -, -, -, -, -, e0, e1, -⟩ := idx_facts1 t
  show (cfg1.win 7).cut (grid1.coords t) ((dat1 V c).after 7 t) = _
  rw [after1_7]
  unfold out1_7
  rw [View.canon_unit_zero hz2]
  funext j
  obtain ⟨p, q, rfl⟩ : ∃ (p : Fin 400) (q : Fin 128), j = ix2 p q := ⟨j 0, j 1, eq_ix2 j⟩
  have hN : cfg1.N = 25 := N_1
  have ht : t.val < 25 := lt_of_lt_of_eq t.isLt hN
  have hp : p.val < 400 := p.isLt
  refine (pre1_rows V c t p q ⟨400 * t.val + p.val, by omega⟩ rfl).trans ?_
  show H1 V c _ = H1 V c (((cfg1.win 7).blk t).view.emb (ix2 p q))
  congr 1
  funext a; apply Fin.ext
  match a with
  | ⟨0, _⟩ => show 400 * t.val + p.val = win1_7.index t (0 : Fin 2) * 400 + 1 * p.val; rw [e0]; omega
  | ⟨1, _⟩ => show q.val = win1_7.index t (1 : Fin 2) * 128 + 1 * q.val; rw [e1]; omega

/-- Window 8 stores the same values (the change of format is the identity on the extended reals). -/
theorem flushed1_8_eq (c : Dev nD) (t : Fin cfg1.N) :
    (dat1 (F := Ideal) V c).flushed 8 t = ((cfg1.win 8).blk t).view.read (Elt Ideal) (H1 V c) := by
  obtain ⟨-, -, -, -, -, -, -, -, -, -, -, -, -, -, -, -, -, e0, e1⟩ := idx_facts1 t
  show (cfg1.win 8).cut (grid1.coords t) ((dat1 V c).after 8 t) = _
  rw [after1_8]
  unfold out1_8
  rw [View.canon_unit_zero hz2]
  funext j
  obtain ⟨p, q, rfl⟩ : ∃ (p : Fin 400) (q : Fin 128), j = ix2 p q := ⟨j 0, j 1, eq_ix2 j⟩
  have hN : cfg1.N = 25 := N_1
  have ht : t.val < 25 := lt_of_lt_of_eq t.isLt hN
  have hp : p.val < 400 := p.isLt
  show pre1 (iblk1 V c 0 t) (iblk1 V c 1 t) (iblk1 V c 2 t) (iblk1 V c 3 t) (iblk1 V c 4 t) (iblk1 V c 5 t) (iblk1 V c 6 t) (ix2 p q) = _
  refine (pre1_rows V c t p q ⟨400 * t.val + p.val, by omega⟩ rfl).trans ?_
  show H1 V c _ = H1 V c (((cfg1.win 8).blk t).view.emb (ix2 p q))
  congr 1
  funext a; apply Fin.ext
  match a with
  | ⟨0, _⟩ => show 400 * t.val + p.val = win1_8.index t (0 : Fin 2) * 400 + 1 * p.val; rw [e0]; omega
  | ⟨1, _⟩ => show q.val = win1_8.index t (1 : Fin 2) * 128 + 1 * q.val; rw [e1]; omega

/-- An index of the array is in point `t`'s block iff each coordinate is in the block's range on its axis. -/
theorem mem_blk1_7 (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v6_0).slice (win1_7.rect t)).set ↔ _
  rw [View.set_slice_whole, Rect.mem_set_unit]
  exact Iff.rfl
theorem mem_blk1_8 (t : Fin cfg1.N) (i : S10000x128.Idx) :
    i ∈ ((cfg1.win 8).blk t).view.set ↔ ∀ a : Fin 2, win1_8.index t a * S400x128.size a ≤ (i a).val ∧ (i a).val < win1_8.index t a * S400x128.size a + S400x128.size a := by
  show i ∈ ((View.whole main_v6_1).slice (win1_8.rect t)).set ↔ _
  rw [View.set_slice_whole, Rect.mem_set_unit]
  exact Iff.rfl

/-- Row `r` is in the block of point `r / 400`. -/
theorem cover1_7arr (i : S10000x128.Idx) : ∃ t : Fin cfg1.N, (cfg1.win 7).flush t = true ∧ i ∈ ((cfg1.win 7).blk t).view.set := by
  have hi0 : (i 0).val < 10000 := (i 0).isLt
  have hi1 : (i 1).val < 128 := (i 1).isLt
  have hN : cfg1.N = 25 := N_1
  refine ⟨⟨(i 0).val / 400, by rw [hN]; omega⟩, flush1_7 _, ?_⟩
  obtain ⟨-, -, -, -, -, -, -, -, -, -, -, -, -, -, -, e0, e1, -⟩ := idx_facts1 ⟨(i 0).val / 400, by rw [hN]; omega⟩
  rw [mem_blk1_7]
  intro a
  match a with
  | ⟨0, _⟩ =>
    show win1_7.index ⟨(i 0).val / 400, _⟩ (0 : Fin 2) * 400 ≤ (i 0).val ∧ (i 0).val < win1_7.index ⟨(i 0).val / 400, _⟩ (0 : Fin 2) * 400 + 400
    rw [e0]; show (i 0).val / 400 * 400 ≤ (i 0).val ∧ (i 0).val < (i 0).val / 400 * 400 + 400; omega
  | ⟨1, _⟩ =>
    show win1_7.index ⟨(i 0).val / 400, _⟩ (1 : Fin 2) * 128 ≤ (i 1).val ∧ (i 1).val < win1_7.index ⟨(i 0).val / 400, _⟩ (1 : Fin 2) * 128 + 128
    rw [e1]; omega

theorem cover1_8arr (i : S10000x128.Idx) : ∃ t : Fin cfg1.N, (cfg1.win 8).flush t = true ∧ i ∈ ((cfg1.win 8).blk t).view.set := by
  have hi0 : (i 0).val < 10000 := (i 0).isLt
  have hi1 : (i 1).val < 128 := (i 1).isLt
  have hN : cfg1.N = 25 := N_1
  refine ⟨⟨(i 0).val / 400, by rw [hN]; omega⟩, flush1_8 _, ?_⟩
  obtain ⟨-, -, -, -, -, -, -, -, -, -, -, -, -, -, -, -, -, e0, e1⟩ := idx_facts1 ⟨(i 0).val / 400, by rw [hN]; omega⟩
  rw [mem_blk1_8]
  intro a
  match a with
  | ⟨0, _⟩ =>
    show win1_8.index ⟨(i 0).val / 400, _⟩ (0 : Fin 2) * 400 ≤ (i 0).val ∧ (i 0).val < win1_8.index ⟨(i 0).val / 400, _⟩ (0 : Fin 2) * 400 + 400
    rw [e0]; show (i 0).val / 400 * 400 ≤ (i 0).val ∧ (i 0).val < (i 0).val / 400 * 400 + 400; omega
  | ⟨1, _⟩ =>
    show win1_8.index ⟨(i 0).val / 400, _⟩ (1 : Fin 2) * 128 ≤ (i 1).val ∧ (i 1).val < win1_8.index ⟨(i 0).val / 400, _⟩ (1 : Fin 2) * 128 + 128
    rw [e1]; omega

/-- THE ARRAYS after the region: both outputs hold the hidden features. -/
theorem final1_7 (c : Dev nD) : (dat1 (F := Ideal) V c).arrAt 7 cfg1.N = H1 V c :=
  (dat1 V c).arrAt_eq_of_cover 7 (H1 V c) (fun t _ => flushed1_7_eq V c t) cover1_7arr
theorem final1_8 (c : Dev nD) : (dat1 (F := Ideal) V c).arrAt 8 cfg1.N = H1 V c :=
  (dat1 V c).arrAt_eq_of_cover 8 (H1 V c) (fun t _ => flushed1_8_eq V c t) cover1_8arr

end Cert.KernelIdeal.Val

end
-- ==== Proof.ValKI2.lean ====
/- The value of region 2 over the extended reals: after its 25 grid points the array th1 holds the plain matrix product
   of the arrays abf and hb the region finds.  Each point stores the product of a 400-row block of abf with the whole of
   hb (rounding to bf16 is the identity over the extended reals); row r of the result is written by point r / 400, and
   these blocks cover the array. -/
import proofs.«118616_g893353198325_cont_sun_c4_277_2_alg».proof.Proof.FrKI2
import proofs.«118616_g893353198325_cont_sun_c4_277_2_alg».proof.Proof.LibMatProd
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx Cert.MatProd

-- the TensorCore's buffer contents when the region is entered, over the extended reals
variable (V : (c : Dev nD) → (b : Ref sig .tc) → Buf (Elt Ideal) ((c : Thread nD τ).loc b))

theorem zeros2 : (![0, 0] : Fin 2 → Nat) = fun _ => 0 := funext fun a => by fin_cases a <;> rfl

/-! ## The payload -/

/-- The stored value is the plain product of the two loaded blocks. -/
theorem pay2_eq (x0 : Vec Ideal S400x10000 .bf16) (x1 : Vec Ideal S10000x128 .bf16) :
    k2_pay1 (F := Ideal) x0 x1 = prod x0 x1 := by
  unfold k2_pay1
  simp only [shapeCast_self]
  exact matmul_plain_zero_eq (φ₁ := .bf16) (φ₂ := .bf16) none x0 x1

/-- What the body leaves in the output window's buffer is the plain product of the input windows' blocks. -/
theorem out2_2_eq (x0 : Vec Ideal S400x10000 .bf16) (x1 : Vec Ideal S10000x128 .bf16) :
    out2_2 (F := Ideal) x0 x1 = prod x0 x1 := by
  unfold out2_2
  rw [View.canon_unit_zero zeros2]
  simp only [View.ld_unit_zero (S := S400x10000) zeros2, View.ld_unit_zero (S := S10000x128) zeros2]
  exact pay2_eq x0 x1

/-- An entry of a product of a block of rows is the entry of the product of the whole arrays in the same row. -/
theorem prod_rows_eq2 (A : S10000x10000.Idx → EReal) (B : S10000x128.Idx → EReal)
    (A' : S400x10000.Idx → EReal) (B' : S10000x128.Idx → EReal) (j : S400x128.Idx) (i : S10000x128.Idx)
    (h0 : ∀ k : Fin 10000, A' (ix2 (j 0) k) = A (ix2 (i 0) k)) (h1 : ∀ k : Fin 10000, B' (ix2 k (j 1)) = B (ix2 k (i 1))) :
    prod A' B' j = prod A B i := by
  show ∑ k : Fin 10000, A' (ix2 (j 0) k) * B' (ix2 k (j 1)) = ∑ k : Fin 10000, A (ix2 (i 0) k) * B (ix2 k (i 1))
  exact Finset.sum_congr rfl fun k _ => by rw [h0 k, h1 k]

/-! ## The index maps, decided over the grid -/

/-- The row-block windows sit at block row `t`, column 0; the whole-array window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## The input blocks as entries of the arrays -/

/-- Window 0's block at point `t` is rows `400 t … 400 t + 399` of abf. -/
theorem iblk2_0_apply (c : Dev nD) (t : Fin cfg2.N) (x : S400x10000.Idx) (k : S10000x10000.Idx)
    (hk0 : (k 0).val = 400 * t.val + (x 0).val) (hk1 : (k 1).val = (x 1).val) :
    (iblk2 V c 0 t : Vec Ideal S400x10000 .bf16) x = (V c main_v5_0 : S10000x10000.Idx → EReal) k := by
  obtain ⟨e0, e1, -⟩ := idx_facts2 t
  unfold iblk2
  rw [View.read_apply]
  show V c main_v5_0 _ = V c main_v5_0 _
  refine congrArg (V c main_v5_0) ?_
  funext a
  apply Fin.ext
  match a with
  | ⟨0, _⟩ => show win2_0.index t 0 * 400 + 1 * (x 0).val = (k 0).val; rw [e0, hk0]; omega
  | ⟨1, _⟩ => show win2_0.index t 1 * 10000 + 1 * (x 1).val = (k 1).val; rw [e1, hk1]; omega

/-- Window 1's block at every point is the whole of hb. -/
theorem iblk2_1_apply (c : Dev nD) (t : Fin cfg2.N) (x : S10000x128.Idx) (k : S10000x128.Idx)
    (hk0 : (k 0).val = (x 0).val) (hk1 : (k 1).val = (x 1).val) :
    (iblk2 V c 1 t : Vec Ideal S10000x128 .bf16) x = (V c main_v6_1 : S10000x128.Idx → EReal) k := by
  obtain ⟨-, -, e2, e3, -⟩ := idx_facts2 t
  unfold iblk2
  rw [View.read_apply]
  show V c main_v6_1 _ = V c main_v6_1 _
  refine congrArg (V c main_v6_1) ?_
  funext a
  apply Fin.ext
  match a with
  | ⟨0, _⟩ => show win2_1.index t 0 * 10000 + 1 * (x 0).val = (k 0).val; rw [e2, hk0]; omega
  | ⟨1, _⟩ => show win2_1.index t 1 * 128 + 1 * (x 1).val = (k 1).val; rw [e3, hk1]; omega

/-! ## From blocks to the array -/

/-- What point `t` writes back is block `t` of the product of the two arrays. -/
theorem flushed2_2_eq (c : Dev nD) (t : Fin cfg2.N) :
    (dat2 (F := Ideal) V c).flushed 2 t
      = ((cfg2.win 2).blk t).view.read (Elt Ideal) (prod (V c main_v5_0 : S10000x10000.Idx → EReal) (V c main_v6_1 : S10000x128.Idx → EReal)) := by
  show (cfg2.win 2).cut (grid2.coords t) ((dat2 V c).after 2 t) = _
  rw [after2_2, out2_2_eq]
  obtain ⟨-, -, -, -, e4, e5⟩ := idx_facts2 t
  funext j
  rw [View.read_apply]
  refine prod_rows_eq2 (V c main_v5_0) (V c main_v6_1) (iblk2 V c 0 t) (iblk2 V c 1 t) _ (((cfg2.win 2).blk t).view.emb j) (fun k => ?_) (fun k => ?_)
  · refine iblk2_0_apply V c t _ _ ?_ rfl
    show win2_2.index t 0 * 400 + 1 * (j 0).val = 400 * t.val + (j 0).val
    rw [e4]; omega
  · refine iblk2_1_apply V c t _ _ rfl ?_
    show win2_2.index t 1 * 128 + 1 * (j 1).val = (j 1).val
    rw [e5]; omega

/-- An index of th1 is in point `t`'s block iff each coordinate is in the block's range on its axis. -/
theorem mem_blk2_2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v7).slice (win2_2.rect t)).set ↔ _
  rw [View.set_slice_whole, Rect.mem_set_unit]
  exact Iff.rfl

/-- Row `r` of th1 is in the block of point `r / 400`: the blocks cover the array. -/
theorem cover2_2_arr (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ : ∃ t : Fin cfg2.N, t.val = (i 0).val / 400 :=
    ⟨⟨(i 0).val / 400, by show _ < grid2.N; rw [N_2]; omega⟩, rfl⟩
  obtain ⟨-, -, -, -, e4, e5⟩ := idx_facts2 t
  refine ⟨t, flush2_2 t, ?_⟩
  rw [mem_blk2_2]
  intro a
  match a with
  | ⟨0, _⟩ => show win2_2.index t 0 * 400 ≤ (i 0).val ∧ (i 0).val < win2_2.index t 0 * 400 + 400; rw [e4, ht]; omega
  | ⟨1, _⟩ => show win2_2.index t 1 * 128 ≤ (i 1).val ∧ (i 1).val < win2_2.index t 1 * 128 + 128; rw [e5]; omega

/-- The array th1 after the region: the plain product of abf and hb as the region finds them. -/
theorem final2_2 (c : Dev nD) :
    (dat2 (F := Ideal) V c).arrAt 2 cfg2.N = prod (V c main_v5_0) (V c main_v6_1) :=
  (dat2 (F := Ideal) V c).arrAt_eq_of_cover 2 (prod (V c main_v5_0 : S10000x10000.Idx → EReal) (V c main_v6_1 : S10000x128.Idx → EReal))
    (fun t _ => flushed2_2_eq V c t) (fun i => cover2_2_arr i)

end Cert.KernelIdeal.Val
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibSoftmaxRows.lean ====
/-
  The row-wise log-softmax of a matrix depends, in each row, on that row only: the row's maximum is a fold over the
  row's entries and the normaliser a sum over them. So an entry of the log-softmax of a BLOCK of rows is the entry of
  the log-softmax of the whole matrix in the row the block's row comes from. General in the extents.
-/
import proofs.«118616_g893353198325_cont_sun_c4_277_2_alg».proof.Proof.Spec

noncomputable section

open scoped BigOperators

namespace Cert.Spec

open Idealize.ShloMosaic Idealize.ShloMosaic.ValueIdx

/-- The maximum of row `p` of `L'` is the maximum of row `r` of `L` when the two rows agree entry by entry. -/
theorem rowMax_rows {n n' g : Nat} (L : Mat n g) (L' : Mat n' g) (p : Fin n') (r : Fin n)
    (h : ∀ j : Fin g, L' (ix2 p j) = L (ix2 r j)) : rowMax L' p = rowMax L r :=
  congrArg (fun f : Fin g → EReal => (Finset.univ : Finset (Fin g)).fold max negInf f) (funext h)

/-- Entry `(p, q)` of the log-softmax of `L'` is entry `(r, q)` of the log-softmax of `L` when row `p` of `L'` is
    row `r` of `L`: the shift, the exponentials' sum and the entry itself read that row only. -/
theorem logSoftmax_rows {n n' g : Nat} (L : Mat n g) (L' : Mat n' g) (p : Fin n') (r : Fin n)
    (h : ∀ j : Fin g, L' (ix2 p j) = L (ix2 r j)) (q : Fin g) : logSoftmax L' (ix2 p q) = logSoftmax L (ix2 r q) := by
  show (L' (ix2 p q) - rowMax L' p) - Ideal.log (∑ j : Fin g, Ideal.exp (L' (ix2 p j) - rowMax L' p))
      = (L (ix2 r q) - rowMax L r) - Ideal.log (∑ j : Fin g, Ideal.exp (L (ix2 r j) - rowMax L r))
  rw [rowMax_rows L L' p r h, h q]
  exact congrArg (fun s => (L (ix2 r q) - rowMax L r) - Ideal.log s)
    (Finset.sum_congr rfl fun j _ => by rw [h j])

end Cert.Spec

end
-- ==== Proof.ValKI3.lean ====
/- The value of region 3 over the extended reals: after its 25 grid points the output array holds the row-wise
   log-softmax of the second layer's logits, as one function of the arrays the region finds.  At an entry the body's
   logits are the three products against the planes of the weight stack, added left to right, plus the bias row (the
   second Chebyshev term formed from the product of the operator block with the whole first-order term); the row
   maximum is folded from the word of minus infinity; the stored value is the shifted logits minus the logarithm of the
   row sum of their exponentials.  A block of rows of the logits is the rows of the whole-array logits, the log-softmax
   acts row by row, and the 25 row blocks tile the array. -/
import proofs.«118616_g893353198325_cont_sun_c4_277_2_alg».proof.Proof.FrKI3
import proofs.«118616_g893353198325_cont_sun_c4_277_2_alg».proof.Proof.Spec
import proofs.«118616_g893353198325_cont_sun_c4_277_2_alg».proof.Proof.LibMatProd
import proofs.«118616_g893353198325_cont_sun_c4_277_2_alg».proof.Proof.LibKeepdims
import proofs.«118616_g893353198325_cont_sun_c4_277_2_alg».proof.Proof.LibSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Fr Idealize.ShloMosaic Idealize.ShloMosaic.TcCoe Idealize.SL.Sem
open Idealize.ShloMosaic.Pipeline (Dat)
open Idealize.ShloMosaic.ValueIdx Cert.MatProd Cert.Spec Cert.Keepdims

theorem zeros3 : (![0, 0] : Fin 2 → Nat) = fun _ => 0 := funext fun a => by fin_cases a <;> rfl

/-! ## The body's logits at an entry -/

/-- Slab `k` of the weight block, read through its rectangle and cast to a matrix, is plane `k` of the stack. -/
theorem slab3_0_apply (x5 : Vec Ideal S3x128x64 .bf16) (h : S1x128x64.ShapeCasts S128x64) (k : Fin 128) (q : Fin 64) :
    shapeCast S128x64 (View.ld x5 r3_3) h (ix2 k q) = plane x5 0 (ix2 k q) := by
  refine (shapeCast_1ab_ab_apply (View.ld x5 r3_3) h k q).trans ?_
  show x5 (r3_3.emb (ix3 (0 : Fin 1) k q)) = x5 (ix3 0 k q)
  congr 1
  funext a; apply Fin.ext
  match a with
  | ⟨0, _⟩ => rfl
  | ⟨1, _⟩ => show 0 + 1 * k.val = k.val; omega
  | ⟨2, _⟩ => show 0 + 1 * q.val = q.val; omega

theorem slab3_1_apply (x5 : Vec Ideal S3x128x64 .bf16) (h : S1x128x64.ShapeCasts S128x64) (k : Fin 128) (q : Fin 64) :
    shapeCast S128x64 (View.ld x5 r3_4) h (ix2 k q) = plane x5 1 (ix2 k q) := by
  refine (shapeCast_1ab_ab_apply (View.ld x5 r3_4) h k q).trans ?_
  show x5 (r3_4.emb (ix3 (0 : Fin 1) k q)) = x5 (ix3 1 k q)
  congr 1
  funext a; apply Fin.ext
  match a with
  | ⟨0, _⟩ => rfl
  | ⟨1, _⟩ => show 0 + 1 * k.val = k.val; omega
  | ⟨2, _⟩ => show 0 + 1 * q.val = q.val; omega

theorem slab3_2_apply (x5 : Vec Ideal S3x128x64 .bf16) (h : S1x128x64.ShapeCasts S128x64) (k : Fin 128) (q : Fin 64) :
    shapeCast S128x64 (View.ld x5 r3_5) h (ix2 k q) = plane x5 2 (ix2 k q) := by
  refine (shapeCast_1ab_ab_apply (View.ld x5 r3_5) h k q).trans ?_
  show x5 (r3_5.emb (ix3 (0 : Fin 1) k q)) = x5 (ix3 2 k q)
  congr 1
  funext a; apply Fin.ext
  match a with
  | ⟨0, _⟩ => rfl
  | ⟨1, _⟩ => show 0 + 1 * k.val = k.val; omega
  | ⟨2, _⟩ => show 0 + 1 * q.val = q.val; omega

/-- A product of a row block with a cast slab, into a zero accumulator, at an entry: the plain sum against the plane. -/
theorem blockTimesSlab3 (l : FVec Ideal S400x128 .bf16) (w : FVec Ideal S128x64 .bf16) (L : Mat 400 128) (P : Mat 128 64)
    (p : Fin 400) (q : Fin 64)
    (hl : ∀ k : Fin 128, l (ix2 p k) = L (ix2 p k)) (hw : ∀ k : Fin 128, w (ix2 k q) = P (ix2 k q)) :
    matmul dot_S400x128_S128x64_S400x64_1_0_0_1_n_n none l w (constant S400x64 .f32 0x00000000#32) (ix2 p q)
      = prod L P (ix2 p q) :=
  (matmul_plain_zero_apply (M := 400) (K := 128) (N := 64) none l w p q).trans
    (Finset.sum_congr rfl fun k _ => by rw [hl k, hw k])

/-- The operator block times the whole first-order term, into a zero accumulator: the plain product. -/
theorem abfTimesTh3 (x0 : Vec Ideal S400x10000 .bf16) (x1 : Vec Ideal S10000x128 .bf16)
    (h0 : S400x10000.ShapeCasts S400x10000) (h1 : S10000x128.ShapeCasts S10000x128) (p : Fin 400) (k : Fin 128) :
    matmul (F := Ideal) dot_S400x10000_S10000x128_S400x128_1_0_0_1_n_n none (shapeCast S400x10000 x0 h0 : FVec Ideal S400x10000 .bf16)
        (shapeCast S10000x128 x1 h1 : FVec Ideal S10000x128 .bf16) (constant S400x128 .f32 0x00000000#32) (ix2 p k)
      = prod x0 x1 (ix2 p k) := by
  rw [shapeCast_self, shapeCast_self]
  exact matmul_plain_zero_apply (M := 400) (K := 10000) (N := 128) none x0 x1 p k

/-- THE LOGITS AT AN ENTRY: the three products against the planes of the weight block, added left to right, plus the
    bias row. -/
theorem logits3_apply (x0 : Vec Ideal S400x10000 .bf16) (x1 : Vec Ideal S10000x128 .bf16) (x2 : Vec Ideal S400x128 .bf16)
    (x3 : Vec Ideal S400x128 .f32) (x4 : Vec Ideal S400x128 .bf16) (x5 : Vec Ideal S3x128x64 .bf16) (x6 : Vec Ideal S1x64 .f32)
    (p : Fin 400) (q : Fin 64) :
    k3_pay2 (F := Ideal) (View.ld x0 r3_0) (View.ld x1 r3_1) (View.ld x3 r3_2) (View.ld x4 r3_2) (View.ld x5 r3_3) (View.ld x2 r3_2)
        (View.ld x5 r3_4) (View.ld x5 r3_5) (View.ld x6 r3_6) (ix2 p q)
      = mix x4 x2 (prod x0 x1) x3 x5 x6 (ix2 p q) := by
  simp only [View.ld_unit_zero (S := S400x10000) zeros3, View.ld_unit_zero (S := S10000x128) zeros3,
    View.ld_unit_zero (S := S400x128) zeros3, View.ld_unit_zero (S := S1x64) zeros3]
  unfold k3_pay2
  show _ + _ + _ + _ = _ + _ + _ + _
  refine congrArg₂ (· + ·) (congrArg₂ (· + ·) (congrArg₂ (· + ·) ?_ ?_) ?_) ?_
  · exact blockTimesSlab3 _ _ x4 (plane x5 0) p q (fun k => congrFun (shapeCast_self x4 _) _) (fun k => slab3_0_apply x5 _ k q)
  · exact blockTimesSlab3 _ _ x2 (plane x5 1) p q (fun k => congrFun (shapeCast_self x2 _) _) (fun k => slab3_1_apply x5 _ k q)
  · refine blockTimesSlab3 _ _ (fun j => two * prod x0 x1 j - x3 j) (plane x5 2) p q (fun k => ?_) (fun k => slab3_2_apply x5 _ k q)
    show two * _ - _ = two * prod x0 x1 (ix2 p k) - x3 (ix2 p k)
    refine congrArg₂ (· - ·) (congrArg (two * ·) (abfTimesTh3 x0 x1 _ _ p k)) (congrFun (shapeCast_self x3 _) _)
  · exact (broadcastTo_1b_ab_apply _ _ p q).trans (congrFun (shapeCast_self x6 _) _)

/-! ## The row statistics -/

/-- The reduced index with coordinate `j` put back on the column axis is `(p, j)`. -/
theorem lift3 (h : S400x64.Reduces [1] S400) (p : Fin 400) (j : Fin 64) : h.lift (ix1 p) j = ix2 p j :=
  funext fun a => Fin.ext (by match a with | ⟨0, _⟩ => rfl | ⟨1, _⟩ => rfl)

/-- The lane maximum from the word of minus infinity, at row `p`: the row maximum. -/
theorem rowmax3_apply (L : FVec Ideal S400x64 .f32) (h : S400x64.Reduces [1] S400) (p : Fin 400) :
    multiReduction (F := Ideal) .maximumf [1] S400 L 0xFF800000#32 h (.inl rfl) rfl (ix1 p) = rowMax L p := by
  refine (Ideal.multiReduction_maximumf_single L 0xFF800000#32 h (.inl rfl) rfl (ix1 p)).trans ?_
  show (Finset.univ : Finset (Fin 64)).fold max (Ideal.ofBits .f32 0xFF800000#32) (fun j => L (h.lift (ix1 p) j))
      = (Finset.univ : Finset (Fin 64)).fold max negInf (fun j => L (ix2 p j))
  exact congrArg (fun f : Fin 64 → EReal => (Finset.univ : Finset (Fin 64)).fold max negInf f)
    (funext fun j => congrArg L (lift3 h p j))

/-- THE STORED VALUE AT AN ENTRY, from the logits and the column of row maxima: the shifted logit minus the logarithm of
    the row sum of the exponentials of the shifted logits. -/
theorem tail3_apply (L : FVec Ideal S400x64 .f32) (m : FVec Ideal S400x1 .f32) (p : Fin 400) (q : Fin 64) :
    k3_pay1 (F := Ideal) L m (ix2 p q)
      = (L (ix2 p q) - m (ix2 p 0)) - Ideal.log (∑ j : Fin 64, Ideal.exp (L (ix2 p j) - m (ix2 p 0))) := by
  unfold k3_pay1
  show (_ - _) - _ = (_ - _) - _
  refine congrArg₂ (· - ·) (congrArg₂ (· - ·) rfl ?_) ?_
  · exact broadcastTo_a1_ab_apply m _ p q
  · refine (broadcastTo_a1_ab_apply _ _ p q).trans ?_
    show Ideal.log _ = Ideal.log _
    refine congrArg Ideal.log ?_
    refine (shapeCast_a_a1_apply _ _ p 0).trans ?_
    refine (Ideal.multiReduction_add_single _ 0x00000000#32 _ (.inl rfl) rfl (ix1 p)).trans ?_
    show ∑ j : Fin 64, Ideal.exp (_ - _) = ∑ j : Fin 64, Ideal.exp (L (ix2 p j) - m (ix2 p 0))
    refine Finset.sum_congr rfl fun j _ => ?_
    refine congrArg Ideal.exp ?_
    rw [lift3 _ p j]
    exact congrArg (L (ix2 p j) - ·) (broadcastTo_a1_ab_apply m _ p j)

/-- WHAT THE BODY LEAVES IN THE OUTPUT WINDOW'S BUFFER, at an entry: the log-softmax of the block's logits. -/
theorem out3_7_apply (x0 : Vec Ideal S400x10000 .bf16) (x1 : Vec Ideal S10000x128 .bf16) (x2 : Vec Ideal S400x128 .bf16)
    (x3 : Vec Ideal S400x128 .f32) (x4 : Vec Ideal S400x128 .bf16) (x5 : Vec Ideal S3x128x64 .bf16) (x6 : Vec Ideal S1x64 .f32)
    (p : Fin 400) (q : Fin 64) :
    out3_7 (F := Ideal) x0 x1 x2 x3 x4 x5 x6 (ix2 p q) = logSoftmax (mix x4 x2 (prod x0 x1) x3 x5 x6) (ix2 p q) := by
  unfold out3_7
  rw [View.canon_unit_zero zeros3]
  refine (tail3_apply _ _ p q).trans ?_
  have hL : ∀ j : Fin 64, k3_pay2 (F := Ideal) (View.ld x0 r3_0) (View.ld x1 r3_1) (View.ld x3 r3_2) (View.ld x4 r3_2) (View.ld x5 r3_3) (View.ld x2 r3_2)
        (View.ld x5 r3_4) (View.ld x5 r3_5) (View.ld x6 r3_6) (ix2 p j) = mix x4 x2 (prod x0 x1) x3 x5 x6 (ix2 p j) :=
    fun j => logits3_apply x0 x1 x2 x3 x4 x5 x6 p j
  have hm : k3_pay3 (F := Ideal) (View.ld x0 r3_0) (View.ld x1 r3_1) (View.ld x3 r3_2) (View.ld x4 r3_2) (View.ld x5 r3_3) (View.ld x2 r3_2)
        (View.ld x5 r3_4) (View.ld x5 r3_5) (View.ld x6 r3_6) (ix2 p 0) = rowMax (mix x4 x2 (prod x0 x1) x3 x5 x6) p := by
    unfold k3_pay3
    refine (shapeCast_a_a1_apply _ _ p 0).trans ?_
    refine (rowmax3_apply _ _ p).trans ?_
    exact rowMax_rows _ _ p p hL
  rw [hm]
  simp only [hL]
  rfl

/-! ## A block of rows of the logits is the rows of the whole-array logits -/

/-- Entry `(p, q)` of the mix of row BLOCKS is entry `(r, q)` of the mix of the whole arrays, when row `p` of each row
    block is row `r` of its array and the whole operands are read as they are. -/
theorem mix_rows3 {n n' m f g : Nat} (A : Mat n m) (T : Mat m f) (X0 T1 X : Mat n f) (W : Stack f g) (b : Mat 1 g)
    (A' : Mat n' m) (T' : Mat m f) (X0' T1' X' : Mat n' f) (W' : Stack f g) (b' : Mat 1 g)
    (p : Fin n') (r : Fin n) (q : Fin g)
    (hA : ∀ k, A' (ix2 p k) = A (ix2 r k)) (hT : ∀ l k, T' (ix2 l k) = T (ix2 l k))
    (h0 : ∀ k, X0' (ix2 p k) = X0 (ix2 r k)) (h1 : ∀ k, T1' (ix2 p k) = T1 (ix2 r k)) (hX : ∀ k, X' (ix2 p k) = X (ix2 r k))
    (hW : ∀ (s : Fin 3) k j, W' (ix3 s k j) = W (ix3 s k j)) (hb : ∀ j, b' (ix2 0 j) = b (ix2 0 j)) :
    mix X0' T1' (prod A' T') X' W' b' (ix2 p q) = mix X0 T1 (prod A T) X W b (ix2 r q) := by
  show prod X0' (plane W' 0) (ix2 p q) + prod T1' (plane W' 1) (ix2 p q)
        + prod (fun j => two * prod A' T' j - X' j) (plane W' 2) (ix2 p q) + b' (ix2 0 q)
      = prod X0 (plane W 0) (ix2 r q) + prod T1 (plane W 1) (ix2 r q)
        + prod (fun j => two * prod A T j - X j) (plane W 2) (ix2 r q) + b (ix2 0 q)
  rw [prod_block_eq X0 (plane W 0) X0' (plane W' 0) p q (ix2 r q) h0 (fun k => hW 0 k q),
    prod_block_eq T1 (plane W 1) T1' (plane W' 1) p q (ix2 r q) h1 (fun k => hW 1 k q),
    prod_block_eq (fun j => two * prod A T j - X j) (plane W 2) (fun j => two * prod A' T' j - X' j) (plane W' 2) p q (ix2 r q)
      (fun k => by
        show two * prod A' T' (ix2 p k) - X' (ix2 p k) = two * prod A T (ix2 r k) - X (ix2 r k)
        rw [prod_block_eq A T A' T' p k (ix2 r k) hA (fun l => hT l k), hX k])
      (fun k => hW 2 k q),
    hb q]

/-! ## The windows' blocks, read off the arrays the region finds -/

-- the TensorCore's buffer contents when the region is entered, over the extended reals
variable (V : (c : Dev nD) → (b : Ref sig .tc) → Buf (Elt Ideal) ((c : Thread nD τ).loc b))

/-- The printed index maps, decided over the grid: a row-block window's block index is the point on the row axis and
    zero on the other; a whole-array window's is zero. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 3) = 0 ∧ win3_5.index t (1 : Fin 3) = 0 ∧ win3_5.index t (2 : Fin 3) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The operator window's block at point `t` is rows `400 t … 400 t + 399` of the operator. -/
theorem iblk3_0_apply (c : Dev nD) (t : Fin cfg3.N) (p : Fin 400) (k : Fin 10000) (r : Fin 10000) (hr : r.val = 400 * t.val + p.val) :
    (iblk3 V c 0 t : Vec Ideal S400x10000 .bf16) (ix2 p k) = (V c main_v5_0 : Mat 10000 10000) (ix2 r k) := by
  have e := idx_facts3 t
  unfold iblk3
  rw [View.read_apply]
  show V c main_v5_0 _ = V c main_v5_0 _
  congr 1
  funext a; apply Fin.ext
  match a with
  | ⟨0, _⟩ => show win3_0.index t (0 : Fin 2) * 400 + 1 * p.val = r.val; rw [hr]; omega
  | ⟨1, _⟩ => show win3_0.index t (1 : Fin 2) * 10000 + 1 * k.val = k.val; omega

/-- The first-order term's whole-array window holds the array at every point. -/
theorem iblk3_1_apply (c : Dev nD) (t : Fin cfg3.N) (l : Fin 10000) (k : Fin 128) :
    (iblk3 V c 1 t : Vec Ideal S10000x128 .bf16) (ix2 l k) = (V c main_v7 : Mat 10000 128) (ix2 l k) := by
  have e := idx_facts3 t
  unfold iblk3
  rw [View.read_apply]
  show V c main_v7 _ = V c main_v7 _
  congr 1
  funext a; apply Fin.ext
  match a with
  | ⟨0, _⟩ => show win3_1.index t (0 : Fin 2) * 10000 + 1 * l.val = l.val; omega
  | ⟨1, _⟩ => show win3_1.index t (1 : Fin 2) * 128 + 1 * k.val = k.val; omega

/-- The first-order term's row-block window at point `t` is rows `400 t … 400 t + 399` of it. -/
theorem iblk3_2_apply (c : Dev nD) (t : Fin cfg3.N) (p : Fin 400) (k : Fin 128) (r : Fin 10000) (hr : r.val = 400 * t.val + p.val) :
    (iblk3 V c 2 t : Vec Ideal S400x128 .bf16) (ix2 p k) = (V c main_v7 : Mat 10000 128) (ix2 r k) := by
  have e := idx_facts3 t
  unfold iblk3
  rw [View.read_apply]
  show V c main_v7 _ = V c main_v7 _
  congr 1
  funext a; apply Fin.ext
  match a with
  | ⟨0, _⟩ => show win3_2.index t (0 : Fin 2) * 400 + 1 * p.val = r.val; rw [hr]; omega
  | ⟨1, _⟩ => show win3_2.index t (1 : Fin 2) * 128 + 1 * k.val = k.val; omega

/-- The hidden features' row-block window. -/
theorem iblk3_3_apply (c : Dev nD) (t : Fin cfg3.N) (p : Fin 400) (k : Fin 128) (r : Fin 10000) (hr : r.val = 400 * t.val + p.val) :
    (iblk3 V c 3 t : Vec Ideal S400x128 .f32) (ix2 p k) = (V c main_v6_0 : Mat 10000 128) (ix2 r k) := by
  have e := idx_facts3 t
  unfold iblk3
  rw [View.read_apply]
  show V c main_v6_0 _ = V c main_v6_0 _
  congr 1
  funext a; apply Fin.ext
  match a with
  | ⟨0, _⟩ => show win3_3.index t (0 : Fin 2) * 400 + 1 * p.val = r.val; rw [hr]; omega
  | ⟨1, _⟩ => show win3_3.index t (1 : Fin 2) * 128 + 1 * k.val = k.val; omega

/-- The rounded hidden features' row-block window. -/
theorem iblk3_4_apply (c : Dev nD) (t : Fin cfg3.N) (p : Fin 400) (k : Fin 128) (r : Fin 10000) (hr : r.val = 400 * t.val + p.val) :
    (iblk3 V c 4 t : Vec Ideal S400x128 .bf16) (ix2 p k) = (V c main_v6_1 : Mat 10000 128) (ix2 r k) := by
  have e := idx_facts3 t
  unfold iblk3
  rw [View.read_apply]
  show V c main_v6_1 _ = V c main_v6_1 _
  congr 1
  funext a; apply Fin.ext
  match a with
  | ⟨0, _⟩ => show win3_4.index t (0 : Fin 2) * 400 + 1 * p.val = r.val; rw [hr]; omega
  | ⟨1, _⟩ => show win3_4.index t (1 : Fin 2) * 128 + 1 * k.val = k.val; omega

/-- The weight stack's window holds the whole stack at every point. -/
theorem iblk3_5_apply (c : Dev nD) (t : Fin cfg3.N) (s : Fin 3) (k : Fin 128) (j : Fin 64) :
    (iblk3 V c 5 t : Vec Ideal S3x128x64 .bf16) (ix3 s k j) = (V c main_v2 : Stack 128 64) (ix3 s k j) := by
  have e := idx_facts3 t
  unfold iblk3
  rw [View.read_apply]
  show V c main_v2 _ = V c main_v2 _
  congr 1
  funext a; apply Fin.ext
  match a with
  | ⟨0, _⟩ => show win3_5.index t (0 : Fin 3) * 3 + 1 * s.val = s.val; omega
  | ⟨1, _⟩ => show win3_5.index t (1 : Fin 3) * 128 + 1 * k.val = k.val; omega
  | ⟨2, _⟩ => show win3_5.index t (2 : Fin 3) * 64 + 1 * j.val = j.val; omega

/-- The bias row's window holds the whole row at every point. -/
theorem iblk3_6_apply (c : Dev nD) (t : Fin cfg3.N) (j : Fin 64) :
    (iblk3 V c 6 t : Vec Ideal S1x64 .f32) (ix2 0 j) = (V c main_v4 : Mat 1 64) (ix2 0 j) := by
  have e := idx_facts3 t
  unfold iblk3
  rw [View.read_apply]
  show V c main_v4 _ = V c main_v4 _
  congr 1
  funext a; apply Fin.ext
  match a with
  | ⟨0, _⟩ => show win3_6.index t (0 : Fin 2) * 1 + 1 * 0 = 0; omega
  | ⟨1, _⟩ => show win3_6.index t (1 : Fin 2) * 64 + 1 * j.val = j.val; omega

/-! ## The output, as one function of the arrays the region finds -/

/-- The second layer's logits: the mix of the rounded hidden features, the first-order term and the operator applied to
    it, against the weight stack and the bias row. -/
abbrev logits3 (c : Dev nD) : Mat 10000 64 :=
  mix (V c main_v6_1) (V c main_v7) (prod (V c main_v5_0) (V c main_v7)) (V c main_v6_0) (V c main_v2) (V c main_v4)

/-- The payload of point `t` at `(p, q)` is the log-softmax of the logits at row `400 t + p`, column `q`. -/
theorem out3_7_rows (c : Dev nD) (t : Fin cfg3.N) (p : Fin 400) (q : Fin 64) (r : Fin 10000) (hr : r.val = 400 * t.val + p.val) :
    out3_7 (F := Ideal) (iblk3 V c 0 t) (iblk3 V c 1 t) (iblk3 V c 2 t) (iblk3 V c 3 t) (iblk3 V c 4 t) (iblk3 V c 5 t) (iblk3 V c 6 t) (ix2 p q)
      = logSoftmax (logits3 V c) (ix2 r q) := by
  refine (out3_7_apply _ _ _ _ _ _ _ p q).trans ?_
  refine logSoftmax_rows (logits3 V c) _ p r (fun j => ?_) q
  exact mix_rows3 (V c main_v5_0) (V c main_v7) (V c main_v6_1) (V c main_v7) (V c main_v6_0) (V c main_v2) (V c main_v4)
    _ _ _ _ _ _ _ p r j
    (fun k => iblk3_0_apply V c t p k r hr) (fun l k => iblk3_1_apply V c t l k)
    (fun k => iblk3_4_apply V c t p k r hr) (fun k => iblk3_2_apply V c t p k r hr) (fun k => iblk3_3_apply V c t p k r hr)
    (fun s k j => iblk3_5_apply V c t s k j) (fun j => iblk3_6_apply V c t j)

/-! ## From blocks to the array -/

/-- What point `t` writes back is block `t` of the log-softmax of the logits. -/
theorem flushed3_7_eq (c : Dev nD) (t : Fin cfg3.N) :
    (dat3 (F := Ideal) V c).flushed 7 t = ((cfg3.win 7).blk t).view.read (Elt Ideal) (logSoftmax (logits3 V c)) := by
  obtain ⟨-, -, -, -, -, -, -, -, -, -, -, -, -, -, -, e0, e1⟩ := idx_facts3 t
  show (cfg3.win 7).cut (grid3.coords t) ((dat3 V c).after 7 t) = _
  rw [after3_7]
  funext j
  obtain ⟨p, q, rfl⟩ : ∃ (p : Fin 400) (q : Fin 64), j = ix2 p q := ⟨j 0, j 1, eq_ix2 j⟩
  have hN : cfg3.N = 25 := N_3
  have ht : t.val < 25 := lt_of_lt_of_eq t.isLt hN
  have hp : p.val < 400 := p.isLt
  show out3_7 (F := Ideal) (iblk3 V c 0 t) (iblk3 V c 1 t) (iblk3 V c 2 t) (iblk3 V c 3 t) (iblk3 V c 4 t) (iblk3 V c 5 t) (iblk3 V c 6 t) (ix2 p q) = _
  refine (out3_7_rows V c t p q ⟨400 * t.val + p.val, by omega⟩ rfl).trans ?_
  show logSoftmax (logits3 V c) _ = logSoftmax (logits3 V c) (((cfg3.win 7).blk t).view.emb (ix2 p q))
  congr 1
  funext a; apply Fin.ext
  match a with
  | ⟨0, _⟩ => show 400 * t.val + p.val = win3_7.index t (0 : Fin 2) * 400 + 1 * p.val; rw [e0]; omega
  | ⟨1, _⟩ => show q.val = win3_7.index t (1 : Fin 2) * 64 + 1 * q.val; rw [e1]; omega

/-- An index of the output array is in point `t`'s block iff each coordinate is in the block's range on its axis. -/
theorem mem_blk3_7 (t : Fin cfg3.N) (i : S10000x64.Idx) :
    i ∈ ((cfg3.win 7).blk t).view.set ↔ ∀ a : Fin 2, win3_7.index t a * S400x64.size a ≤ (i a).val ∧ (i a).val < win3_7.index t a * S400x64.size a + S400x64.size a := by
  show i ∈ ((View.whole main_v8).slice (win3_7.rect t)).set ↔ _
  rw [View.set_slice_whole, Rect.mem_set_unit]
  exact Iff.rfl

/-- Row `r` is in the block of point `r / 400`: the blocks cover the array. -/
theorem cover3_7arr (i : S10000x64.Idx) : ∃ t : Fin cfg3.N, (cfg3.win 7).flush t = true ∧ i ∈ ((cfg3.win 7).blk t).view.set := by
  have hi0 : (i 0).val < 10000 := (i 0).isLt
  have hi1 : (i 1).val < 64 := (i 1).isLt
  obtain ⟨t, ht⟩ : ∃ t : Fin cfg3.N, t.val = (i 0).val / 400 :=
    ⟨⟨(i 0).val / 400, by show _ < grid3.N; rw [N_3]; omega⟩, rfl⟩
  obtain ⟨-, -, -, -, -, -, -, -, -, -, -, -, -, -, -, e0, e1⟩ := idx_facts3 t
  refine ⟨t, flush3_7 t, ?_⟩
  rw [mem_blk3_7]
  intro a
  match a with
  | ⟨0, _⟩ => show win3_7.index t 0 * 400 ≤ (i 0).val ∧ (i 0).val < win3_7.index t 0 * 400 + 400; rw [e0, ht]; omega
  | ⟨1, _⟩ => show win3_7.index t 1 * 64 ≤ (i 1).val ∧ (i 1).val < win3_7.index t 1 * 64 + 64; rw [e1]; omega

/-- THE OUTPUT ARRAY after the region: the row-wise log-softmax of the second layer's logits. -/
theorem final3_7 (c : Dev nD) :
    (dat3 (F := Ideal) V c).arrAt 7 cfg3.N
      = logSoftmax (mix (V c main_v6_1) (V c main_v7) (prod (V c main_v5_0) (V c main_v7)) (V c main_v6_0) (V c main_v2) (V c main_v4)) :=
  (dat3 (F := Ideal) V c).arrAt_eq_of_cover 7 (logSoftmax (logits3 V c)) (fun t _ => flushed3_7_eq V c t) (fun i => cover3_7arr i)

end Cert.KernelIdeal.Val
-- ==== Proof.HostKI.lean ====
/-
  What the kernel program's five host operations before its first call leave in their result buffers, over the
  extended reals. A change of float format is the identity there, so the three rounded copies hold the arguments
  themselves; a vector cast to one row reads, at (0, j), the vector at j.
-/
import proofs.«118616_g893353198325_cont_sun_c4_277_2_alg».proof.Proof.Gen.KernelIdeal.Regions
import proofs.«118616_g893353198325_cont_sun_c4_277_2_alg».proof.Proof.Spec
import Idealize.ShloMosaic.Lib.StableHlo.Run
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.SL.Sem Idealize.ShloMosaic.StableHlo
  Idealize.ShloMosaic.ValueIdx

variable (m : (ℓ : Loc nD τ sig) → Buf (Elt Ideal) ℓ) (c : Dev nD)

/-- The rounded copy of an argument is the argument: a change of float format is the identity over the extended reals. -/
theorem v0_eq : (V1 m c main_v0 : Cert.Spec.Mat 10000 128) = m ((c : Thread nD τ).loc main_arg0) := by
  have e : (V1 m c main_v0 : S10000x128.Idx → EReal)
      = (truncf .bf16 (m ((c : Thread nD τ).loc main_arg0) : FVec Ideal S10000x128 .f32) bitsLt_bf16_f32 : FVec Ideal S10000x128 .bf16) := by
    dsimp only [V1, hostOps0]; after_results
  exact e

/-- The rounded copy of an argument is the argument: a change of float format is the identity over the extended reals. -/
theorem v1_eq : (V1 m c main_v1 : Cert.Spec.Stack 128 128) = m ((c : Thread nD τ).loc main_arg2) := by
  have e : (V1 m c main_v1 : S3x128x128.Idx → EReal)
      = (truncf .bf16 (m ((c : Thread nD τ).loc main_arg2) : FVec Ideal S3x128x128 .f32) bitsLt_bf16_f32 : FVec Ideal S3x128x128 .bf16) := by
    dsimp only [V1, hostOps0]; after_results
  exact e

/-- The rounded copy of an argument is the argument: a change of float format is the identity over the extended reals. -/
theorem v2_eq : (V1 m c main_v2 : Cert.Spec.Stack 128 64) = m ((c : Thread nD τ).loc main_arg4) := by
  have e : (V1 m c main_v2 : S3x128x64.Idx → EReal)
      = (truncf .bf16 (m ((c : Thread nD τ).loc main_arg4) : FVec Ideal S3x128x64 .f32) bitsLt_bf16_f32 : FVec Ideal S3x128x64 .bf16) := by
    dsimp only [V1, hostOps0]; after_results
  exact e

/-- A vector cast to one row reads, at (0, j), the vector at j. -/
theorem v3_eq (j : Fin 128) :
    (V1 m c main_v3 : Cert.Spec.Mat 1 128) (ix2 0 j) = (m ((c : Thread nD τ).loc main_arg3) : Cert.Spec.Row 128) (ix1 j) := by
  have e : (V1 m c main_v3 : S1x128.Idx → EReal)
      = shapeCast S1x128 (m ((c : Thread nD τ).loc main_arg3) : S128.Idx → EReal) shapeCasts_S128_S1x128 := by
    dsimp only [V1, hostOps0]; after_results; rfl
  exact (congrFun e (ix2 0 j)).trans (shapeCast_a_1a_apply _ shapeCasts_S128_S1x128 0 j)

/-- A vector cast to one row reads, at (0, j), the vector at j. -/
theorem v4_eq (j : Fin 64) :
    (V1 m c main_v4 : Cert.Spec.Mat 1 64) (ix2 0 j) = (m ((c : Thread nD τ).loc main_arg5) : Cert.Spec.Row 64) (ix1 j) := by
  have e : (V1 m c main_v4 : S1x64.Idx → EReal)
      = shapeCast S1x64 (m ((c : Thread nD τ).loc main_arg5) : S64.Idx → EReal) shapeCasts_S64_S1x64 := by
    dsimp only [V1, hostOps0]; after_results; rfl
  exact (congrFun e (ix2 0 j)).trans (shapeCast_a_1a_apply _ shapeCasts_S64_S1x64 0 j)

end Cert.KernelIdeal.Val

end
-- ==== Proof.BridgeKI.lean ====
/-
  The kernel's result is the network of its arguments.

  Call 0 leaves A (the operator, cast to bf16: the identity on extended reals) and T₁ = A·X. Call 1 reads them with X
  and the first layer's weights and leaves H = max(X·W₀ + T₁·W₁ + (2·A·T₁ − X)·W₂ + b, 0) twice (in f32 and bf16: one
  function). Call 2 leaves A·H. Call 3 reads A, A·H, H and the second layer's weights and leaves the row-wise
  log-softmax of H·W₀ + (A·H)·W₁ + (2·A·(A·H) − H)·W₂ + b. Substituting each call's inputs by what the calls before it
  left gives the two-layer network of the specification. No step needs the inputs to be finite: only the same sums,
  products and maxima are taken on both sides.
-/
import proofs.«118616_g893353198325_cont_sun_c4_277_2_alg».proof.Proof.RunKI
import proofs.«118616_g893353198325_cont_sun_c4_277_2_alg».proof.Proof.ValKI0
import proofs.«118616_g893353198325_cont_sun_c4_277_2_alg».proof.Proof.ValKI1
import proofs.«118616_g893353198325_cont_sun_c4_277_2_alg».proof.Proof.ValKI2
import proofs.«118616_g893353198325_cont_sun_c4_277_2_alg».proof.Proof.ValKI3
import proofs.«118616_g893353198325_cont_sun_c4_277_2_alg».proof.Proof.HostKI
import proofs.«118616_g893353198325_cont_sun_c4_277_2_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Cert.Spec Cert.MatProd

variable (m : (ℓ : Loc nD τ sig) → Buf (Elt Ideal) ℓ) (c : Dev nD)

/-- The program's arguments as the specification's arrays. -/
abbrev aX : Mat 10000 128 := m ((c : Thread nD τ).loc main_arg0)
abbrev aA : Mat 10000 10000 := m ((c : Thread nD τ).loc main_arg1)
abbrev aW1 : Stack 128 128 := m ((c : Thread nD τ).loc main_arg2)
abbrev ab1 : Row 128 := m ((c : Thread nD τ).loc main_arg3)
abbrev aW2 : Stack 128 64 := m ((c : Thread nD τ).loc main_arg4)
abbrev ab2 : Row 64 := m ((c : Thread nD τ).loc main_arg5)

/-- The hidden features of the specification at the arguments. -/
abbrev aH : Mat 10000 128 := hidden (aA m c) (aX m c) (aW1 m c) (ab1 m c)

/-! ## What call 0 finds and leaves -/

theorem u1_arg1 : (U1 m c main_arg1 : Mat 10000 10000) = aA m c := V1_of m c main_arg1 (by decide)
theorem u1_v0 : (U1 m c main_v0 : Mat 10000 128) = aX m c := v0_eq m c

theorem u2_v5_1 : (U2 m c main_v5_1 : Mat 10000 128) = prod (aA m c) (aX m c) :=
  (W2_v5_1 m c).trans ((final0_3 (U1 m) c).trans (congrArg₂ (prod (M := 10000) (K := 10000) (N := 128)) (u1_arg1 m c) (u1_v0 m c)))
theorem u2_v5_0 : (U2 m c main_v5_0 : Mat 10000 10000) = aA m c :=
  funext fun i => (congrFun (W2_v5_0 m c) i).trans ((final0_2 (U1 m) c i).trans (congrFun (u1_arg1 m c) i))

/-! ## What call 1 finds and leaves -/

theorem u2_v0 : (U2 m c main_v0 : Mat 10000 128) = aX m c := (W2_of m c main_v0 (by decide)).trans (v0_eq m c)
theorem u2_arg0 : (U2 m c main_arg0 : Mat 10000 128) = aX m c := (W2_of m c main_arg0 (by decide)).trans (V1_of m c main_arg0 (by decide))
theorem u2_v1 : (U2 m c main_v1 : Stack 128 128) = aW1 m c := (W2_of m c main_v1 (by decide)).trans (v1_eq m c)
theorem u2_v3 (j : Fin 128) : (U2 m c main_v3 : Mat 1 128) (ix2 0 j) = ab1 m c (ix1 j) :=
  (congrFun (W2_of m c main_v3 (by decide)) _).trans (v3_eq m c j)

/-- Call 1's output is the specification's hidden features. -/
theorem h1_eq : H1 (U2 m) c = aH m c := by
  unfold H1
  rw [u2_v0, u2_v5_1, u2_v5_0, u2_arg0, u2_v1]
  funext i
  exact congrArg (fun z => max z zero)
    (congrFun (conv_eq_mix (aA m c) (aX m c) (aW1 m c) (ab1 m c) (U2 m c main_v3) (u2_v3 m c)).symm i)

theorem u3_v6_0 : (U3 m c main_v6_0 : Mat 10000 128) = aH m c := (W3_v6_0 m c).trans ((final1_7 (U2 m) c).trans (h1_eq m c))
theorem u3_v6_1 : (U3 m c main_v6_1 : Mat 10000 128) = aH m c := (W3_v6_1 m c).trans ((final1_8 (U2 m) c).trans (h1_eq m c))
theorem u3_v5_0 : (U3 m c main_v5_0 : Mat 10000 10000) = aA m c := (W3_of m c main_v5_0 (by decide)).trans (u2_v5_0 m c)

/-! ## What call 2 finds and leaves -/

theorem u4_v7 : (U4 m c main_v7 : Mat 10000 128) = prod (aA m c) (aH m c) :=
  (W4_v7 m c).trans ((final2_2 (U3 m) c).trans (congrArg₂ (prod (M := 10000) (K := 10000) (N := 128)) (u3_v5_0 m c) (u3_v6_1 m c)))

/-! ## What call 3 finds and leaves -/

theorem u4_v5_0 : (U4 m c main_v5_0 : Mat 10000 10000) = aA m c := (W4_of m c main_v5_0 (by decide)).trans (u3_v5_0 m c)
theorem u4_v6_0 : (U4 m c main_v6_0 : Mat 10000 128) = aH m c := (W4_of m c main_v6_0 (by decide)).trans (u3_v6_0 m c)
theorem u4_v6_1 : (U4 m c main_v6_1 : Mat 10000 128) = aH m c := (W4_of m c main_v6_1 (by decide)).trans (u3_v6_1 m c)
theorem u4_v2 : (U4 m c main_v2 : Stack 128 64) = aW2 m c :=
  (W4_of m c main_v2 (by decide)).trans ((W3_of m c main_v2 (by decide)).trans ((W2_of m c main_v2 (by decide)).trans (v2_eq m c)))
theorem u4_v4 (j : Fin 64) : (U4 m c main_v4 : Mat 1 64) (ix2 0 j) = ab2 m c (ix1 j) :=
  (congrFun ((W4_of m c main_v4 (by decide)).trans ((W3_of m c main_v4 (by decide)).trans (W2_of m c main_v4 (by decide)))) _).trans (v4_eq m c j)

/-- THE RESULT: the array the last call's write-backs leave is the network of the arguments. -/
theorem result_net : ((dat3 (F := Ideal) (U4 m) c).arrAt 7 cfg3.N : Mat 10000 64)
    = net (aX m c) (aA m c) (aW1 m c) (ab1 m c) (aW2 m c) (ab2 m c) := by
  rw [final3_7 (U4 m) c, u4_v6_1, u4_v7, u4_v5_0, u4_v6_0, u4_v2]
  exact congrArg logSoftmax (conv_eq_mix (aA m c) (aH m c) (aW2 m c) (ab2 m c) (U4 m c main_v4) (u4_v4 m c)).symm

end Cert.KernelIdeal.Val

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.RefValue.lean ====
/-
  The reference program computes the network of Cert.Spec.

  Its operations are read one at a time, from the inputs outward. A slice of a weight stack with its unit axis
  removed is one matrix of the stack; every product is the plain sum over the contracted axis; the sums, the
  Chebyshev term 2·A·(A·X) − X, the bias row added to every row and the clamp at zero make the hidden features; the
  same operations on the hidden features make the logits L. The row maximum is the fold of max from −∞ over the row;
  taking the maximum with −∞ once more changes nothing, because the fold starts at −∞. The result is
  (L − m) − log Σⱼ exp (Lⱼ − m), the float sum starting from the zero word.
-/
import proofs.«118616_g893353198325_cont_sun_c4_277_2_alg».proof.Proof.RefRead
import proofs.«118616_g893353198325_cont_sun_c4_277_2_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.MatProd

/-! ## The matrices of the two weight stacks -/

theorem w1_plane0 (W : (⟨S3x128x128, .f32⟩ : BufTy).Contents (Elt Ideal)) : val_main_v1 (F := Ideal) W = Spec.plane W 0 := by
  funext i
  obtain ⟨r, j, rfl⟩ : ∃ (r : Fin 128) (j : Fin 128), i = ix2 r j := ⟨i 0, i 1, eq_ix2 i⟩
  rw [val_main_v1_apply, val_main_v0_apply]
  show W _ = W (ix3 0 r j)
  refine congrArg W (funext fun a => Fin.ext ?_)
  have hr := r.isLt
  have hj := j.isLt
  match a with
  | ⟨0, _⟩ => rfl
  | ⟨1, _⟩ => show (r.val * 128 + j.val) / 128 % 128 = r.val; omega
  | ⟨2, _⟩ => show (r.val * 128 + j.val) % 128 = j.val; omega

theorem w1_plane1 (W : (⟨S3x128x128, .f32⟩ : BufTy).Contents (Elt Ideal)) : val_main_v5 (F := Ideal) W = Spec.plane W 1 := by
  funext i
  obtain ⟨r, j, rfl⟩ : ∃ (r : Fin 128) (j : Fin 128), i = ix2 r j := ⟨i 0, i 1, eq_ix2 i⟩
  rw [val_main_v5_apply, val_main_v4_apply]
  show W _ = W (ix3 1 r j)
  refine congrArg W (funext fun a => Fin.ext ?_)
  have hr := r.isLt
  have hj := j.isLt
  match a with
  | ⟨0, _⟩ => rfl
  | ⟨1, _⟩ => show (r.val * 128 + j.val) / 128 % 128 = r.val; omega
  | ⟨2, _⟩ => show (r.val * 128 + j.val) % 128 = j.val; omega

theorem w1_plane2 (W : (⟨S3x128x128, .f32⟩ : BufTy).Contents (Elt Ideal)) : val_main_v13 (F := Ideal) W = Spec.plane W 2 := by
  funext i
  obtain ⟨r, j, rfl⟩ : ∃ (r : Fin 128) (j : Fin 128), i = ix2 r j := ⟨i 0, i 1, eq_ix2 i⟩
  rw [val_main_v13_apply, val_main_v12_apply]
  show W _ = W (ix3 2 r j)
  refine congrArg W (funext fun a => Fin.ext ?_)
  have hr := r.isLt
  have hj := j.isLt
  match a with
  | ⟨0, _⟩ => rfl
  | ⟨1, _⟩ => show (r.val * 128 + j.val) / 128 % 128 = r.val; omega
  | ⟨2, _⟩ => show (r.val * 128 + j.val) % 128 = j.val; omega

theorem w2_plane0 (W : (⟨S3x128x64, .f32⟩ : BufTy).Contents (Elt Ideal)) : val_main_v21 (F := Ideal) W = Spec.plane W 0 := by
  funext i
  obtain ⟨r, j, rfl⟩ : ∃ (r : Fin 128) (j : Fin 64), i = ix2 r j := ⟨i 0, i 1, eq_ix2 i⟩
  rw [val_main_v21_apply, val_main_v20_apply]
  show W _ = W (ix3 0 r j)
  refine congrArg W (funext fun a => Fin.ext ?_)
  have hr := r.isLt
  have hj := j.isLt
  match a with
  | ⟨0, _⟩ => rfl
  | ⟨1, _⟩ => show (r.val * 64 + j.val) / 64 % 128 = r.val; omega
  | ⟨2, _⟩ => show (r.val * 64 + j.val) % 64 = j.val; omega

theorem w2_plane1 (W : (⟨S3x128x64, .f32⟩ : BufTy).Contents (Elt Ideal)) : val_main_v25 (F := Ideal) W = Spec.plane W 1 := by
  funext i
  obtain ⟨r, j, rfl⟩ : ∃ (r : Fin 128) (j : Fin 64), i = ix2 r j := ⟨i 0, i 1, eq_ix2 i⟩
  rw [val_main_v25_apply, val_main_v24_apply]
  show W _ = W (ix3 1 r j)
  refine congrArg W (funext fun a => Fin.ext ?_)
  have hr := r.isLt
  have hj := j.isLt
  match a with
  | ⟨0, _⟩ => rfl
  | ⟨1, _⟩ => show (r.val * 64 + j.val) / 64 % 128 = r.val; omega
  | ⟨2, _⟩ => show (r.val * 64 + j.val) % 64 = j.val; omega

theorem w2_plane2 (W : (⟨S3x128x64, .f32⟩ : BufTy).Contents (Elt Ideal)) : val_main_v33 (F := Ideal) W = Spec.plane W 2 := by
  funext i
  obtain ⟨r, j, rfl⟩ : ∃ (r : Fin 128) (j : Fin 64), i = ix2 r j := ⟨i 0, i 1, eq_ix2 i⟩
  rw [val_main_v33_apply, val_main_v32_apply]
  show W _ = W (ix3 2 r j)
  refine congrArg W (funext fun a => Fin.ext ?_)
  have hr := r.isLt
  have hj := j.isLt
  match a with
  | ⟨0, _⟩ => rfl
  | ⟨1, _⟩ => show (r.val * 64 + j.val) / 64 % 128 = r.val; omega
  | ⟨2, _⟩ => show (r.val * 64 + j.val) % 64 = j.val; omega

/-! ## The first layer -/

section Layer1

variable (X : (⟨S10000x128, .f32⟩ : BufTy).Contents (Elt Ideal)) (A : (⟨S10000x10000, .f32⟩ : BufTy).Contents (Elt Ideal)) (W1 : (⟨S3x128x128, .f32⟩ : BufTy).Contents (Elt Ideal)) (b1 : (⟨S128, .f32⟩ : BufTy).Contents (Elt Ideal))

theorem xw0 : val_main_v2 (F := Ideal) X W1 = prod X (Spec.plane W1 0) := by
  unfold val_main_v2
  rw [w1_plane0]
  exact dotGeneral_plain_eq none .single X (Spec.plane W1 0)

theorem ax : val_main_v3 (F := Ideal) X A = prod A X := by
  unfold val_main_v3
  exact dotGeneral_plain_eq none .single A X

theorem axw1 : val_main_v6 (F := Ideal) X A W1 = prod (prod A X) (Spec.plane W1 1) := by
  unfold val_main_v6
  rw [ax, w1_plane1]
  exact dotGeneral_plain_eq none .single (prod A X) (Spec.plane W1 1)

theorem aax : val_main_v8 (F := Ideal) X A = prod A (prod A X) := by
  unfold val_main_v8
  rw [ax]
  exact dotGeneral_plain_eq none .single A (prod A X)

theorem cheb_x : val_main_v11 (F := Ideal) X A = Spec.cheb2 A X := by
  funext i
  rw [val_main_v11_apply, val_main_v10_apply, val_main_v9_apply, val_main_cst_apply, aax]
  rfl

theorem chebw2 : val_main_v14 (F := Ideal) X A W1 = prod (Spec.cheb2 A X) (Spec.plane W1 2) := by
  unfold val_main_v14
  rw [cheb_x, w1_plane2]
  exact dotGeneral_plain_eq none .single (Spec.cheb2 A X) (Spec.plane W1 2)

theorem conv1 : val_main_v18 (F := Ideal) X A W1 b1 = Spec.conv A X W1 b1 := by
  funext i
  obtain ⟨r, j, rfl⟩ : ∃ (r : Fin 10000) (j : Fin 128), i = ix2 r j := ⟨i 0, i 1, eq_ix2 i⟩
  rw [val_main_v18_apply, val_main_v15_apply, val_main_v7_apply, val_main_v17_apply, val_main_v16_apply, xw0, axw1, chebw2]
  have hb : idx_main_v16 (idx_main_v17 (ix2 r j)) = ix1 j := funext fun a => match a with | ⟨0, _⟩ => rfl
  rw [hb]
  rfl

theorem hidden1 : val_main_v19 (F := Ideal) X A W1 b1 = Spec.hidden A X W1 b1 := by
  funext i
  rw [val_main_v19_apply, val_main_call0_v0_apply, val_main_call0_cst_apply, conv1]
  rfl

end Layer1

/-! ## The second layer -/

section Layer2

variable (X : (⟨S10000x128, .f32⟩ : BufTy).Contents (Elt Ideal)) (A : (⟨S10000x10000, .f32⟩ : BufTy).Contents (Elt Ideal)) (W1 : (⟨S3x128x128, .f32⟩ : BufTy).Contents (Elt Ideal)) (b1 : (⟨S128, .f32⟩ : BufTy).Contents (Elt Ideal)) (W2 : (⟨S3x128x64, .f32⟩ : BufTy).Contents (Elt Ideal)) (b2 : (⟨S64, .f32⟩ : BufTy).Contents (Elt Ideal))

theorem hw0 : val_main_v22 (F := Ideal) X A W1 b1 W2 = prod (Spec.hidden A X W1 b1) (Spec.plane W2 0) := by
  unfold val_main_v22
  rw [hidden1, w2_plane0]
  exact dotGeneral_plain_eq none .single (Spec.hidden A X W1 b1) (Spec.plane W2 0)

theorem ah : val_main_v23 (F := Ideal) X A W1 b1 = prod A (Spec.hidden A X W1 b1) := by
  unfold val_main_v23
  rw [hidden1]
  exact dotGeneral_plain_eq none .single A (Spec.hidden A X W1 b1)

theorem ahw1 : val_main_v26 (F := Ideal) X A W1 b1 W2 = prod (prod A (Spec.hidden A X W1 b1)) (Spec.plane W2 1) := by
  unfold val_main_v26
  rw [ah, w2_plane1]
  exact dotGeneral_plain_eq none .single (prod A (Spec.hidden A X W1 b1)) (Spec.plane W2 1)

theorem aah : val_main_v28 (F := Ideal) X A W1 b1 = prod A (prod A (Spec.hidden A X W1 b1)) := by
  unfold val_main_v28
  rw [ah]
  exact dotGeneral_plain_eq none .single A (prod A (Spec.hidden A X W1 b1))

theorem cheb_h : val_main_v31 (F := Ideal) X A W1 b1 = Spec.cheb2 A (Spec.hidden A X W1 b1) := by
  funext i
  rw [val_main_v31_apply, val_main_v30_apply, val_main_v29_apply, val_main_cst_0_apply, aah, hidden1]
  rfl

theorem chebhw2 : val_main_v34 (F := Ideal) X A W1 b1 W2 = prod (Spec.cheb2 A (Spec.hidden A X W1 b1)) (Spec.plane W2 2) := by
  unfold val_main_v34
  rw [cheb_h, w2_plane2]
  exact dotGeneral_plain_eq none .single (Spec.cheb2 A (Spec.hidden A X W1 b1)) (Spec.plane W2 2)

theorem conv2 : val_main_v38 (F := Ideal) X A W1 b1 W2 b2 = Spec.conv A (Spec.hidden A X W1 b1) W2 b2 := by
  funext i
  obtain ⟨r, j, rfl⟩ : ∃ (r : Fin 10000) (j : Fin 64), i = ix2 r j := ⟨i 0, i 1, eq_ix2 i⟩
  rw [val_main_v38_apply, val_main_v35_apply, val_main_v27_apply, val_main_v37_apply, val_main_v36_apply, hw0, ahw1, chebhw2]
  have hb : idx_main_v36 (idx_main_v37 (ix2 r j)) = ix1 j := funext fun a => match a with | ⟨0, _⟩ => rfl
  rw [hb]
  rfl

end Layer2

/-! ## The row-wise log-softmax -/

section LogSoftmax

/-- Dropping the column axis of a 10000 × 64 array leaves its rows. -/
theorem reduces_cols : S10000x64.Reduces [1] S10000 := by decide

/-- Row `r` with column `k` put back is the entry (r, k). -/
theorem lift_row (r : Fin 10000) (k : Fin (S10000x64.size 1)) :
    reduces_cols.lift (ix1 r) k = ix2 r (⟨k.val, k.isLt⟩ : Fin 64) := by
  funext c; apply Fin.ext
  fin_cases c <;> rfl

variable (L : FVec Ideal S10000x64 .f32)

/-- The host's reduce with a maximum body over the columns, from −∞, is the row maximum. -/
theorem reduce_max_row (r : Fin 10000) :
    Host.reduce (FloatOps.maximumf (F := Ideal) (φ := .f32)) L (constant S_ .f32 0xFF800000#32 : FVec Ideal S_ .f32)
      reducesTo_S10000x64_S10000_d1 h_S_ (ix1 r) = Spec.rowMax L r := by
  rw [Host.reduce_eq_fold_single (FloatOps.maximumf (F := Ideal) (φ := .f32)) L _ reducesTo_S10000x64_S10000_d1 reduces_cols h_S_]
  have hf : (L ∘ reduces_cols.lift (ix1 r)) = fun k : Fin 64 => L (ix2 r k) := funext fun k => congrArg L (lift_row r k)
  exact congrArg (fun f => Finset.fold max (Ideal.ofBits .f32 0xFF800000#32) f (Finset.univ : Finset (Fin 64))) hf

/-- The maximum of −∞ and the row maximum is the row maximum: the fold starts at −∞. -/
theorem max_negInf_rowMax (r : Fin 10000) : max Spec.negInf (Spec.rowMax L r) = Spec.rowMax L r := by
  unfold Spec.rowMax
  exact max_eq_right ((Finset.le_fold_max _).2 (Or.inl le_rfl))

end LogSoftmax

section Net

variable (X : (⟨S10000x128, .f32⟩ : BufTy).Contents (Elt Ideal)) (A : (⟨S10000x10000, .f32⟩ : BufTy).Contents (Elt Ideal)) (W1 : (⟨S3x128x128, .f32⟩ : BufTy).Contents (Elt Ideal)) (b1 : (⟨S128, .f32⟩ : BufTy).Contents (Elt Ideal)) (W2 : (⟨S3x128x64, .f32⟩ : BufTy).Contents (Elt Ideal)) (b2 : (⟨S64, .f32⟩ : BufTy).Contents (Elt Ideal))

/-- The maximum the reference subtracts from row `r`. -/
theorem row_max (r : Fin 10000) :
    val_main_call1_v2 (F := Ideal) X A W1 b1 W2 b2 (ix1 r) = Spec.rowMax (Spec.conv A (Spec.hidden A X W1 b1) W2 b2) r := by
  rw [val_main_call1_v2_apply, val_main_call1_v1_apply, val_main_call1_cst_0_apply]
  unfold val_main_call1_v0 val_main_call1_cst
  rw [conv2, reduce_max_row]
  exact max_negInf_rowMax _ r

/-- The shifted logits. -/
theorem shifted (r : Fin 10000) (j : Fin 64) :
    val_main_call1_v5 (F := Ideal) X A W1 b1 W2 b2 (ix2 r j)
      = Spec.conv A (Spec.hidden A X W1 b1) W2 b2 (ix2 r j) - Spec.rowMax (Spec.conv A (Spec.hidden A X W1 b1) W2 b2) r := by
  rw [val_main_call1_v5_apply, val_main_call1_v4_apply, val_main_call1_v3_apply, conv2]
  have hi : idx_main_call1_v3 (idx_main_call1_v4 (ix2 r j)) = ix1 r := funext fun a => match a with | ⟨0, _⟩ => rfl
  rw [hi, row_max]
  rfl

/-- The logarithm of the row's sum of exponentials. -/
theorem log_sum (r : Fin 10000) (j : Fin 64) :
    val_main_call1_v10 (F := Ideal) X A W1 b1 W2 b2 (ix2 r j)
      = Ideal.log (∑ k : Fin 64, Ideal.exp (Spec.conv A (Spec.hidden A X W1 b1) W2 b2 (ix2 r k)
          - Spec.rowMax (Spec.conv A (Spec.hidden A X W1 b1) W2 b2) r)) := by
  rw [val_main_call1_v10_apply, val_main_call1_v9_apply, val_main_call1_v8_apply]
  have hi : idx_main_call1_v8 (idx_main_call1_v10 (ix2 r j)) = ix1 r := funext fun a => match a with | ⟨0, _⟩ => rfl
  rw [hi, val_main_call1_v7_apply, val_main_call1_cst_1_apply, Ideal.hostUnary_log_def]
  refine congrArg Ideal.log ?_
  show Ideal.ofBits .f32 0x00000000#32 + _ = _
  rw [Ideal.ofBits_zero_f32, zero_add]
  refine Finset.sum_congr rfl fun k _ => ?_
  have hk : idx_main_call1_v7 (ix1 r) k = ix2 r k := funext fun a => match a with | ⟨0, _⟩ => rfl | ⟨1, _⟩ => rfl
  rw [hk, val_main_call1_v6_apply, Ideal.hostUnary_exp_def, shifted]

/-- THE REFERENCE'S RESULT, as a function of its six inputs, is the network. -/
theorem val_net : val_main_v39 (F := Ideal) X A W1 b1 W2 b2 = Spec.net X A W1 b1 W2 b2 := by
  funext i
  obtain ⟨r, j, rfl⟩ : ∃ (r : Fin 10000) (j : Fin 64), i = ix2 r j := ⟨i 0, i 1, eq_ix2 i⟩
  rw [val_main_v39_apply, shifted, log_sum]
  rfl

end Net

/-- The reference's result buffer holds the network of the launch contents of its six arguments. -/
theorem ref_net (m : (ℓ : Loc nD τ sig) → Buf (Elt Ideal) ℓ) (c : Dev nD) :
    (Cert.ReferenceIdeal.Value.res_main_v39 (F := Ideal) m c : (⟨2, ![10000, 64]⟩ : Shape).Idx → EReal)
      = Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v39_eq (F := Ideal) m c).trans (val_net _ _ _ _ _ _)

/-- Every weakly fair execution of the reference ends with the network in its result buffer and its arguments
    unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39)
          = Spec.net (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1).trans (ref_net m c), (h c).2⟩) (Cert.ReferenceIdeal.Value.run m ρ)

end Cert.ReferenceIdeal.RefValue

end
-- ==== Proof.RefFrame.lean ====
/-
  The reference program runs to completion and leaves its six argument arrays as they were: the part of its run that
  speaks of the arguments only.
-/
import proofs.«118616_g893353198325_cont_sun_c4_277_2_alg».proof.Defs
import proofs.«118616_g893353198325_cont_sun_c4_277_2_alg».proof.Proof.Gen.Pre_finite_inputs
import proofs.«118616_g893353198325_cont_sun_c4_277_2_alg».proof.Proof.RefRun

noncomputable section

namespace Cert.ReferenceIdeal.RefValue

open Idealize.ShloMosaic Idealize.ShloMosaic.TcCoe Idealize.SL.Sem

/-- Every weakly fair execution of the reference terminates without fault, its arguments unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of a two-layer Chebyshev graph network computed by four row-tiled matrix-product calls against its
  plain reference.

  Frames. The kernel program is one stretch of host operations and four calls; each call is run block by block over
  25 points, its inputs' blocks read where the index maps say and each output block written back once, so the program
  runs to the end, nothing faults, and no argument array is written (Proof/RunK.lean at the word level, Proof/RunKI.lean
  for the idealized program; the calls' bodies are in Proof/FrK*.lean and Proof/FrKI*.lean, the dealing of an array read
  through two windows in Proof/SplitK.lean and Proof/SplitKI.lean). The reference is a straight line of host operations.

  Values, on the extended reals. Both programs compute Cert.Spec.net of the arguments (Proof/Spec.lean): the kernel call
  by call (Proof/ValKI*.lean: each call's output array as a function of what it found; Proof/BridgeKI.lean: the
  substitution), the reference operation by operation (Proof/RefValue.lean). The casts to bf16 are the identity there,
  a matrix product into a zero accumulator and the host's dot_general are the same sum, and the two spellings of the
  row-wise log-softmax differ only by a maximum with −∞. The idealization rewrote nothing, so the preservation
  conjunct is `True`.
-/
import proofs.«118616_g893353198325_cont_sun_c4_277_2_alg».proof.Proof.Gen.Kernel
import proofs.«118616_g893353198325_cont_sun_c4_277_2_alg».proof.Proof.Gen.KernelIdeal
import proofs.«118616_g893353198325_cont_sun_c4_277_2_alg».proof.Proof.Gen.ReferenceIdeal
import proofs.«118616_g893353198325_cont_sun_c4_277_2_alg».proof.Proof.Gen.Pre_finite_inputs
import proofs.«118616_g893353198325_cont_sun_c4_277_2_alg».proof.Proof.RunK
import proofs.«118616_g893353198325_cont_sun_c4_277_2_alg».proof.Proof.RunKI
import proofs.«118616_g893353198325_cont_sun_c4_277_2_alg».proof.Proof.BridgeKI
import proofs.«118616_g893353198325_cont_sun_c4_277_2_alg».proof.Proof.RefValue
import proofs.«118616_g893353198325_cont_sun_c4_277_2_alg».proof.Proof.RefFrame
import proofs.«118616_g893353198325_cont_sun_c4_277_2_alg».proof.Defs

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- From memories agreeing on the arguments both idealized programs end with the network of the arguments in their
    result arrays. -/
theorem algebraic : Cert.algebraic_KernelIdeal_ReferenceIdeal := by
  intro m ρ m' ρ' _ hagree
  refine ⟨fun c => Cert.Spec.net (Cert.KernelIdeal.Val.aX m c) (Cert.KernelIdeal.Val.aA m c) (Cert.KernelIdeal.Val.aW1 m c)
      (Cert.KernelIdeal.Val.ab1 m c) (Cert.KernelIdeal.Val.aW2 m c) (Cert.KernelIdeal.Val.ab2 m c), ?_, ?_⟩
  · exact (θ_run Cert.KernelIdeal.defs _ _).mono
      (fun r h c => ⟨(h c).1.trans (Cert.KernelIdeal.Val.result_net m c), (h c).2⟩)
      (Cert.KernelIdeal.Fr.run_result (F := Ideal) m ρ)
  · refine (θ_run Cert.ReferenceIdeal.defs _ _).mono (fun r h c => ⟨(h c).1.trans ?_, (h c).2⟩)
      (Cert.ReferenceIdeal.RefValue.run_net m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
